-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S152x128 : Shape := ⟨2, ![152, 128]⟩
abbrev S_ : Shape := ⟨0, ![]⟩
abbrev S9x78 : Shape := ⟨2, ![9, 78]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S152x128 : S_.BroadcastsInDim S152x128 (![] : Fin 0 → Fin S152x128.rank)
  reducesTo_S152x128_S_d0_1 : S152x128.ReducesTo [0, 1] S_
  slices_S152x128_S9x78_0_50 : S152x128.Slices ![0, 50] S9x78
  bcast_S_S9x78 : S_.BroadcastsInDim S9x78 (![] : Fin 0 → Fin S9x78.rank)
  reducesTo_S9x78_S_d0_1 : S9x78.ReducesTo [0, 1] S_

variable [Facts]

def fn {F : FTy → Type} [FloatOps F] (main_arg0 : FVec F S2097152x4 .f32) (main_arg1 : FVec F S152x128 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S152x128 .f32 := Host.absf main_arg1
  let main_cst_0 : FVec F S_ .f32 := constant S_ .f32 0x7F800000#32
  let main_v5 : FVec F S152x128 .f32 := broadcastInDim S152x128 ![] bcast_S_S152x128 main_cst_0
  let main_v6 : IVec S152x128 1 := cmpf .olt main_v4 main_v5
  let main_c_1 : IVec S_ 1 := constantI S_ 1 1#1
  let main_v7 : IVec S_ 1 := (fun x v => Host.reduce IntOp.andi x v reducesTo_S152x128_S_d0_1 h_S_) main_v6 main_c_1
  let main_v8 : IVec S_ 1 := andi main_v3 main_v7
  let main_v9 : FVec F S9x78 .f32 := (extractStridedSlice S9x78 ![0, 50] · slices_S152x128_S9x78_0_50) main_arg1
  let main_cst_2 : FVec F S_ .f32 := constant S_ .f32 0x00000000#32
  let main_v10 : FVec F S9x78 .f32 := broadcastInDim S9x78 ![] bcast_S_S9x78 main_cst_2
  let main_v11 : IVec S9x78 1 := cmpf .oeq main_v9 main_v10
  let main_c_3 : IVec S_ 1 := constantI S_ 1 1#1
  let main_v12 : IVec S_ 1 := (fun x v => Host.reduce IntOp.andi x v reducesTo_S9x78_S_d0_1 h_S_) main_v11 main_c_3
  let main_v13 : IVec S_ 1 := andi main_v8 main_v12
  main_v13
-- ==== Kernel.lean ====
abbrev S2097152x4 : Shape := ⟨2, ![2097152, 4]⟩
abbrev S152x128 : Shape := ⟨2, ![152, 128]⟩
abbrev S4x2097152 : Shape := ⟨2, ![4, 2097152]⟩
abbrev S4x56 : Shape := ⟨2, ![4, 56]⟩
abbrev S1x56 : Shape := ⟨2, ![1, 56]⟩
abbrev S1x8 : Shape := ⟨2, ![1, 8]⟩
abbrev S56x8 : Shape := ⟨2, ![56, 8]⟩
abbrev S_ : Shape := ⟨0, ![]⟩
abbrev S1 : Shape := ⟨1, ![1]⟩
abbrev S2 : Shape := ⟨1, ![2]⟩
abbrev S8 : Shape := ⟨1, ![8]⟩
abbrev S8x112 : Shape := ⟨2, ![8, 112]⟩
abbrev S112x16 : Shape := ⟨2, ![112, 16]⟩
abbrev S1x112 : Shape := ⟨2, ![1, 112]⟩
abbrev S112x1 : Shape := ⟨2, ![112, 1]⟩
abbrev S3x2097152 : Shape := ⟨2, ![3, 2097152]⟩
abbrev S2097152x3 : Shape := ⟨2, ![2097152, 3]⟩
abbrev S4x65536 : Shape := ⟨2, ![4, 65536]⟩
abbrev S3x131072 : Shape := ⟨2, ![3, 131072]⟩
abbrev S112x65536 : Shape := ⟨2, ![112, 65536]⟩
abbrev S8x65536 : Shape := ⟨2, ![8, 65536]⟩
abbrev S16x65536 : Shape := ⟨2, ![16, 65536]⟩
abbrev S3x65536 : Shape := ⟨2, ![3, 65536]⟩

abbrev nBuf : Space → Nat
  | .hbm => 55
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S152x128, .f32⟩
  | .hbm, ⟨2, _⟩ => ⟨S4x2097152, .f32⟩
  | .hbm, ⟨3, _⟩ => ⟨S4x56, .f32⟩
  | .hbm, ⟨4, _⟩ => ⟨S1x56, .f32⟩
  | .hbm, ⟨5, _⟩ => ⟨S1x8, .f32⟩
  | .hbm, ⟨6, _⟩ => ⟨S56x8, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S_, .f32⟩
  | .hbm, ⟨13, _⟩ => ⟨S1x56, .f32⟩
  | .hbm, ⟨14, _⟩ => ⟨S8, .f32⟩
  | .hbm, ⟨15, _⟩ => ⟨S_, .i32⟩
  | .hbm, ⟨16, _⟩ => ⟨S1, .i32⟩
  | .hbm, ⟨17, _⟩ => ⟨S56x8, .f32⟩
  | .hbm, ⟨18, _⟩ => ⟨S_, .bf16⟩
  | .hbm, ⟨19, _⟩ => ⟨S8x112, .bf16⟩
  | .hbm, ⟨20, _⟩ => ⟨S4x56, .bf16⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S8x112, .bf16⟩
  | .hbm, ⟨27, _⟩ => ⟨S4x56, .bf16⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S8x112, .bf16⟩
  | .hbm, ⟨34, _⟩ => ⟨S_, .bf16⟩
  | .hbm, ⟨35, _⟩ => ⟨S112x16, .bf16⟩
  | .hbm, ⟨36, _⟩ => ⟨S56x8, .bf16⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S112x16, .bf16⟩
  | .hbm, ⟨43, _⟩ => ⟨S56x8, .bf16⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S112x16, .bf16⟩
  | .hbm, ⟨50, _⟩ => ⟨S1x112, .f32⟩
  | .hbm, ⟨51, _⟩ => ⟨S112x1, .f32⟩
  | .hbm, ⟨52, _⟩ => ⟨S112x1, .bf16⟩
  | .hbm, ⟨53, _⟩ => ⟨S3x2097152, .f32⟩
  | .hbm, ⟨54, _⟩ => ⟨S2097152x3, .f32⟩
  | .local _ .vmem, ⟨0, _⟩ => ⟨S4x65536, .f32⟩
  | .local _ .vmem, ⟨1, _⟩ => ⟨S4x65536, .f32⟩
  | .local _ .vmem, ⟨2, _⟩ => ⟨S4x65536, .f32⟩
  | .local _ .vmem, ⟨3, _⟩ => ⟨S4x65536, .f32⟩
  | .local _ .vmem, ⟨4, _⟩ => ⟨S8x112, .bf16⟩
  | .local _ .vmem, ⟨5, _⟩ => ⟨S112x1, .bf16⟩
  | .local _ .vmem, ⟨6, _⟩ => ⟨S112x16, .bf16⟩
  | .local _ .vmem, ⟨7, _⟩ => ⟨S3x131072, .f32⟩
  | .local _ .vmem, ⟨8, _⟩ => ⟨S3x131072, .f32⟩
  | .local _ .vmem, ⟨9, _⟩ => ⟨S112x65536, .bf16⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_c : Ref sig .tc := ⟨.hbm, 7, rfl⟩
abbrev main_call0_v5 : Ref sig .tc := ⟨.hbm, 8, rfl⟩
abbrev main_call0_c_0 : Ref sig .tc := ⟨.hbm, 9, rfl⟩
abbrev main_call0_v6 : Ref sig .tc := ⟨.hbm, 10, rfl⟩
abbrev main_call0_v7 : Ref sig .tc := ⟨.hbm, 11, rfl⟩
abbrev main_call0_cst : Ref sig .tc := ⟨.hbm, 12, rfl⟩
abbrev main_call0_v8 : Ref sig .tc := ⟨.hbm, 13, rfl⟩
abbrev main_call0_v9 : Ref sig .tc := ⟨.hbm, 14, rfl⟩
abbrev main_call0_c_1 : Ref sig .tc := ⟨.hbm, 15, rfl⟩
abbrev main_call0_v10 : Ref sig .tc := ⟨.hbm, 16, rfl⟩
abbrev main_call0_v11 : Ref sig .tc := ⟨.hbm, 17, rfl⟩
abbrev main_call0_cst_2 : Ref sig .tc := ⟨.hbm, 18, rfl⟩
abbrev main_call0_v12 : Ref sig .tc := ⟨.hbm, 19, rfl⟩
abbrev main_call0_v13 : Ref sig .tc := ⟨.hbm, 20, rfl⟩
abbrev main_call0_c_3 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_c_5 : Ref sig .tc := ⟨.hbm, 28, rfl⟩
abbrev main_call0_v19 : Ref sig .tc := ⟨.hbm, 29, rfl⟩
abbrev main_call0_c_6 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_cst_7 : Ref sig .tc := ⟨.hbm, 34, rfl⟩
abbrev main_call0_v23 : Ref sig .tc := ⟨.hbm, 35, rfl⟩
abbrev main_call0_v24 : Ref sig .tc := ⟨.hbm, 36, rfl⟩
abbrev main_call0_c_8 : Ref sig .tc := ⟨.hbm, 37, rfl⟩
abbrev main_call0_v25 : Ref sig .tc := ⟨.hbm, 38, rfl⟩
abbrev main_call0_c_9 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_c_10 : Ref sig .tc := ⟨.hbm, 44, rfl⟩
abbrev main_call0_v30 : Ref sig .tc := ⟨.hbm, 45, rfl⟩
abbrev main_call0_c_11 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_v36 : Ref sig .tc := ⟨.hbm, 52, rfl⟩
abbrev main_call0_v37 : Ref sig .tc := ⟨.hbm, 53, rfl⟩
abbrev main_v0 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x112 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S112x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S112x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3x131072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S2097152x4_S4x2097152_1_0 : S2097152x4.Transposes [1, 0] S4x2097152
  slices_S152x128_S4x56_0_0 : S152x128.Slices ![0, 0] S4x56
  slices_S152x128_S1x56_8_0 : S152x128.Slices ![8, 0] S1x56
  slices_S152x128_S1x8_144_0 : S152x128.Slices ![144, 0] S1x8
  slices_S152x128_S56x8_16_0 : S152x128.Slices ![16, 0] S56x8
  bcast_S_S1 : S_.BroadcastsInDim S1 (![] : Fin 0 → Fin S1.rank)
  concatenates_S1_S1_S2_d0 : Shape.Concatenates [S1, S1] S2 0
  shapeCasts_S1x8_S8 : S1x8.ShapeCasts S8
  bcast_S_S8x112 : S_.BroadcastsInDim S8x112 (![] : Fin 0 → Fin S8x112.rank)
  bitsLt_bf16_f32 : FTy.bits .bf16 < FTy.bits .f32
  bcast_S_S112x16 : S_.BroadcastsInDim S112x16 (![] : Fin 0 → Fin S112x16.rank)
  concatenates_S1x56_S1x56_S1x112_d1 : Shape.Concatenates [S1x56, S1x56] S1x112 1
  transposes_S1x112_S112x1_1_0 : S1x112.Transposes [1, 0] S112x1
  transposes_S3x2097152_S2097152x3_1_0 : S3x2097152.Transposes [1, 0] S2097152x3
  inb_S4x65536_S4x65536_0_0 : ∀ a, (![0, 0] : Fin 2 → Nat) a + S4x65536.size a ≤ S4x65536.size a
  h_S4x65536 : 0 < S4x65536.numel
  shapeCasts_S4x65536_S4x65536 : S4x65536.ShapeCasts S4x65536
  concatenates_S4x65536_S4x65536_S8x65536_d0 : Shape.Concatenates [S4x65536, S4x65536] S8x65536 0
  inb_S8x112_S8x112_0_0 : ∀ a, (![0, 0] : Fin 2 → Nat) a + S8x112.size a ≤ S8x112.size a
  h_S8x112 : 0 < S8x112.numel
  shapeCasts_S8x112_S8x112 : S8x112.ShapeCasts S8x112
  inb_S112x1_S112x1_0_0 : ∀ a, (![0, 0] : Fin 2 → Nat) a + S112x1.size a ≤ S112x1.size a
  h_S112x1 : 0 < S112x1.numel
  shapeCasts_S112x1_S112x1 : S112x1.ShapeCasts S112x1
  broadcasts_S112x1_S112x65536 : S112x1.Broadcasts S112x65536
  inb_S112x65536_S112x65536_0_0 : ∀ a, (![0, 0] : Fin 2 → Nat) a + S112x65536.size a ≤ S112x65536.size a
  h_S112x65536 : 0 < S112x65536.numel
  shapeCasts_S112x65536_S112x65536 : S112x65536.ShapeCasts S112x65536
  packedbf16_S112x65536_S112x65536_0_0 : (Rect.unit (s := S112x65536) ![0, 0] S112x65536.size inb_S112x65536_S112x65536_0_0).PackedRows (EltTy.packing .bf16)
  inb_S112x16_S112x16_0_0 : ∀ a, (![0, 0] : Fin 2 → Nat) a + S112x16.size a ≤ S112x16.size a
  h_S112x16 : 0 < S112x16.numel
  shapeCasts_S112x16_S112x16 : S112x16.ShapeCasts S112x16
  slices_S16x65536_o0_0_S3x65536 : S16x65536.Slices ![0, 0] S3x65536
  inb_S3x131072_S3x65536_0_0 : ∀ a, (![0, 0] : Fin 2 → Nat) a + S3x65536.size a ≤ S3x131072.size a
  h_S3x65536 : 0 < S3x65536.numel
  slices_S16x65536_o8_0_S3x65536 : S16x65536.Slices ![8, 0] S3x65536
  inb_S3x131072_S3x65536_0_65536 : ∀ a, (![0, 65536] : Fin 2 → Nat) a + S3x65536.size a ≤ S3x131072.size a
  scatter_S1x56_S2_S__n_01_01_0_wf : ScatterDims.WF S1x56 S2 S_ [] [0, 1] [0, 1] 0
  scatter_S56x8_S1_S8_0_0_0_0_wf : ScatterDims.WF S56x8 S1 S8 [0] [0] [0] 0
  scatter_S8x112_S2_S4x56_01_n_01_0_wf : ScatterDims.WF S8x112 S2 S4x56 [0, 1] [] [0, 1] 0
  scatter_S112x16_S2_S56x8_01_n_01_0_wf : ScatterDims.WF S112x16 S2 S56x8 [0, 1] [] [0, 1] 0
  dot_S8x112_S8x65536_S112x65536_0_0_1_1_n_n_wf : DotDims.WF S8x112 S8x65536 S112x65536 [0] [0] [1] [1] [] []
  dot_S112x16_S112x65536_S16x65536_0_0_1_1_n_n_wf : DotDims.WF S112x16 S112x65536 S16x65536 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x65536.size a ≤ S4x2097152.size a
  hwx0_0 : ∀ i : grid0.Coords, EltTy.bits .f32 = 32 ∨ (Rect.block (s := S4x2097152) S4x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x65536.size a ≤ S4x2097152.size a
  hwx0_1 : ∀ i : grid0.Coords, EltTy.bits .f32 = 32 ∨ (Rect.block (s := S4x2097152) S4x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x112.size a ≤ S8x112.size a
  hwx0_2 : ∀ i : grid0.Coords, EltTy.bits .bf16 = 32 ∨ (Rect.block (s := S8x112) S8x112.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S112x1.size a ≤ S112x1.size a
  hwx0_3 : ∀ i : grid0.Coords, EltTy.bits .bf16 = 32 ∨ (Rect.block (s := S112x1) S112x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S112x16.size a ≤ S112x16.size a
  hwx0_4 : ∀ i : grid0.Coords, EltTy.bits .bf16 = 32 ∨ (Rect.block (s := S112x16) S112x16.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x131072.size a ≤ S3x2097152.size a
  hwx0_5 : ∀ i : grid0.Coords, EltTy.bits .f32 = 32 ∨ (Rect.block (s := S3x2097152) S3x131072.size (cc0_transform_5 i) (hinb0_5 i)).WholeWords (EltTy.packing .f32)

variable [Facts₀]

def scatter_S1x56_S2_S__n_01_01_0 : ScatterDims S1x56 S2 S_ where
  updateWindowDims := []
  insertedWindowDims := [0, 1]
  scatterDimsToOperandDims := [0, 1]
  indexVectorDim := 0
  wf := scatter_S1x56_S2_S__n_01_01_0_wf
def scatter_S56x8_S1_S8_0_0_0_0 : ScatterDims S56x8 S1 S8 where
  updateWindowDims := [0]
  insertedWindowDims := [0]
  scatterDimsToOperandDims := [0]
  indexVectorDim := 0
  wf := scatter_S56x8_S1_S8_0_0_0_0_wf
def scatter_S8x112_S2_S4x56_01_n_01_0 : ScatterDims S8x112 S2 S4x56 where
  updateWindowDims := [0, 1]
  insertedWindowDims := []
  scatterDimsToOperandDims := [0, 1]
  indexVectorDim := 0
  wf := scatter_S8x112_S2_S4x56_01_n_01_0_wf
def scatter_S112x16_S2_S56x8_01_n_01_0 : ScatterDims S112x16 S2 S56x8 where
  updateWindowDims := [0, 1]
  insertedWindowDims := []
  scatterDimsToOperandDims := [0, 1]
  indexVectorDim := 0
  wf := scatter_S112x16_S2_S56x8_01_n_01_0_wf
def dot_S8x112_S8x65536_S112x65536_0_0_1_1_n_n : DotDims S8x112 S8x65536 S112x65536 where
  lhsContracting := [0]
  rhsContracting := [0]
  lhsNonContracting := [1]
  rhsNonContracting := [1]
  lhsBatch := []
  rhsBatch := []
  wf := dot_S8x112_S8x65536_S112x65536_0_0_1_1_n_n_wf
def dot_S112x16_S112x65536_S16x65536_0_0_1_1_n_n : DotDims S112x16 S112x65536 S16x65536 where
  lhsContracting := [0]
  rhsContracting := [0]
  lhsNonContracting := [1]
  rhsNonContracting := [1]
  lhsBatch := []
  rhsBatch := []
  wf := dot_S112x16_S112x65536_S16x65536_0_0_1_1_n_n_wf

abbrev win0_0 : Pipeline.Window sig grid0 :=
  Pipeline.Window.ofSpec (Memref.whole main_call0_v0) S4x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S4x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S8x112.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v36) S112x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v33) S112x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v37) S3x131072.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S152x128 : Shape := ⟨2, ![152, 128]⟩
abbrev S_ : Shape := ⟨0, ![]⟩
abbrev S2097152x8 : Shape := ⟨2, ![2097152, 8]⟩
abbrev S1 : Shape := ⟨1, ![1]⟩
abbrev S2097152x128 : Shape := ⟨2, ![2097152, 128]⟩
abbrev S512x8 : Shape := ⟨2, ![512, 8]⟩
abbrev S512x128 : Shape := ⟨2, ![512, 128]⟩
abbrev S8x128 : Shape := ⟨2, ![8, 128]⟩
abbrev S1x128 : Shape := ⟨2, ![1, 128]⟩
abbrev S128x128 : Shape := ⟨2, ![128, 128]⟩
abbrev S2097152x3 : Shape := ⟨2, ![2097152, 3]⟩

abbrev nBuf : Space → Nat
  | .hbm => 9
  | .vmem => 5
  | .smem => 0
  | _ => 0

abbrev bufTy : (tb : Table) → Fin (tcTables nBuf tb) → BufTy
  | .hbm, ⟨0, _⟩ => ⟨S2097152x4, .f32⟩
  | .hbm, ⟨1, _⟩ => ⟨S152x128, .f32⟩
  | .hbm, ⟨2, _⟩ => ⟨S_, .f32⟩
  | .hbm, ⟨3, _⟩ => ⟨S2097152x8, .f32⟩
  | .hbm, ⟨4, _⟩ => ⟨S_, .i32⟩
  | .hbm, ⟨5, _⟩ => ⟨S1, .i32⟩
  | .hbm, ⟨6, _⟩ => ⟨S2097152x8, .f32⟩
  | .hbm, ⟨7, _⟩ => ⟨S2097152x128, .f32⟩
  | .hbm, ⟨8, _⟩ => ⟨S2097152x3, .f32⟩
  | .local _ .vmem, ⟨0, _⟩ => ⟨S512x8, .f32⟩
  | .local _ .vmem, ⟨1, _⟩ => ⟨S512x8, .f32⟩
  | .local _ .vmem, ⟨2, _⟩ => ⟨S152x128, .f32⟩
  | .local _ .vmem, ⟨3, _⟩ => ⟨S512x128, .f32⟩
  | .local _ .vmem, ⟨4, _⟩ => ⟨S512x128, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2097152x8 : S_.BroadcastsInDim S2097152x8 (![] : Fin 0 → Fin S2097152x8.rank)
  bcast_S_S1 : S_.BroadcastsInDim S1 (![] : Fin 0 → Fin S1.rank)
  inb_S152x128_S8x128_0_0 : ∀ a, (![0, 0] : Fin 2 → Nat) a + S8x128.size a ≤ S152x128.size a
  h_S8x128 : 0 < S8x128.numel
  inb_S152x128_S1x128_8_0 : ∀ a, (![8, 0] : Fin 2 → Nat) a + S1x128.size a ≤ S152x128.size a
  h_S1x128 : 0 < S1x128.numel
  inb_S152x128_S128x128_16_0 : ∀ a, (![16, 0] : Fin 2 → Nat) a + S128x128.size a ≤ S152x128.size a
  h_S128x128 : 0 < S128x128.numel
  inb_S152x128_S1x128_144_0 : ∀ a, (![144, 0] : Fin 2 → Nat) a + S1x128.size a ≤ S152x128.size a
  inb_S512x8_S512x8_0_0 : ∀ a, (![0, 0] : Fin 2 → Nat) a + S512x8.size a ≤ S512x8.size a
  h_S512x8 : 0 < S512x8.numel
  shapeCasts_S512x8_S512x8 : S512x8.ShapeCasts S512x8
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S2097152x128_S2097152x3_0_0 : S2097152x128.Slices ![0, 0] S2097152x3
  scatter_S2097152x8_S1_S2097152x4_01_n_1_0_wf : ScatterDims.WF S2097152x8 S1 S2097152x4 [0, 1] [] [1] 0
  dot_S512x8_S8x128_S512x128_1_0_0_1_n_n_wf : DotDims.WF S512x8 S8x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S2097152x8.size a
  hwx0_0 : ∀ i : grid0.Coords, EltTy.bits .f32 = 32 ∨ (Rect.block (s := S2097152x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S152x128.size a ≤ S152x128.size a
  hwx0_1 : ∀ i : grid0.Coords, EltTy.bits .f32 = 32 ∨ (Rect.block (s := S152x128) S152x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S2097152x128.size a
  hwx0_2 : ∀ i : grid0.Coords, EltTy.bits .f32 = 32 ∨ (Rect.block (s := S2097152x128) S512x128.size (cc0_transform_2 i) (hinb0_2 i)).WholeWords (EltTy.packing .f32)

variable [Facts₀]

def scatter_S2097152x8_S1_S2097152x4_01_n_1_0 : ScatterDims S2097152x8 S1 S2097152x4 where
  updateWindowDims := [0, 1]
  insertedWindowDims := []
  scatterDimsToOperandDims := [1]
  indexVectorDim := 0
  wf := scatter_S2097152x8_S1_S2097152x4_01_n_1_0_wf
def dot_S512x8_S8x128_S512x128_1_0_0_1_n_n : DotDims S512x8 S8x128 S512x128 where
  lhsContracting := [1]
  rhsContracting := [0]
  lhsNonContracting := [0]
  rhsNonContracting := [1]
  lhsBatch := []
  rhsBatch := []
  wf := dot_S512x8_S8x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v2) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.KFrameB.lean ====
import proofs.«130756_g2000304380712430_pallasbulk_699_25_alg».proof.Proof.Gen.Kernel.Launch
import proofs.«130756_g2000304380712430_pallasbulk_699_25_alg».proof.Proof.Gen.Kernel.Skeleton
import proofs.«130756_g2000304380712430_pallasbulk_699_25_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  The proof data of the kernel's one region and its body's triple, for any float instance.

  A grid point `t` is handed two blocks of 65536 columns of the transposed input (columns `131072·t ..` and
  `131072·t + 65536 ..`), the 8×112 and 112×16 block-diagonal weights and the 112×1 bias, whole. The body stacks the
  two blocks on the rows, multiplies, adds the bias, clamps at zero into a scratch it reads straight back, multiplies
  again, and stores rows 0..2 of the product into the left half of its 3×131072 output block and rows 8..10 into the
  right half: two stores that tile the block. Nothing is kept between points, so after the body the output's buffer
  is the canonical contents of those two stores as a function of the five input blocks.
-/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev rX : Rect S4x65536 := Rect.unit (s := S4x65536) ![0, 0] S4x65536.size inb_S4x65536_S4x65536_0_0
abbrev rW1 : Rect S8x112 := Rect.unit (s := S8x112) ![0, 0] S8x112.size inb_S8x112_S8x112_0_0
abbrev rB : Rect S112x1 := Rect.unit (s := S112x1) ![0, 0] S112x1.size inb_S112x1_S112x1_0_0
abbrev rH : Rect S112x65536 := Rect.unit (s := S112x65536) ![0, 0] S112x65536.size inb_S112x65536_S112x65536_0_0
abbrev rW2 : Rect S112x16 := Rect.unit (s := S112x16) ![0, 0] S112x16.size inb_S112x16_S112x16_0_0
abbrev rOa : Rect S3x131072 := Rect.unit (s := S3x131072) ![0, 0] S3x65536.size inb_S3x131072_S3x65536_0_0
abbrev rOb : Rect S3x131072 := Rect.unit (s := S3x131072) ![0, 65536] S3x65536.size inb_S3x131072_S3x65536_0_65536

/-- The clamped first product of the point's input blocks: what the scratch holds between the two products. -/
def hidden (x0 x1 : Vec F S4x65536 .f32) (x2 : Vec F S8x112 .bf16) (x3 : Vec F S112x1 .bf16) : FVec F S112x65536 .bf16 :=
  k0_pay1 (View.ld x0 rX) (View.ld x1 rX) (View.ld x2 rW1) (View.ld x3 rB)

/-- The output window's staging buffer after the body, from the five input blocks: the two stores as pieces, last
    first. -/
def out5 (x0 x1 : Vec F S4x65536 .f32) (x2 : Vec F S8x112 .bf16) (x3 : Vec F S112x1 .bf16) (x4 : Vec F S112x16 .bf16) : Vec F S3x131072 .f32 :=
  View.canon [⟨rOb, k0_pay4 (View.ld x4 rW2) (hidden x0 x1 x2 x3)⟩, ⟨rOa, k0_pay3 (View.ld x4 rW2) (hidden x0 x1 x2 x3)⟩]

/-- The two half-block stores tile the block, so they cover it. -/
theorem cover5 (p0 p1 : Vec F S3x65536 .f32) (y : S3x131072.Idx) :
    ∃ pc ∈ ([⟨rOb, p0⟩, ⟨rOa, p1⟩] : List (View.Piece (Elt F) S3x131072 .f32)), y ∈ pc.1.set :=
  View.cover_of_tiled [⟨rOb, p0⟩, ⟨rOa, p1⟩] S3x65536.size (by rfl) y

theorem zero2 : (![0, 0] : Fin 2 → Nat) = fun _ => 0 := by
  funext a; match a with | ⟨0, _⟩ => rfl | ⟨1, _⟩ => rfl

set_option maxHeartbeats 1000000 in
/-- The body on whole staging memrefs — the inputs' at read contents, the output's and the scratch at anything — runs
    to the continuation holding the inputs' as they were, the output's at `out5` of the inputs', the scratch at
    something. The scratch is stored whole and loaded whole straight after, so the load reads the stored payload. -/
theorem sound_kernel (c : Dev nD) (E : Set ℕ) (i : grid0.Coords)
    (arg1 : Memref sig .tc .vmem S4x65536 .f32) (harg1 : arg1.IsWhole) (arg2 : Memref sig .tc .vmem S4x65536 .f32) (harg2 : arg2.IsWhole)
    (arg3 : Memref sig .tc .vmem S8x112 .bf16) (harg3 : arg3.IsWhole) (arg4 : Memref sig .tc .vmem S112x1 .bf16) (harg4 : arg4.IsWhole)
    (arg5 : Memref sig .tc .vmem S112x16 .bf16) (harg5 : arg5.IsWhole) (arg6 : Memref sig .tc .vmem S3x131072 .f32) (harg6 : arg6.IsWhole)
    (arg7 : Memref sig .tc .vmem S112x65536 .bf16) (harg7 : arg7.IsWhole)
    (x0 x1 : Vec F S4x65536 .f32) (x2 : Vec F S8x112 .bf16) (x3 : Vec F S112x1 .bf16) (x4 : Vec F S112x16 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4) ∗ (∃ d, owns (c : Thread nD τ) arg7 fullShare d)) -∗ K ⟨⟩))
      ⊢ wp frame (wpE (defs₀ (F := F)) Variants.none c none) E (cc0__mlp_kernel_t i arg1 harg1 arg2 harg2 arg3 harg3 arg4 harg4 arg5 harg5 arg6 harg6 arg7 harg7) K := by
  simp only [cc0__mlp_kernel_t_eq_skeleton]; unfold cc0__mlp_kernel_t_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.readCov_unit_zero _ zero2]
    exact View.read_writes_eq_canon _ _ _ (cover5 _ _)
  iexists _; iexists _; isplitr
  swap; · iexact H6
  ipureintro; rfl

/-! ## The proof data -/

/-- What passes through the region beside the windows: the scoped buffers no window stages (the scratch). -/
abbrev Φc (c : Dev nD) : sProp 𝕄 :=
  Pipeline.scopedRest (Ix := Unit) (Name := ℕ) (U := UR sig nD τ) (Lvl := ℕ) (Val := Elt F) spec0 c

/-- The proof data on core `c`: the arrays as the region finds them; after the body each input's buffer at its block
    and the output's at `out5` of the input blocks; the scratch in the invariant; nothing owed. The transposed input
    is read by two windows, which hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Φc c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- The scratch, a whole buffer at some contents, as a points-to and as an owned memref. -/
theorem scratch_in (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0) fullShare d) := by
  simp only [owns_whole_eq]
  iintro ⟨%f, H⟩
  iexists f; iexists f; isplitr; · ipureintro; rfl
  iexact H
theorem scratch_out (c : Dev nD) :
    (iprop(∃ d, owns (c : Thread nD τ) (Memref.whole cc0_scratch0) fullShare d) : sProp 𝕄)
      ⊢ iprop(∃ f : Buf (Elt F) ((c : Thread nD τ).loc cc0_scratch0), ((c : Thread nD τ).loc cc0_scratch0) ↦{fullShare} f) := by
  simp only [owns_whole_eq]
  iintro ⟨%d, %f, -, H⟩
  iexists f; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Φc c from rfl, show (dats m 0 c).Φ t.castSucc = Φc c from rfl,
    show (dats m 0 c).owesAt () t.succ = (dats m 0 c).owesAt () t.castSucc from rfl,
    after0, after1, after2, after3, after4, after5]
  unfold Φc; rw [scopedRest0_eq]
  iintro ⟨HΦ, Ho, ⟨%d0, H0⟩, ⟨%d1, H1⟩, ⟨%d2, H2⟩, ⟨%d3, H3⟩, ⟨%d4, H4⟩, ⟨%d5, H5⟩⟩
  ihave HS := (scratch_in (F := F) c) $$ HΦ
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS]; · iapply (scratch_out (F := F) c); iexact HS
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRunB.lean ====
import proofs.«130756_g2000304380712430_pallasbulk_699_25_alg».proof.Proof.KFrameB
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers behind the six windows' arrays (the transposed input is read by two windows). -/
def A5 : Finset (DevRef τ sig) :=
  {Proc.devRef .tc main_call0_v0, Proc.devRef .tc main_call0_v22, Proc.devRef .tc main_call0_v36, Proc.devRef .tc main_call0_v33, Proc.devRef .tc main_call0_v37}

theorem A5_sub : A5 ⊆ Pipeline.ucRefs τ sig := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five buffers held at a valuation, one by one. -/
theorem heldA5 (c : Dev nD) (W : Valuation τ sig (Elt F)) :
    (StableHlo.held (c : Thread nD τ) A5 W : sProp 𝕄)
      = iprop((((c : Thread nD τ).loc main_call0_v0) ↦{fullShare} W (Proc.devRef .tc main_call0_v0))
        ∗ (((c : Thread nD τ).loc main_call0_v22) ↦{fullShare} W (Proc.devRef .tc main_call0_v22))
        ∗ (((c : Thread nD τ).loc main_call0_v36) ↦{fullShare} W (Proc.devRef .tc main_call0_v36))
        ∗ (((c : Thread nD τ).loc main_call0_v33) ↦{fullShare} W (Proc.devRef .tc main_call0_v33))
        ∗ (((c : Thread nD τ).loc main_call0_v37) ↦{fullShare} W (Proc.devRef .tc main_call0_v37))) := by
  unfold StableHlo.held A5
  rw [bigSep_insert (by decide), bigSep_insert (by decide), bigSep_insert (by decide), bigSep_insert (by decide), BI.bigSep_singleton]
  rfl

set_option maxHeartbeats 1000000 in
/-- The pipeline's arrays at contents `G`, window by window, each a whole buffer at the window's share. -/
theorem arrays6 (c : Dev nD) (G : (w : Fin cfg0.W) → Buf (Elt F) ((cfg0.win w).arr.view.loc (c : Thread nD τ))) :
    ((dats m 0 c).arrays G : sProp 𝕄)
      = iprop((((c : Thread nD τ).loc main_call0_v0) ↦{fullShare.left} G 0)
        ∗ (((c : Thread nD τ).loc main_call0_v0) ↦{fullShare.right} G 1)
        ∗ (((c : Thread nD τ).loc main_call0_v22) ↦{fullShare} G 2)
        ∗ (((c : Thread nD τ).loc main_call0_v36) ↦{fullShare} G 3)
        ∗ (((c : Thread nD τ).loc main_call0_v33) ↦{fullShare} G 4)
        ∗ (((c : Thread nD τ).loc main_call0_v37) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-! ## The launch: @main as host operations, the region, one more host operation -/

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- Core `c`'s buffers at launch, as a valuation. -/
abbrev Vl (c : Dev nD) : Valuation τ sig (Elt F) := fun b => m (c, b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) R

/-- Core `c`'s buffers when the region is left: the result's array at what the write-backs made of it, every other
    buffer as the region found it (the inputs' arrays are never written). -/
def W1 (c : Dev nD) : Valuation τ sig (Elt F) :=
  Function.update (V0 m c) (Proc.devRef .tc main_call0_v37) ((dats m 0 c).arrAt 5 cfg0.N)

/-- The host operation after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem W1_v0 (c : Dev nD) : W1 m c (Proc.devRef .tc main_call0_v0) = V0 m c (Proc.devRef .tc main_call0_v0) :=
  Function.update_of_ne (by decide) _ _
theorem W1_v22 (c : Dev nD) : W1 m c (Proc.devRef .tc main_call0_v22) = V0 m c (Proc.devRef .tc main_call0_v22) :=
  Function.update_of_ne (by decide) _ _
theorem W1_v36 (c : Dev nD) : W1 m c (Proc.devRef .tc main_call0_v36) = V0 m c (Proc.devRef .tc main_call0_v36) :=
  Function.update_of_ne (by decide) _ _
theorem W1_v33 (c : Dev nD) : W1 m c (Proc.devRef .tc main_call0_v33) = V0 m c (Proc.devRef .tc main_call0_v33) :=
  Function.update_of_ne (by decide) _ _
theorem W1_v37 (c : Dev nD) : W1 m c (Proc.devRef .tc main_call0_v37) = (dats m 0 c).arrAt 5 cfg0.N :=
  Function.update_self _ _ _
theorem W1_rest (c : Dev nD) : ∀ b ∈ Pipeline.ucRefs τ sig \ A5, W1 m c b = V0 m c b := fun b hb =>
  Function.update_of_ne (fun e => (Finset.mem_sdiff.mp hb).2 (by rw [e]; decide)) _ _

-- the region's entailments are stated over the pinned configuration, which unifies with the printed one only when
-- unification may unfold plain definitions in a metavariable's type
set_option maxHeartbeats 2000000 in
set_option backward.isDefEq.respectTransparency.types false in
/-- The region: entered from what the host operations left — the five buffers behind the windows' arrays into the
    pipeline, the transposed input's split into its two halves for the two windows that read it, every other unscoped
    buffer bypassing —, left with the halves joined again and the result's array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := StableHlo.held (c : Thread nD τ) (Pipeline.ucRefs τ sig \ A5) (V0 m c)
  hentry c := by
    rw [StableHlo.held_sub_split (c : Thread nD τ) A5_sub (V0 m c), heldA5 c (V0 m c), arrays6 m c]
    iintro ⟨⟨⟨⟨H0, H22, H36, H33, H37⟩, Hrest⟩, HO⟩, -, -⟩
    ihave H0' := (pointsTo_share (PosShare.mem_left_op_right fullShare)).1 $$ H0
    icases H0' with ⟨H0a, H0b⟩
    imodintro
    isplitl [H0a H0b H22 H36 H33 H37]
    · isplitl [H0a]; · iexact H0a
      isplitl [H0b]; · iexact H0b
      isplitl [H22]; · iexact H22
      isplitl [H36]; · iexact H36
      isplitl [H33]; · iexact H33
      iexact H37
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Φc c from rfl]
    iintro ⟨-, -, Hr⟩
    iexact Hr
  hout c := by
    rw [Pipeline.ownSems0_none, show (dats m 0 c).Φ (Fin.last cfg0.N) = Φc c from rfl]
    iintro Hr
    isplitr; · iempintro
    isplitr; · iempintro
    iexact Hr
  hexit c := by
    rw [StableHlo.held_sub_split (c : Thread nD τ) A5_sub (W1 m c), heldA5 c (W1 m c), arrays6 m c,
      StableHlo.held_congr (c : Thread nD τ) (W1_rest m c), W1_v0 m c, W1_v22 m c, W1_v36 m c, W1_v33 m c, W1_v37 m c,
      (dats m 0 c).arrAt_in 0 rfl cfg0.N, (dats m 0 c).arrAt_in 1 rfl cfg0.N, (dats m 0 c).arrAt_in 2 rfl cfg0.N, (dats m 0 c).arrAt_in 3 rfl cfg0.N, (dats m 0 c).arrAt_in 4 rfl cfg0.N]
    iintro ⟨⟨H0a, H0b, H22, H36, H33, H37⟩, HO, -, Hrest⟩
    ihave H0 := (pointsTo_share (PosShare.mem_left_op_right fullShare)).2 $$ [H0a H0b]
    · isplitl [H0a]; · iexact H0a
      iexact H0b
    imodintro
    isplitr [HO]
    · isplitr [Hrest]
      · isplitl [H0]; · iexact H0
        isplitl [H22]; · iexact H22
        isplitl [H36]; · iexact H36
        isplitl [H33]; · iexact H33
        iexact H37
      · iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- Every unscoped buffer of core `c` after the run. -/
abbrev Wn (c : Dev nD) : Valuation τ sig (Elt F) := StableHlo.after hostOps1 (W1 m c)

set_option maxHeartbeats 2000000 in
set_option backward.isDefEq.respectTransparency.types false in
/-- At the compiled mesh, for any float values, from any memory with zero counters: every weakly fair execution of @main
    on the TensorCores terminates, and every final state has every unscoped buffer at what the last host operation
    makes of the region's exit contents. -/
theorem run_main : θ_run defs (onTc (τ := τ) (main (F := F))) (s₀ m ρ)
    (fun r => ∀ c : Dev nD, ∀ b ∈ Pipeline.ucRefs τ sig, r.2.mem ((c : Thread nD τ).1, b) = Wn m c b) :=
  Pipeline.θ_run_regions_kit (pcfgs (F := F)) adm (dats m) () cellOf_inj emb₁ defs₀ 𝒱₀ L lv m ρ main [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Wn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wn m c b)
    (hfin := fun c s' => by
      unfold StableHlo.held
      iintro ⟨Hh, HSI⟩
      imodintro
      iapply (pointsTo_read_all (Pipeline.ucRefs τ sig) (fun b => ((c : Thread nD τ).1, b)) (fun b => Wn m c b) s')
      isplitl [Hh] <;> iassumption)
    (hQ := fun _ h => h)

end Cert.Kernel.Hand

end
-- ==== Proof.KPostB.lean ====
import proofs.«130756_g2000304380712430_pallasbulk_699_25_alg».proof.Proof.KRunB
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What the run leaves in the arguments and in the result -/

theorem arg0_mem : Proc.devRef .tc main_arg0 ∈ Pipeline.ucRefs τ sig := by decide
theorem arg1_mem : Proc.devRef .tc main_arg1 ∈ Pipeline.ucRefs τ sig := by decide
theorem v0_mem : Proc.devRef .tc main_v0 ∈ Pipeline.ucRefs τ sig := by decide

/-- No host operation, before or after the region, writes an argument, and the region writes only its result's
    array: an argument ends as launched. -/
theorem Wn_arg0 (c : Dev nD) : Wn m c (Proc.devRef .tc main_arg0) = m (c, Proc.devRef .tc main_arg0) := by
  unfold Wn
  rw [StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold W1
  rw [Function.update_of_ne (by decide)]
  exact StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wn_arg1 (c : Dev nD) : Wn m c (Proc.devRef .tc main_arg1) = m (c, Proc.devRef .tc main_arg1) := by
  unfold Wn
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold W1
  rw [Function.update_of_ne (by decide)]
  exact StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- THE FRAME: every weakly fair execution terminates with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ arg0_mem).trans (Wn_arg0 m c), (h c _ arg1_mem).trans (Wn_arg1 m c)⟩) (run_main m ρ)

/-- The result is the transpose of the region's output array as the write-backs leave it. -/
theorem Wn_v0 (c : Dev nD) : Wn m c (Proc.devRef .tc main_v0)
    = transpose S2097152x3 [1, 0] ((dats m 0 c).arrAt 5 cfg0.N) transposes_S3x2097152_S2097152x3_1_0 := by
  show StableHlo.after hostOps1 (W1 m c) (Proc.devRef .tc main_v0) = _
  after_results
  rw [W1_v37]
  simp only [cast_eq]

/-- The run, read: the result at the transposed output array, the arguments unchanged. -/
theorem run_result : θ_run defs (onTc (τ := τ) (main (F := F))) ⟨m, fun _ => 0, ρ⟩ (fun r => ∀ c : Dev nD,
      r.2.mem ((c.tc : Thread nD τ).loc main_v0) = transpose S2097152x3 [1, 0] ((dats m 0 c).arrAt 5 cfg0.N) transposes_S3x2097152_S2097152x3_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ v0_mem).trans (Wn_v0 m c), (h c _ arg0_mem).trans (Wn_arg0 m c), (h c _ arg1_mem).trans (Wn_arg1 m c)⟩) (run_main m ρ)

end Cert.Kernel.Hand

end
-- ==== Proof.KFrameI.lean ====
import proofs.«130756_g2000304380712430_pallasbulk_699_25_alg».proof.Proof.Gen.KernelIdeal.Launch
import proofs.«130756_g2000304380712430_pallasbulk_699_25_alg».proof.Proof.Gen.KernelIdeal.Skeleton
import proofs.«130756_g2000304380712430_pallasbulk_699_25_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

/-!
  The proof data of the kernel's one region and its body's triple, for any float instance.

  A grid point `t` is handed two blocks of 65536 columns of the transposed input (columns `131072·t ..` and
  `131072·t + 65536 ..`), the 8×112 and 112×16 block-diagonal weights and the 112×1 bias, whole. The body stacks the
  two blocks on the rows, multiplies, adds the bias, clamps at zero into a scratch it reads straight back, multiplies
  again, and stores rows 0..2 of the product into the left half of its 3×131072 output block and rows 8..10 into the
  right half: two stores that tile the block. Nothing is kept between points, so after the body the output's buffer
  is the canonical contents of those two stores as a function of the five input blocks.
-/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetches it or the
    block index has not moved since the fetch. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev rX : Rect S4x65536 := Rect.unit (s := S4x65536) ![0, 0] S4x65536.size inb_S4x65536_S4x65536_0_0
abbrev rW1 : Rect S8x112 := Rect.unit (s := S8x112) ![0, 0] S8x112.size inb_S8x112_S8x112_0_0
abbrev rB : Rect S112x1 := Rect.unit (s := S112x1) ![0, 0] S112x1.size inb_S112x1_S112x1_0_0
abbrev rH : Rect S112x65536 := Rect.unit (s := S112x65536) ![0, 0] S112x65536.size inb_S112x65536_S112x65536_0_0
abbrev rW2 : Rect S112x16 := Rect.unit (s := S112x16) ![0, 0] S112x16.size inb_S112x16_S112x16_0_0
abbrev rOa : Rect S3x131072 := Rect.unit (s := S3x131072) ![0, 0] S3x65536.size inb_S3x131072_S3x65536_0_0
abbrev rOb : Rect S3x131072 := Rect.unit (s := S3x131072) ![0, 65536] S3x65536.size inb_S3x131072_S3x65536_0_65536

/-- The clamped first product of the point's input blocks: what the scratch holds between the two products. -/
def hidden (x0 x1 : Vec F S4x65536 .f32) (x2 : Vec F S8x112 .bf16) (x3 : Vec F S112x1 .bf16) : FVec F S112x65536 .bf16 :=
  k0_pay1 (View.ld x0 rX) (View.ld x1 rX) (View.ld x2 rW1) (View.ld x3 rB)

/-- The output window's staging buffer after the body, from the five input blocks: the two stores as pieces, last
    first. -/
def out5 (x0 x1 : Vec F S4x65536 .f32) (x2 : Vec F S8x112 .bf16) (x3 : Vec F S112x1 .bf16) (x4 : Vec F S112x16 .bf16) : Vec F S3x131072 .f32 :=
  View.canon [⟨rOb, k0_pay4 (View.ld x4 rW2) (hidden x0 x1 x2 x3)⟩, ⟨rOa, k0_pay3 (View.ld x4 rW2) (hidden x0 x1 x2 x3)⟩]

/-- The two half-block stores tile the block, so they cover it. -/
theorem cover5 (p0 p1 : Vec F S3x65536 .f32) (y : S3x131072.Idx) :
    ∃ pc ∈ ([⟨rOb, p0⟩, ⟨rOa, p1⟩] : List (View.Piece (Elt F) S3x131072 .f32)), y ∈ pc.1.set :=
  View.cover_of_tiled [⟨rOb, p0⟩, ⟨rOa, p1⟩] S3x65536.size (by rfl) y

theorem zero2 : (![0, 0] : Fin 2 → Nat) = fun _ => 0 := by
  funext a; match a with | ⟨0, _⟩ => rfl | ⟨1, _⟩ => rfl

set_option maxHeartbeats 1000000 in
/-- The body on whole staging memrefs — the inputs' at read contents, the output's and the scratch at anything — runs
    to the continuation holding the inputs' as they were, the output's at `out5` of the inputs', the scratch at
    something. The scratch is stored whole and loaded whole straight after, so the load reads the stored payload. -/
theorem sound_kernel (c : Dev nD) (E : Set ℕ) (i : grid0.Coords)
    (arg1 : Memref sig .tc .vmem S4x65536 .f32) (harg1 : arg1.IsWhole) (arg2 : Memref sig .tc .vmem S4x65536 .f32) (harg2 : arg2.IsWhole)
    (arg3 : Memref sig .tc .vmem S8x112 .bf16) (harg3 : arg3.IsWhole) (arg4 : Memref sig .tc .vmem S112x1 .bf16) (harg4 : arg4.IsWhole)
    (arg5 : Memref sig .tc .vmem S112x16 .bf16) (harg5 : arg5.IsWhole) (arg6 : Memref sig .tc .vmem S3x131072 .f32) (harg6 : arg6.IsWhole)
    (arg7 : Memref sig .tc .vmem S112x65536 .bf16) (harg7 : arg7.IsWhole)
    (x0 x1 : Vec F S4x65536 .f32) (x2 : Vec F S8x112 .bf16) (x3 : Vec F S112x1 .bf16) (x4 : Vec F S112x16 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5 x0 x1 x2 x3 x4) ∗ (∃ d, owns (c : Thread nD τ) arg7 fullShare d)) -∗ K ⟨⟩))
      ⊢ wp frame (wpE (defs₀ (F := F)) Variants.none c none) E (cc0__mlp_kernel_t i arg1 harg1 arg2 harg2 arg3 harg3 arg4 harg4 arg5 harg5 arg6 harg6 arg7 harg7) K := by
  simp only [cc0__mlp_kernel_t_eq_skeleton]; unfold cc0__mlp_kernel_t_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    rw [View.readCov_unit_zero _ zero2]
    exact View.read_writes_eq_canon _ _ _ (cover5 _ _)
  iexists _; iexists _; isplitr
  swap; · iexact H6
  ipureintro; rfl

/-! ## The proof data -/

/-- What passes through the region beside the windows: the scoped buffers no window stages (the scratch). -/
abbrev Φc (c : Dev nD) : sProp 𝕄 :=
  Pipeline.scopedRest (Ix := Unit) (Name := ℕ) (U := UR sig nD τ) (Lvl := ℕ) (Val := Elt F) spec0 c

/-- The proof data on core `c`: the arrays as the region finds them; after the body each input's buffer at its block
    and the output's at `out5` of the input blocks; the scratch in the invariant; nothing owed. The transposed input
    is read by two windows, which hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out5 (iblk m c 0 t) (iblk m c 1 t) (iblk m c 2 t) (iblk m c 3 t) (iblk m c 4 t)
  Φ _ := Φc c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) :
    (dats m 0 c).after 5 t = out5 (iblk m c 0 t) (iblk m c 1 t) (iblk m c 2 t) (iblk m c 3 t) (iblk m c 4 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-! ## The body obligation -/

/-- The scratch, a whole buffer at some contents, as a points-to and as an owned memref. -/
theorem scratch_in (c : Dev nD) :
    (iprop(∃ f : Buf (Elt F) ((c : Thread nD τ).loc cc0_scratch0), ((c : Thread nD τ).loc cc0_scratch0) ↦{fullShare} f) : sProp 𝕄)
      ⊢ iprop(∃ d, owns (c : Thread nD τ) (Memref.whole cc0_scratch0) fullShare d) := by
  simp only [owns_whole_eq]
  iintro ⟨%f, H⟩
  iexists f; iexists f; isplitr; · ipureintro; rfl
  iexact H
theorem scratch_out (c : Dev nD) :
    (iprop(∃ d, owns (c : Thread nD τ) (Memref.whole cc0_scratch0) fullShare d) : sProp 𝕄)
      ⊢ iprop(∃ f : Buf (Elt F) ((c : Thread nD τ).loc cc0_scratch0), ((c : Thread nD τ).loc cc0_scratch0) ↦{fullShare} f) := by
  simp only [owns_whole_eq]
  iintro ⟨%d, %f, -, H⟩
  iexists f; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = Φc c from rfl, show (dats m 0 c).Φ t.castSucc = Φc c from rfl,
    show (dats m 0 c).owesAt () t.succ = (dats m 0 c).owesAt () t.castSucc from rfl,
    after0, after1, after2, after3, after4, after5]
  unfold Φc; rw [scopedRest0_eq]
  iintro ⟨HΦ, Ho, ⟨%d0, H0⟩, ⟨%d1, H1⟩, ⟨%d2, H2⟩, ⟨%d3, H3⟩, ⟨%d4, H4⟩, ⟨%d5, H5⟩⟩
  ihave HS := (scratch_in (F := F) c) $$ HΦ
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS]; · iapply (scratch_out (F := F) c); iexact HS
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRunI.lean ====
import proofs.«130756_g2000304380712430_pallasbulk_699_25_alg».proof.Proof.KFrameI
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five buffers behind the six windows' arrays (the transposed input is read by two windows). -/
def A5 : Finset (DevRef τ sig) :=
  {Proc.devRef .tc main_call0_v0, Proc.devRef .tc main_call0_v22, Proc.devRef .tc main_call0_v36, Proc.devRef .tc main_call0_v33, Proc.devRef .tc main_call0_v37}

theorem A5_sub : A5 ⊆ Pipeline.ucRefs τ sig := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl

/-- The five buffers held at a valuation, one by one. -/
theorem heldA5 (c : Dev nD) (W : Valuation τ sig (Elt F)) :
    (StableHlo.held (c : Thread nD τ) A5 W : sProp 𝕄)
      = iprop((((c : Thread nD τ).loc main_call0_v0) ↦{fullShare} W (Proc.devRef .tc main_call0_v0))
        ∗ (((c : Thread nD τ).loc main_call0_v22) ↦{fullShare} W (Proc.devRef .tc main_call0_v22))
        ∗ (((c : Thread nD τ).loc main_call0_v36) ↦{fullShare} W (Proc.devRef .tc main_call0_v36))
        ∗ (((c : Thread nD τ).loc main_call0_v33) ↦{fullShare} W (Proc.devRef .tc main_call0_v33))
        ∗ (((c : Thread nD τ).loc main_call0_v37) ↦{fullShare} W (Proc.devRef .tc main_call0_v37))) := by
  unfold StableHlo.held A5
  rw [bigSep_insert (by decide), bigSep_insert (by decide), bigSep_insert (by decide), bigSep_insert (by decide), BI.bigSep_singleton]
  rfl

set_option maxHeartbeats 1000000 in
/-- The pipeline's arrays at contents `G`, window by window, each a whole buffer at the window's share. -/
theorem arrays6 (c : Dev nD) (G : (w : Fin cfg0.W) → Buf (Elt F) ((cfg0.win w).arr.view.loc (c : Thread nD τ))) :
    ((dats m 0 c).arrays G : sProp 𝕄)
      = iprop((((c : Thread nD τ).loc main_call0_v0) ↦{fullShare.left} G 0)
        ∗ (((c : Thread nD τ).loc main_call0_v0) ↦{fullShare.right} G 1)
        ∗ (((c : Thread nD τ).loc main_call0_v22) ↦{fullShare} G 2)
        ∗ (((c : Thread nD τ).loc main_call0_v36) ↦{fullShare} G 3)
        ∗ (((c : Thread nD τ).loc main_call0_v33) ↦{fullShare} G 4)
        ∗ (((c : Thread nD τ).loc main_call0_v37) ↦{fullShare} G 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-! ## The launch: @main as host operations, the region, one more host operation -/

abbrev 𝒱₀ : Variants := Variants.none
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)
/-- Core `c`'s buffers at launch, as a valuation. -/
abbrev Vl (c : Dev nD) : Valuation τ sig (Elt F) := fun b => m (c, b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The host operations before the region, over all the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (Vl m) R

/-- Core `c`'s buffers when the region is left: the result's array at what the write-backs made of it, every other
    buffer as the region found it (the inputs' arrays are never written). -/
def W1 (c : Dev nD) : Valuation τ sig (Elt F) :=
  Function.update (V0 m c) (Proc.devRef .tc main_call0_v37) ((dats m 0 c).arrAt 5 cfg0.N)

/-- The host operation after the region. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem W1_v0 (c : Dev nD) : W1 m c (Proc.devRef .tc main_call0_v0) = V0 m c (Proc.devRef .tc main_call0_v0) :=
  Function.update_of_ne (by decide) _ _
theorem W1_v22 (c : Dev nD) : W1 m c (Proc.devRef .tc main_call0_v22) = V0 m c (Proc.devRef .tc main_call0_v22) :=
  Function.update_of_ne (by decide) _ _
theorem W1_v36 (c : Dev nD) : W1 m c (Proc.devRef .tc main_call0_v36) = V0 m c (Proc.devRef .tc main_call0_v36) :=
  Function.update_of_ne (by decide) _ _
theorem W1_v33 (c : Dev nD) : W1 m c (Proc.devRef .tc main_call0_v33) = V0 m c (Proc.devRef .tc main_call0_v33) :=
  Function.update_of_ne (by decide) _ _
theorem W1_v37 (c : Dev nD) : W1 m c (Proc.devRef .tc main_call0_v37) = (dats m 0 c).arrAt 5 cfg0.N :=
  Function.update_self _ _ _
theorem W1_rest (c : Dev nD) : ∀ b ∈ Pipeline.ucRefs τ sig \ A5, W1 m c b = V0 m c b := fun b hb =>
  Function.update_of_ne (fun e => (Finset.mem_sdiff.mp hb).2 (by rw [e]; decide)) _ _

-- the region's entailments are stated over the pinned configuration, which unifies with the printed one only when
-- unification may unfold plain definitions in a metavariable's type
set_option maxHeartbeats 2000000 in
set_option backward.isDefEq.respectTransparency.types false in
/-- The region: entered from what the host operations left — the five buffers behind the windows' arrays into the
    pipeline, the transposed input's split into its two halves for the two windows that read it, every other unscoped
    buffer bypassing —, left with the halves joined again and the result's array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := StableHlo.held (c : Thread nD τ) (Pipeline.ucRefs τ sig \ A5) (V0 m c)
  hentry c := by
    rw [StableHlo.held_sub_split (c : Thread nD τ) A5_sub (V0 m c), heldA5 c (V0 m c), arrays6 m c]
    iintro ⟨⟨⟨⟨H0, H22, H36, H33, H37⟩, Hrest⟩, HO⟩, -, -⟩
    ihave H0' := (pointsTo_share (PosShare.mem_left_op_right fullShare)).1 $$ H0
    icases H0' with ⟨H0a, H0b⟩
    imodintro
    isplitl [H0a H0b H22 H36 H33 H37]
    · isplitl [H0a]; · iexact H0a
      isplitl [H0b]; · iexact H0b
      isplitl [H22]; · iexact H22
      isplitl [H36]; · iexact H36
      isplitl [H33]; · iexact H33
      iexact H37
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Φc c from rfl]
    iintro ⟨-, -, Hr⟩
    iexact Hr
  hout c := by
    rw [Pipeline.ownSems0_none, show (dats m 0 c).Φ (Fin.last cfg0.N) = Φc c from rfl]
    iintro Hr
    isplitr; · iempintro
    isplitr; · iempintro
    iexact Hr
  hexit c := by
    rw [StableHlo.held_sub_split (c : Thread nD τ) A5_sub (W1 m c), heldA5 c (W1 m c), arrays6 m c,
      StableHlo.held_congr (c : Thread nD τ) (W1_rest m c), W1_v0 m c, W1_v22 m c, W1_v36 m c, W1_v33 m c, W1_v37 m c,
      (dats m 0 c).arrAt_in 0 rfl cfg0.N, (dats m 0 c).arrAt_in 1 rfl cfg0.N, (dats m 0 c).arrAt_in 2 rfl cfg0.N, (dats m 0 c).arrAt_in 3 rfl cfg0.N, (dats m 0 c).arrAt_in 4 rfl cfg0.N]
    iintro ⟨⟨H0a, H0b, H22, H36, H33, H37⟩, HO, -, Hrest⟩
    ihave H0 := (pointsTo_share (PosShare.mem_left_op_right fullShare)).2 $$ [H0a H0b]
    · isplitl [H0a]; · iexact H0a
      iexact H0b
    imodintro
    isplitr [HO]
    · isplitr [Hrest]
      · isplitl [H0]; · iexact H0
        isplitl [H22]; · iexact H22
        isplitl [H36]; · iexact H36
        isplitl [H33]; · iexact H33
        iexact H37
      · iexact Hrest
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- Every unscoped buffer of core `c` after the run. -/
abbrev Wn (c : Dev nD) : Valuation τ sig (Elt F) := StableHlo.after hostOps1 (W1 m c)

set_option maxHeartbeats 2000000 in
set_option backward.isDefEq.respectTransparency.types false in
/-- At the compiled mesh, for any float values, from any memory with zero counters: every weakly fair execution of @main
    on the TensorCores terminates, and every final state has every unscoped buffer at what the last host operation
    makes of the region's exit contents. -/
theorem run_main : θ_run defs (onTc (τ := τ) (main (F := F))) (s₀ m ρ)
    (fun r => ∀ c : Dev nD, ∀ b ∈ Pipeline.ucRefs τ sig, r.2.mem ((c : Thread nD τ).1, b) = Wn m c b) :=
  Pipeline.θ_run_regions_kit (pcfgs (F := F)) adm (dats m) () cellOf_inj emb₁ defs₀ 𝒱₀ L lv m ρ main [.host (seg0 m), .region (reg0 m), .host (seg1 m)]
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Wn m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wn m c b)
    (hfin := fun c s' => by
      unfold StableHlo.held
      iintro ⟨Hh, HSI⟩
      imodintro
      iapply (pointsTo_read_all (Pipeline.ucRefs τ sig) (fun b => ((c : Thread nD τ).1, b)) (fun b => Wn m c b) s')
      isplitl [Hh] <;> iassumption)
    (hQ := fun _ h => h)

end Cert.KernelIdeal.Hand

end
-- ==== Proof.KPostI.lean ====
import proofs.«130756_g2000304380712430_pallasbulk_699_25_alg».proof.Proof.KRunI
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What the run leaves in the arguments and in the result -/

theorem arg0_mem : Proc.devRef .tc main_arg0 ∈ Pipeline.ucRefs τ sig := by decide
theorem arg1_mem : Proc.devRef .tc main_arg1 ∈ Pipeline.ucRefs τ sig := by decide
theorem v0_mem : Proc.devRef .tc main_v0 ∈ Pipeline.ucRefs τ sig := by decide

/-- No host operation, before or after the region, writes an argument, and the region writes only its result's
    array: an argument ends as launched. -/
theorem Wn_arg0 (c : Dev nD) : Wn m c (Proc.devRef .tc main_arg0) = m (c, Proc.devRef .tc main_arg0) := by
  unfold Wn
  rw [StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold W1
  rw [Function.update_of_ne (by decide)]
  exact StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
theorem Wn_arg1 (c : Dev nD) : Wn m c (Proc.devRef .tc main_arg1) = m (c, Proc.devRef .tc main_arg1) := by
  unfold Wn
  rw [StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))]
  unfold W1
  rw [Function.update_of_ne (by decide)]
  exact StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- THE FRAME: every weakly fair execution terminates with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ arg0_mem).trans (Wn_arg0 m c), (h c _ arg1_mem).trans (Wn_arg1 m c)⟩) (run_main m ρ)

/-- The result is the transpose of the region's output array as the write-backs leave it. -/
theorem Wn_v0 (c : Dev nD) : Wn m c (Proc.devRef .tc main_v0)
    = transpose S2097152x3 [1, 0] ((dats m 0 c).arrAt 5 cfg0.N) transposes_S3x2097152_S2097152x3_1_0 := by
  show StableHlo.after hostOps1 (W1 m c) (Proc.devRef .tc main_v0) = _
  after_results
  rw [W1_v37]
  simp only [cast_eq]

/-- The run, read: the result at the transposed output array, the arguments unchanged. -/
theorem run_result : θ_run defs (onTc (τ := τ) (main (F := F))) ⟨m, fun _ => 0, ρ⟩ (fun r => ∀ c : Dev nD,
      r.2.mem ((c.tc : Thread nD τ).loc main_v0) = transpose S2097152x3 [1, 0] ((dats m 0 c).arrAt 5 cfg0.N) transposes_S3x2097152_S2097152x3_1_0
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ v0_mem).trans (Wn_v0 m c), (h c _ arg0_mem).trans (Wn_arg0 m c), (h c _ arg1_mem).trans (Wn_arg1 m c)⟩) (run_main m ρ)

end Cert.KernelIdeal.Hand

end
-- ==== Proof.Spec.lean ====
/-
  The mathematics both programs compute, stated once over the two argument arrays read as functions on their
  index sets: `x` (2097152 rows of 4 features) and the packed parameter slab `p` (152 rows of 128 lanes: rows
  0..7 the first layer's weights, row 8 its bias, rows 16..143 the second layer's weights, row 144 its bias).

  * `mlp p xr o` is the two-layer perceptron of ONE row `xr` at output lane `o`, in the order the reference spells
    it: the row is padded with zeros to 8 features, every one of the 128 hidden lanes is
    `max (Σ_k xpad k · p(k, j) + p(8, j)) 0`, and the output is `Σ_j h j · p(16 + j, o) + p(144, o)`.
  * `pairOut W1 W2 B xa xb o'` is what the kernel computes for a PAIR of rows stacked on the contraction axis: the
    8 stacked features against an 8×112 first-layer matrix, a 112-entry bias, and a 112×16 second-layer matrix,
    `Σ_j' W2 j' o' · max (Σ_k' W1 k' j' · xp k' + B j') 0`.
  * `w1d`, `w2d`, `b1d` are the kernel's block-diagonal matrices built from the slab: 56 hidden lanes are carried,
    lane 50's bias is set to 1 and its second-layer row to the second layer's bias (the bias folded into the
    product through a hidden lane that is constantly 1), and each block is repeated on the diagonal for the
    second row of the pair.
  * `rowA` / `rowB` / `half` / `lane` locate an output row in the kernel's tiling: grid point `R / 131072`,
    inside it the first or second half of 65536 lanes.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![2097152, 4]⟩
abbrev SP : Shape := ⟨2, ![152, 128]⟩
abbrev SY : Shape := ⟨2, ![2097152, 3]⟩

/-- Entry `(r, c)` of the slab, the coordinates given as naturals with their bounds. -/
def ent (p : SP.Idx → EReal) (r c : Nat) (hr : r < 152) (hc : c < 128) : EReal := p (ix2 ⟨r, hr⟩ ⟨c, hc⟩)

/-- Row `r` of `x` as a function of the feature. -/
def rowOf (x : SX.Idx → EReal) (r : Fin 2097152) : Fin 4 → EReal := fun k => x (ix2 r k)

/-- A row of 4 features padded with zeros to 8. -/
def pad8 (xr : Fin 4 → EReal) (k : Fin 8) : EReal := if h : k.val < 4 then xr ⟨k.val, h⟩ else 0

/-- Hidden lane `j` of the reference's first layer on the padded row. -/
def hid (p : SP.Idx → EReal) (xr : Fin 4 → EReal) (j : Fin 128) : EReal :=
  max ((∑ k : Fin 8, pad8 xr k * ent p k.val j.val (by omega) j.isLt) + ent p 8 j.val (by omega) j.isLt) 0

/-- The reference's perceptron of one row at output lane `o`. -/
def mlp (p : SP.Idx → EReal) (xr : Fin 4 → EReal) (o : Fin 3) : EReal :=
  (∑ j : Fin 128, hid p xr j * ent p (16 + j.val) o.val (by omega) (by omega)) + ent p 144 o.val (by omega) (by omega)

/-- The reference's result array. -/
def refOut (x : SX.Idx → EReal) (p : SP.Idx → EReal) : SY.Idx → EReal :=
  fun i => mlp p (rowOf x (i 0)) (i 1)

/-- The first layer's weights the kernel carries: features 0..3, hidden lanes 0..55. -/
def w1 (p : SP.Idx → EReal) (k : Fin 4) (j : Fin 56) : EReal := ent p k.val j.val (by omega) (by omega)
/-- The first layer's bias the kernel carries, lane 50 set to 1. -/
def b1' (p : SP.Idx → EReal) (j : Fin 56) : EReal := if j.val = 50 then 1 else ent p 8 j.val (by omega) (by omega)
/-- The second layer's weights the kernel carries (hidden lanes 0..55, output lanes 0..7), row 50 set to the
    second layer's bias. -/
def w2' (p : SP.Idx → EReal) (j : Fin 56) (o : Fin 8) : EReal :=
  if j.val = 50 then ent p 144 o.val (by omega) (by omega) else ent p (16 + j.val) o.val (by omega) (by omega)

/-- The 8×112 block-diagonal first-layer matrix: `w1` in rows 0..3 × columns 0..55 and again in rows 4..7 ×
    columns 56..111, zero elsewhere. -/
def w1d (p : SP.Idx → EReal) (k' : Fin 8) (j' : Fin 112) : EReal :=
  if h : k'.val < 4 ∧ j'.val < 56 then w1 p ⟨k'.val, h.1⟩ ⟨j'.val, h.2⟩
  else if h' : 4 ≤ k'.val ∧ 56 ≤ j'.val then w1 p ⟨k'.val - 4, by omega⟩ ⟨j'.val - 56, by omega⟩
  else 0
/-- The 112×16 block-diagonal second-layer matrix. -/
def w2d (p : SP.Idx → EReal) (j' : Fin 112) (o' : Fin 16) : EReal :=
  if h : j'.val < 56 ∧ o'.val < 8 then w2' p ⟨j'.val, h.1⟩ ⟨o'.val, h.2⟩
  else if h' : 56 ≤ j'.val ∧ 8 ≤ o'.val then w2' p ⟨j'.val - 56, by omega⟩ ⟨o'.val - 8, by omega⟩
  else 0
/-- The 112-entry bias: `b1'` twice. -/
def b1d (p : SP.Idx → EReal) (j' : Fin 112) : EReal := b1' p ⟨j'.val % 56, Nat.mod_lt _ (by omega)⟩

/-- Two rows of 4 features stacked to 8. -/
def stack (xa xb : Fin 4 → EReal) (k' : Fin 8) : EReal :=
  if h : k'.val < 4 then xa ⟨k'.val, h⟩ else xb ⟨k'.val - 4, by omega⟩

/-- What the kernel's two products give for a stacked pair of rows at its output lane `o'` of 16. -/
def pairOut (W1 : Fin 8 → Fin 112 → EReal) (W2 : Fin 112 → Fin 16 → EReal) (B : Fin 112 → EReal)
    (xa xb : Fin 4 → EReal) (o' : Fin 16) : EReal :=
  ∑ j' : Fin 112, W2 j' o' * max ((∑ k' : Fin 8, W1 k' j' * stack xa xb k') + B j') 0

/-- The lane, inside a half block of 65536, of output row `R`. -/
def lane (R : Fin 2097152) : Fin 65536 := ⟨R.val % 65536, Nat.mod_lt _ (by omega)⟩
/-- Whether output row `R` lies in the second half of its block of 131072 rows. -/
def half (R : Fin 2097152) : Fin 2 := ⟨(R.val % 131072) / 65536, by omega⟩
/-- The row, in the FIRST half of `R`'s block, at `R`'s lane. -/
def rowA (R : Fin 2097152) : Fin 2097152 := ⟨(R.val / 131072) * 131072 + R.val % 65536, by omega⟩
/-- The row, in the SECOND half of `R`'s block, at `R`'s lane. -/
def rowB (R : Fin 2097152) : Fin 2097152 := ⟨(R.val / 131072) * 131072 + 65536 + R.val % 65536, by omega⟩

/-- The kernel's result array: row `R` is one of the two rows of its stacked pair; its three outputs are lanes
    `0..2` of the pair's 16 for a first-half row and lanes `8..10` for a second-half row. -/
def kerOut (x : SX.Idx → EReal) (p : SP.Idx → EReal) : SY.Idx → EReal :=
  fun i => pairOut (w1d p) (w2d p) (b1d p) (rowOf x (rowA (i 0))) (rowOf x (rowB (i 0)))
    ⟨8 * (half (i 0)).val + (i 1).val, by have h1 := (half (i 0)).isLt; have h2 : (i 1).val < 3 := idx2_lt1 i; omega⟩

end Cert.Spec

end
-- ==== Proof.KPay.lean ====
/-
  The kernel body's arithmetic read at an index, at the ideal values (extended reals, exact operations, format changes
  the identity).

  The body stacks its two input blocks of 4 rows on the rows, multiplies the 8×112 weights into the stacked block
  (contracting the 8 stacked features), adds the 112×1 bias broadcast along the lanes, clamps at zero, multiplies the
  112×16 weights into the result (contracting the 112 hidden lanes) and takes rows 0..2 and rows 8..10 of the product.
  Read at output row `o` and lane `l` that is `Spec.pairOut` of the weights, the bias and the two columns at lane `l`,
  at output lane `o` and at `8 + o`.
-/
import proofs.«130756_g2000304380712430_pallasbulk_699_25_alg».proof.Proof.KFrameI
import proofs.«130756_g2000304380712430_pallasbulk_699_25_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Idealize.ShloMosaic Cert.KernelIdeal Cert.KernelIdeal.Gen Cert.KernelIdeal.Hand Idealize.ShloMosaic.ValueIdx

abbrev D1 : DotDims S8x112 S8x65536 S112x65536 := dot_S8x112_S8x65536_S112x65536_0_0_1_1_n_n
abbrev D2 : DotDims S112x16 S112x65536 S16x65536 := dot_S112x16_S112x65536_S16x65536_0_0_1_1_n_n

/-! ## The operations one by one -/

/-- The bf16 zero word is the extended real zero. -/
theorem ofBits_zero_bf16 : Ideal.ofBits .bf16 0x0000#16 = 0 := by simp [Ideal.ofBits, Ideal.ieee]

/-- The first product at an index: the sum over the 8 stacked features. -/
theorem matmul1_apply (A : FVec Ideal S8x112 .bf16) (B : FVec Ideal S8x65536 .bf16) (j : Fin 112) (l : Fin 65536) :
    matmul D1 none A B (constant (F := Ideal) S112x65536 .f32 0x00000000#32) (ix2 j l) = ∑ k : Fin 8, A (ix2 k j) * B (ix2 k l) := by
  show FloatOps.matmul D1 none A B (constant (F := Ideal) S112x65536 .f32 0x00000000#32) (ix2 j l) = _
  rw [Ideal.matmul_constant_zero_apply, ← Equiv.sum_comp (contrEquiv1 D1 8 rfl rfl).symm]
  refine Finset.sum_congr rfl fun c _ => ?_
  have c2 := contrEquiv1_symm_val D1 8 rfl rfl c
  have l2 : D1.lhsIdx (ix2 j l) ((contrEquiv1 D1 8 rfl rfl).symm c) = ix2 c j := by
    funext ax; apply Fin.ext
    match ax with
    | ⟨0, _⟩ => exact (D1.lhsIdx_val_of_single (cl := 0) rfl _ _).trans c2
    | ⟨1, _⟩ => simp [DotDims.lhsIdx, D1, dot_S8x112_S8x65536_S112x65536_0_0_1_1_n_n]; rfl
  have r2 : D1.rhsIdx (ix2 j l) ((contrEquiv1 D1 8 rfl rfl).symm c) = ix2 c l := by
    funext ax; apply Fin.ext
    match ax with
    | ⟨0, _⟩ => exact (D1.rhsIdx_val_of_single (cr := 0) rfl _ _).trans c2
    | ⟨1, _⟩ => simp [DotDims.rhsIdx, D1, dot_S8x112_S8x65536_S112x65536_0_0_1_1_n_n]; rfl
  rw [l2, r2]

/-- The second product at an index: the sum over the 112 hidden lanes. -/
theorem matmul2_apply (A : FVec Ideal S112x16 .bf16) (B : FVec Ideal S112x65536 .bf16) (o : Fin 16) (l : Fin 65536) :
    matmul D2 none A B (constant (F := Ideal) S16x65536 .f32 0x00000000#32) (ix2 o l) = ∑ k : Fin 112, A (ix2 k o) * B (ix2 k l) := by
  show FloatOps.matmul D2 none A B (constant (F := Ideal) S16x65536 .f32 0x00000000#32) (ix2 o l) = _
  rw [Ideal.matmul_constant_zero_apply, ← Equiv.sum_comp (contrEquiv1 D2 112 rfl rfl).symm]
  refine Finset.sum_congr rfl fun c _ => ?_
  have c2 := contrEquiv1_symm_val D2 112 rfl rfl c
  have l2 : D2.lhsIdx (ix2 o l) ((contrEquiv1 D2 112 rfl rfl).symm c) = ix2 c o := by
    funext ax; apply Fin.ext
    match ax with
    | ⟨0, _⟩ => exact (D2.lhsIdx_val_of_single (cl := 0) rfl _ _).trans c2
    | ⟨1, _⟩ => simp [DotDims.lhsIdx, D2, dot_S112x16_S112x65536_S16x65536_0_0_1_1_n_n]; rfl
  have r2 : D2.rhsIdx (ix2 o l) ((contrEquiv1 D2 112 rfl rfl).symm c) = ix2 c l := by
    funext ax; apply Fin.ext
    match ax with
    | ⟨0, _⟩ => exact (D2.rhsIdx_val_of_single (cr := 0) rfl _ _).trans c2
    | ⟨1, _⟩ => simp [DotDims.rhsIdx, D2, dot_S112x16_S112x65536_S16x65536_0_0_1_1_n_n]; rfl
  rw [l2, r2]

/-- Two blocks of 4 rows concatenated on the rows, read at row `k`: the stacked pair of columns. -/
theorem concat_apply (x0 x1 : FVec Ideal S4x65536 .f32) (k : Fin 8) (l : Fin 65536) :
    concatenate S8x65536 0 [⟨S4x65536, x0⟩, ⟨S4x65536, x1⟩] concatenates_S4x65536_S4x65536_S8x65536_d0 (ix2 k l)
      = Cert.Spec.stack (fun k => x0 (ix2 k l)) (fun k => x1 (ix2 k l)) k := by
  unfold Cert.Spec.stack
  by_cases h : k.val < 4
  · rw [dif_pos h]
    exact concatenate_pair_apply_left (0 : Fin 2) x0 x1 _ (ix2 k l) rfl (ix2 ⟨k.val, h⟩ l)
      (fun b => by match b with | ⟨0, _⟩ => rfl | ⟨1, _⟩ => rfl)
  · rw [dif_neg h]
    exact concatenate_pair_apply_right (0 : Fin 2) x0 x1 _ (ix2 k l) rfl rfl (ix2 ⟨k.val - 4, by omega⟩ l)
      (fun b hb => by match b, hb with | ⟨0, _⟩, hb => exact absurd rfl hb | ⟨1, _⟩, _ => rfl)
      (by show k.val - 4 + 4 = k.val; omega)

/-- A column broadcast along the lanes reads the column's entry of the row. -/
theorem bcast_col_apply (v : FVec Ideal S112x1 .bf16) (j : Fin 112) (l : Fin 65536) :
    broadcastTo S112x65536 v broadcasts_S112x1_S112x65536 (ix2 j l) = v (ix2 j (0 : Fin 1)) :=
  broadcastTo_apply v _ (ix2 j l) (ix2 j 0) (fun a => by match a with | ⟨0, _⟩ => rfl | ⟨1, _⟩ => rfl)

/-- Rows 0..2 of the product. -/
theorem slice_lo_apply (x : FVec Ideal S16x65536 .f32) (o : Fin 3) (l : Fin 65536) :
    extractStridedSlice S3x65536 ![0, 0] x slices_S16x65536_o0_0_S3x65536 (ix2 o l) = x (ix2 (⟨o.val, by omega⟩ : Fin 16) l) :=
  extractStridedSlice_apply _ x _ (ix2 o l) (ix2 (⟨o.val, by omega⟩ : Fin 16) l)
    (fun a => by match a with | ⟨0, _⟩ => exact (Nat.zero_add _).symm | ⟨1, _⟩ => exact (Nat.zero_add _).symm)

/-- Rows 8..10 of the product. -/
theorem slice_hi_apply (x : FVec Ideal S16x65536 .f32) (o : Fin 3) (l : Fin 65536) :
    extractStridedSlice S3x65536 ![8, 0] x slices_S16x65536_o8_0_S3x65536 (ix2 o l) = x (ix2 (⟨8 + o.val, by omega⟩ : Fin 16) l) :=
  extractStridedSlice_apply _ x _ (ix2 o l) (ix2 (⟨8 + o.val, by omega⟩ : Fin 16) l)
    (fun a => by match a with | ⟨0, _⟩ => rfl | ⟨1, _⟩ => exact (Nat.zero_add _).symm)

/-! ## The hidden layer -/

/-- The first payload with its identity shape casts removed. -/
theorem pay1_eq (v0 v2 : FVec Ideal S4x65536 .f32) (v6 : FVec Ideal S8x112 .bf16) (v10 : FVec Ideal S112x1 .bf16) :
    k0_pay1 (F := Ideal) v0 v2 v6 v10
      = maximumf (addf (truncf .bf16 (matmul D1 none v6
            (truncf .bf16 (concatenate S8x65536 0 [⟨S4x65536, v0⟩, ⟨S4x65536, v2⟩] concatenates_S4x65536_S4x65536_S8x65536_d0) bitsLt_bf16_f32)
            (constant (F := Ideal) S112x65536 .f32 0x00000000#32)) bitsLt_bf16_f32)
          (broadcastTo S112x65536 v10 broadcasts_S112x1_S112x65536))
        (broadcast S112x65536 (Scalar.ofBits (F := Ideal) .bf16 0x0000#16)) := by
  unfold k0_pay1
  have e0 : shapeCast S4x65536 v0 shapeCasts_S4x65536_S4x65536 = v0 := shapeCast_self _ _
  have e2 : shapeCast S4x65536 v2 shapeCasts_S4x65536_S4x65536 = v2 := shapeCast_self _ _
  rw [e0, e2]
  simp only [shapeCast_self]

/-- The hidden layer at hidden lane `j` and lane `l`: the stacked pair of columns against column `j` of the weights, plus
    the bias, clamped at zero. -/
theorem hidden_apply (x0 x1 : FVec Ideal S4x65536 .f32) (x2 : FVec Ideal S8x112 .bf16) (x3 : FVec Ideal S112x1 .bf16)
    (j : Fin 112) (l : Fin 65536) :
    Hand.hidden (F := Ideal) x0 x1 x2 x3 (ix2 j l)
      = max ((∑ k : Fin 8, x2 (ix2 k j) * Cert.Spec.stack (fun k => x0 (ix2 k l)) (fun k => x1 (ix2 k l)) k)
          + x3 (ix2 j (0 : Fin 1))) 0 := by
  unfold Hand.hidden
  rw [View.ld_unit_zero (S := S4x65536) zero2, View.ld_unit_zero (S := S4x65536) zero2,
    View.ld_unit_zero (S := S8x112) zero2, View.ld_unit_zero (S := S112x1) zero2, pay1_eq]
  exact congrArg₂ max
    (congrArg₂ (· + ·)
      ((matmul1_apply x2 _ j l).trans (Finset.sum_congr rfl fun k _ => congrArg (x2 (ix2 k j) * ·) (concat_apply x0 x1 k l)))
      (bcast_col_apply x3 j l))
    ofBits_zero_bf16

/-! ## The second product and the two stored slices -/

/-- The second product at output lane `o` of 16 and lane `l`. -/
theorem pay2_apply (x4 : FVec Ideal S112x16 .bf16) (h : FVec Ideal S112x65536 .bf16) (o : Fin 16) (l : Fin 65536) :
    k0_pay2 (F := Ideal) x4 h (ix2 o l) = ∑ j : Fin 112, x4 (ix2 j o) * h (ix2 j l) := by
  unfold k0_pay2
  rw [shapeCast_self]
  exact matmul2_apply x4 h o l

/-- Both stored slices at once: row `o'` of the product is `Spec.pairOut` at `o'`. -/
theorem pay2_hidden_apply (x0 x1 : FVec Ideal S4x65536 .f32) (x2 : FVec Ideal S8x112 .bf16) (x3 : FVec Ideal S112x1 .bf16)
    (x4 : FVec Ideal S112x16 .bf16) (o' : Fin 16) (l : Fin 65536) :
    k0_pay2 (F := Ideal) x4 (Hand.hidden (F := Ideal) x0 x1 x2 x3) (ix2 o' l)
      = Cert.Spec.pairOut (fun k' j' => x2 (ix2 k' j')) (fun j' o' => x4 (ix2 j' o')) (fun j' => x3 (ix2 j' (0 : Fin 1)))
          (fun k => x0 (ix2 k l)) (fun k => x1 (ix2 k l)) o' := by
  refine (pay2_apply x4 _ o' l).trans ?_
  unfold Cert.Spec.pairOut
  exact Finset.sum_congr rfl fun j _ => congrArg (x4 (ix2 j o') * ·) (hidden_apply x0 x1 x2 x3 j l)

/-- The first store's payload (rows 0..2 of the product) at row `o` and lane `l`. -/
theorem pay_lo (x0 x1 : Vec Ideal S4x65536 .f32) (x2 : Vec Ideal S8x112 .bf16) (x3 : Vec Ideal S112x1 .bf16)
    (x4 : Vec Ideal S112x16 .bf16) (o : Fin 3) (l : Fin 65536) :
    k0_pay3 (F := Ideal) (View.ld x4 rW2) (Hand.hidden (F := Ideal) x0 x1 x2 x3) (ix2 o l)
      = Cert.Spec.pairOut (fun k' j' => x2 (ix2 k' j')) (fun j' o' => x4 (ix2 j' o')) (fun j' => x3 (ix2 j' (0 : Fin 1)))
          (fun k => x0 (ix2 k l)) (fun k => x1 (ix2 k l)) ⟨o.val, by omega⟩ := by
  rw [View.ld_unit_zero (S := S112x16) zero2]
  unfold k0_pay3
  exact (slice_lo_apply _ o l).trans (pay2_hidden_apply x0 x1 x2 x3 x4 _ l)

/-- The second store's payload (rows 8..10 of the product) at row `o` and lane `l`. -/
theorem pay_hi (x0 x1 : Vec Ideal S4x65536 .f32) (x2 : Vec Ideal S8x112 .bf16) (x3 : Vec Ideal S112x1 .bf16)
    (x4 : Vec Ideal S112x16 .bf16) (o : Fin 3) (l : Fin 65536) :
    k0_pay4 (F := Ideal) (View.ld x4 rW2) (Hand.hidden (F := Ideal) x0 x1 x2 x3) (ix2 o l)
      = Cert.Spec.pairOut (fun k' j' => x2 (ix2 k' j')) (fun j' o' => x4 (ix2 j' o')) (fun j' => x3 (ix2 j' (0 : Fin 1)))
          (fun k => x0 (ix2 k l)) (fun k => x1 (ix2 k l)) ⟨8 + o.val, by omega⟩ := by
  rw [View.ld_unit_zero (S := S112x16) zero2]
  unfold k0_pay4
  exact (slice_hi_apply _ o l).trans (pay2_hidden_apply x0 x1 x2 x3 x4 _ l)

end Cert.KernelIdeal.Pay

end
-- ==== Proof.KValue.lean ====
/-
  What the kernel's output array holds after the run, index by index, at the exact instance.

  Grid point `t` reads columns `131072·t + l` (first window) and `131072·t + 65536 + l` (second window) of the
  transposed input for `l < 65536`, and the weights and bias whole. Its two stores put the pair's outputs 0..2 at
  column `l` and 8..10 at column `65536 + l` of its 3×131072 block, which is block `t` of the 3×2097152 array. So
  the array at (o, R) is the stacked pair's output `8·half + o` for the pair of columns of `R`'s block at `R`'s lane:
  one function of the region's operand arrays, of which every point's write-back is a restriction, and the sixteen
  blocks cover the array.
-/
import proofs.«130756_g2000304380712430_pallasbulk_699_25_alg».proof.Proof.KRunI
import proofs.«130756_g2000304380712430_pallasbulk_699_25_alg».proof.Proof.Spec
import proofs.«130756_g2000304380712430_pallasbulk_699_25_alg».proof.Proof.KPay
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

/-- The printed index maps, decided over the grid. -/
theorem idx_facts : ∀ t : Fin cfg0.N,
    win0_0.index t (0 : Fin 2) = 0 ∧ win0_0.index t (1 : Fin 2) = 2 * t.val
    ∧ win0_1.index t (0 : Fin 2) = 0 ∧ win0_1.index t (1 : Fin 2) = 2 * t.val + 1
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

/-- The region's operand arrays as it finds them. -/
abbrev XA (c : Dev nD) : S4x2097152.Idx → EReal := V m c main_call0_v0
abbrev W1A (c : Dev nD) : S8x112.Idx → EReal := V m c main_call0_v22
abbrev BA (c : Dev nD) : S112x1.Idx → EReal := V m c main_call0_v36
abbrev W2A (c : Dev nD) : S112x16.Idx → EReal := V m c main_call0_v33

/-! ## The input blocks as parts of their arrays -/

theorem iblk0_apply (c : Dev nD) (t : Fin cfg0.N) (y : S4x65536.Idx) (k : S4x2097152.Idx)
    (hk0 : (k 0).val = (y 0).val) (hk1 : (k 1).val = t.val * 131072 + (y 1).val) :
    (iblk m c 0 t : S4x65536.Idx → EReal) y = XA m c k := by
  obtain ⟨e0, e1, -⟩ := idx_facts t
  unfold iblk
  rw [View.read_apply]
  show V m c main_call0_v0 _ = V m c main_call0_v0 _
  congr 1
  funext a; apply Fin.ext
  match a with
  | ⟨0, _⟩ => show win0_0.index t 0 * 4 + 1 * (y 0).val = (k 0).val; rw [e0, hk0]; omega
  | ⟨1, _⟩ => show win0_0.index t 1 * 65536 + 1 * (y 1).val = (k 1).val; rw [e1, hk1]; omega

theorem iblk1_apply (c : Dev nD) (t : Fin cfg0.N) (y : S4x65536.Idx) (k : S4x2097152.Idx)
    (hk0 : (k 0).val = (y 0).val) (hk1 : (k 1).val = t.val * 131072 + 65536 + (y 1).val) :
    (iblk m c 1 t : S4x65536.Idx → EReal) y = XA m c k := by
  obtain ⟨-, -, e0, e1, -⟩ := idx_facts t
  unfold iblk
  rw [View.read_apply]
  show V m c main_call0_v0 _ = V m c main_call0_v0 _
  congr 1
  funext a; apply Fin.ext
  match a with
  | ⟨0, _⟩ => show win0_1.index t 0 * 4 + 1 * (y 0).val = (k 0).val; rw [e0, hk0]; omega
  | ⟨1, _⟩ => show win0_1.index t 1 * 65536 + 1 * (y 1).val = (k 1).val; rw [e1, hk1]; omega

theorem iblk2_eq (c : Dev nD) (t : Fin cfg0.N) : (iblk m c 2 t : S8x112.Idx → EReal) = W1A m c := by
  obtain ⟨-, -, -, -, e0, e1, -⟩ := idx_facts t
  funext y
  unfold iblk
  rw [View.read_apply]
  show V m c main_call0_v22 _ = V m c main_call0_v22 _
  congr 1
  funext a; apply Fin.ext
  match a with
  | ⟨0, _⟩ => show win0_2.index t 0 * 8 + 1 * (y 0).val = (y 0).val; rw [e0]; omega
  | ⟨1, _⟩ => show win0_2.index t 1 * 112 + 1 * (y 1).val = (y 1).val; rw [e1]; omega

theorem iblk3_eq (c : Dev nD) (t : Fin cfg0.N) : (iblk m c 3 t : S112x1.Idx → EReal) = BA m c := by
  obtain ⟨-, -, -, -, -, -, e0, e1, -⟩ := idx_facts t
  funext y
  unfold iblk
  rw [View.read_apply]
  show V m c main_call0_v36 _ = V m c main_call0_v36 _
  congr 1
  funext a; apply Fin.ext
  match a with
  | ⟨0, _⟩ => show win0_3.index t 0 * 112 + 1 * (y 0).val = (y 0).val; rw [e0]; omega
  | ⟨1, _⟩ => show win0_3.index t 1 * 1 + 1 * (y 1).val = (y 1).val; rw [e1]; omega

theorem iblk4_eq (c : Dev nD) (t : Fin cfg0.N) : (iblk m c 4 t : S112x16.Idx → EReal) = W2A m c := by
  obtain ⟨-, -, -, -, -, -, -, -, e0, e1, -⟩ := idx_facts t
  funext y
  unfold iblk
  rw [View.read_apply]
  show V m c main_call0_v33 _ = V m c main_call0_v33 _
  congr 1
  funext a; apply Fin.ext
  match a with
  | ⟨0, _⟩ => show win0_4.index t 0 * 112 + 1 * (y 0).val = (y 0).val; rw [e0]; omega
  | ⟨1, _⟩ => show win0_4.index t 1 * 16 + 1 * (y 1).val = (y 1).val; rw [e1]; omega

/-! ## The output block as one function of its index -/

/-- Column `n` of a 4×65536 block (zero past the block). -/
def colF (x : S4x65536.Idx → EReal) (n : Nat) : Fin 4 → EReal := fun k => if h : n < 65536 then x (ix2 k ⟨n, h⟩) else 0

/-- The output block at row `o`, column `n`: the stacked pair of columns `n % 65536` of the two input blocks, at the
    pair's output `8·(n / 65536) + o`. -/
def pairF (x0 x1 : S4x65536.Idx → EReal) (x2 : S8x112.Idx → EReal) (x3 : S112x1.Idx → EReal) (x4 : S112x16.Idx → EReal) (o n : Nat) : EReal :=
  if h : 8 * (n / 65536) + o < 16 then
    Cert.Spec.pairOut (fun k' j' => x2 (ix2 k' j')) (fun j' o' => x4 (ix2 j' o')) (fun j' => x3 (ix2 j' (0 : Fin 1)))
      (colF x0 (n % 65536)) (colF x1 (n % 65536)) ⟨8 * (n / 65536) + o, h⟩
  else 0

open Cert.KernelIdeal.Pay

theorem colF_lane' (x : S4x65536.Idx → EReal) (l : Fin 65536) : colF x l.val = fun k => x (ix2 k l) := by
  funext k; unfold colF; rw [dif_pos l.isLt]

/-- What the two stores leave in the output's buffer, at an index. -/
theorem out5_apply (x0 x1 : S4x65536.Idx → EReal) (x2 : S8x112.Idx → EReal) (x3 : S112x1.Idx → EReal) (x4 : S112x16.Idx → EReal) (j : S3x131072.Idx) :
    out5 (F := Ideal) x0 x1 x2 x3 x4 j = pairF x0 x1 x2 x3 x4 (j 0).val (j 1).val := by
  unfold out5
  refine View.canon_apply_of_pieces (Val := Elt Ideal) (fun j => pairF x0 x1 x2 x3 x4 (j 0).val (j 1).val) _ ?_ j (cover5 _ _ j)
  intro p hp x
  simp only [List.mem_cons, List.mem_singleton, List.not_mem_nil, or_false] at hp
  rcases hp with rfl | rfl
  · obtain ⟨o, l, rfl⟩ : ∃ (o : Fin 3) (l : Fin 65536), x = ix2 o l := ⟨x 0, x 1, eq_ix2 x⟩
    have e0 : ((rOb.emb (ix2 o l)) 0).val = o.val := by show 0 + 1 * o.val = o.val; omega
    have e1 : ((rOb.emb (ix2 o l)) 1).val = 65536 + l.val := by show 65536 + 1 * l.val = 65536 + l.val; omega
    have hl := l.isLt
    have ho := o.isLt
    show k0_pay4 (F := Ideal) _ _ (ix2 o l) = pairF x0 x1 x2 x3 x4 ((rOb.emb (ix2 o l)) 0).val ((rOb.emb (ix2 o l)) 1).val
    rw [pay_hi, e0, e1]
    unfold pairF
    have hd : (65536 + l.val) / 65536 = 1 := by omega
    have hm : (65536 + l.val) % 65536 = l.val := by omega
    rw [dif_pos (by omega)]
    simp only [hd, hm, colF_lane']
  · obtain ⟨o, l, rfl⟩ : ∃ (o : Fin 3) (l : Fin 65536), x = ix2 o l := ⟨x 0, x 1, eq_ix2 x⟩
    have e0 : ((rOa.emb (ix2 o l)) 0).val = o.val := by show 0 + 1 * o.val = o.val; omega
    have e1 : ((rOa.emb (ix2 o l)) 1).val = l.val := by show 0 + 1 * l.val = l.val; omega
    have hl := l.isLt
    have ho := o.isLt
    show k0_pay3 (F := Ideal) _ _ (ix2 o l) = pairF x0 x1 x2 x3 x4 ((rOa.emb (ix2 o l)) 0).val ((rOa.emb (ix2 o l)) 1).val
    rw [pay_lo, e0, e1]
    unfold pairF
    have hd : l.val / 65536 = 0 := by omega
    have hm : l.val % 65536 = l.val := by omega
    rw [dif_pos (by omega)]
    simp only [hd, hm, colF_lane', Nat.mul_zero, Nat.zero_add]

/-! ## From blocks to the array -/

/-- The first (second) window's block of the transposed input at grid point `T`: columns `131072·T + l`
    (`131072·T + 65536 + l`), zero past the array. -/
def blkX0 (X : S4x2097152.Idx → EReal) (T : Nat) : S4x65536.Idx → EReal :=
  fun y => if h : T * 131072 + (y 1).val < 2097152 then X (ix2 (y 0) ⟨T * 131072 + (y 1).val, h⟩) else 0
def blkX1 (X : S4x2097152.Idx → EReal) (T : Nat) : S4x65536.Idx → EReal :=
  fun y => if h : T * 131072 + 65536 + (y 1).val < 2097152 then X (ix2 (y 0) ⟨T * 131072 + 65536 + (y 1).val, h⟩) else 0

/-- The output array as ONE function of the region's operand arrays: at (o, R) the block function of point
    `R / 131072` at column `R % 131072`. -/
def G5 (X : S4x2097152.Idx → EReal) (W1 : S8x112.Idx → EReal) (B : S112x1.Idx → EReal) (W2 : S112x16.Idx → EReal) : S3x2097152.Idx → EReal :=
  fun i => pairF (blkX0 X ((i 1).val / 131072)) (blkX1 X ((i 1).val / 131072)) W1 B W2 (i 0).val ((i 1).val % 131072)

theorem iblk0_eq (c : Dev nD) (t : Fin cfg0.N) : (iblk m c 0 t : S4x65536.Idx → EReal) = blkX0 (XA m c) t.val := by
  funext y
  have ht : t.val < 16 := lt_of_lt_of_eq t.isLt (show cfg0.N = 16 from N_0)
  have hy : (y 1).val < 65536 := idx2_lt1 y
  unfold blkX0
  rw [dif_pos (by omega)]
  exact iblk0_apply m c t y _ rfl rfl

theorem iblk1_eq (c : Dev nD) (t : Fin cfg0.N) : (iblk m c 1 t : S4x65536.Idx → EReal) = blkX1 (XA m c) t.val := by
  funext y
  have ht : t.val < 16 := lt_of_lt_of_eq t.isLt (show cfg0.N = 16 from N_0)
  have hy : (y 1).val < 65536 := idx2_lt1 y
  unfold blkX1
  rw [dif_pos (by omega)]
  exact iblk1_apply m c t y _ rfl rfl

/-- What point `t` writes back is block `t` of `G5` of the operand arrays. -/
theorem flushed5_eq (c : Dev nD) (t : Fin cfg0.N) :
    (dats m 0 c).flushed 5 t = ((cfg0.win 5).blk t).view.read (Elt Ideal) (G5 (XA m c) (W1A m c) (BA m c) (W2A m c)) := by
  show (cfg0.win 5).cut (grid0.coords t) ((dats m 0 c).after 5 t) = _
  rw [after5]
  obtain ⟨-, -, -, -, -, -, -, -, -, -, e0, e1⟩ := idx_facts t
  funext j
  rw [View.read_apply]
  show out5 (F := Ideal) (iblk m c 0 t) (iblk m c 1 t) (iblk m c 2 t) (iblk m c 3 t) (iblk m c 4 t) j
    = G5 (XA m c) (W1A m c) (BA m c) (W2A m c) (((cfg0.win 5).blk t).view.emb j)
  rw [out5_apply, iblk0_eq m c t, iblk1_eq m c t, iblk2_eq m c t, iblk3_eq m c t, iblk4_eq m c t]
  have h0 : ((((cfg0.win 5).blk t).view.emb j) 0).val = (j 0).val := by
    show win0_5.index t 0 * 3 + 1 * (j 0).val = (j 0).val; rw [e0]; omega
  have h1 : ((((cfg0.win 5).blk t).view.emb j) 1).val = t.val * 131072 + (j 1).val := by
    show win0_5.index t 1 * 131072 + 1 * (j 1).val = t.val * 131072 + (j 1).val; rw [e1]; omega
  have hj : (j 1).val < 131072 := idx2_lt1 j
  unfold G5
  rw [h0, h1, show (t.val * 131072 + (j 1).val) / 131072 = t.val from by omega,
    show (t.val * 131072 + (j 1).val) % 131072 = (j 1).val from by omega]

/-- An index of the array is in point `t`'s block iff each coordinate is in the block's range on its axis. -/
theorem mem_blk5 (t : Fin cfg0.N) (i : S3x2097152.Idx) :
    i ∈ ((cfg0.win 5).blk t).view.set ↔ ∀ a : Fin 2, win0_5.index t a * S3x131072.size a ≤ (i a).val ∧ (i a).val < win0_5.index t a * S3x131072.size a + S3x131072.size a := by
  show i ∈ ((View.whole main_call0_v37).slice (win0_5.rect t)).set ↔ _
  rw [View.set_slice_whole, Rect.mem_set_unit]
  exact Iff.rfl

/-- The sixteen blocks cover the array (column `R` lies in block `R / 131072`), so it ends holding `G5`. -/
theorem final5 (c : Dev nD) : (dats m 0 c).arrAt 5 cfg0.N = G5 (XA m c) (W1A m c) (BA m c) (W2A m c) :=
  (dats m 0 c).arrAt_eq_of_cover 5 _ (fun t _ => flushed5_eq m c t) fun i => by
    have hi0 : (i 0).val < 3 := idx2_lt0 i
    have hi1 : (i 1).val < 2097152 := idx2_lt1 i
    have hN : cfg0.N = 16 := N_0
    let t : Fin cfg0.N := ⟨(i 1).val / 131072, by rw [hN]; omega⟩
    obtain ⟨-, -, -, -, -, -, -, -, -, -, e0, e1⟩ := idx_facts t
    refine ⟨t, flush0_5 t, ?_⟩
    rw [mem_blk5]
    intro a
    match a with
    | ⟨0, _⟩ =>
      show win0_5.index t 0 * 3 ≤ (i 0).val ∧ (i 0).val < win0_5.index t 0 * 3 + 3
      rw [e0]; omega
    | ⟨1, _⟩ =>
      show win0_5.index t 1 * 131072 ≤ (i 1).val ∧ (i 1).val < win0_5.index t 1 * 131072 + 131072
      rw [e1]; show (i 1).val / 131072 * 131072 ≤ (i 1).val ∧ (i 1).val < (i 1).val / 131072 * 131072 + 131072; omega

/-! ## The array in the specification's words -/

/-- With the operand arrays what the host operations make of the arguments — the transposed `x`, the block-diagonal
    weights and the doubled bias of the slab `p` —, the output array read at (o, R) is the specification's kernel
    result at (R, o). -/
theorem G5_kerOut (x : Cert.Spec.SX.Idx → EReal) (p : Cert.Spec.SP.Idx → EReal)
    (X : S4x2097152.Idx → EReal) (W1 : S8x112.Idx → EReal) (B : S112x1.Idx → EReal) (W2 : S112x16.Idx → EReal)
    (hX : X = fun i => x (ix2 (i 1) (i 0))) (hW1 : W1 = fun i => Cert.Spec.w1d p (i 0) (i 1))
    (hB : B = fun i => Cert.Spec.b1d p (i 0)) (hW2 : W2 = fun i => Cert.Spec.w2d p (i 0) (i 1))
    (R : Fin 2097152) (o : Fin 3) : G5 X W1 B W2 (ix2 o R) = Cert.Spec.kerOut x p (ix2 R o) := by
  subst hX hW1 hB hW2
  have hR := R.isLt
  have ho := o.isLt
  unfold G5 pairF Cert.Spec.kerOut
  show (if h : 8 * (R.val % 131072 / 65536) + o.val < 16 then _ else 0) = _
  rw [dif_pos (by omega)]
  have ea : colF (blkX0 (fun i => x (ix2 (i 1) (i 0))) (R.val / 131072)) (R.val % 131072 % 65536) = Cert.Spec.rowOf x (Cert.Spec.rowA R) := by
    funext k
    unfold colF blkX0 Cert.Spec.rowOf Cert.Spec.rowA
    rw [dif_pos (by omega)]
    show (if h : R.val / 131072 * 131072 + R.val % 131072 % 65536 < 2097152 then _ else 0) = _
    rw [dif_pos (by omega)]
    show x (ix2 _ k) = x (ix2 _ k)
    congr 2
    apply Fin.ext
    show R.val / 131072 * 131072 + R.val % 131072 % 65536 = R.val / 131072 * 131072 + R.val % 65536
    omega
  have eb : colF (blkX1 (fun i => x (ix2 (i 1) (i 0))) (R.val / 131072)) (R.val % 131072 % 65536) = Cert.Spec.rowOf x (Cert.Spec.rowB R) := by
    funext k
    unfold colF blkX1 Cert.Spec.rowOf Cert.Spec.rowB
    rw [dif_pos (by omega)]
    show (if h : R.val / 131072 * 131072 + 65536 + R.val % 131072 % 65536 < 2097152 then _ else 0) = _
    rw [dif_pos (by omega)]
    show x (ix2 _ k) = x (ix2 _ k)
    congr 2
    apply Fin.ext
    show R.val / 131072 * 131072 + 65536 + R.val % 131072 % 65536 = R.val / 131072 * 131072 + 65536 + R.val % 65536
    omega
  show Cert.Spec.pairOut _ _ _ (colF _ _) (colF _ _) _ = Cert.Spec.pairOut _ _ _ _ _ _
  rw [ea, eb]
  rfl

end Cert.KernelIdeal.Hand

end
-- ==== Proof.HostGlueTerms.lean ====
/-
  The kernel's host operations before its region, as pure terms of the two argument arrays.

  The 51 operations build four operands from `x` (2097152 rows of 4 features) and the parameter slab `p`
  (152 rows of 128 lanes): the transposed `x`; the 8×112 first-layer matrix (zeros, with the 4×56 block of
  `p` written at (0, 0) and again at (4, 56)); the 112×1 bias column (row 8 of `p`, lanes 0..55, with lane 50
  overwritten by 1, laid twice side by side and transposed); and the 112×16 second-layer matrix (zeros, with the
  56×8 block `p[16:72, 0:8]` whose row 50 is overwritten by `p[144, 0:8]`, written at (0, 0) and again at (56, 8)).
  This module names every intermediate stage once.
-/
import proofs.«130756_g2000304380712430_pallasbulk_699_25_alg».proof.Proof.Gen.KernelIdeal.Launch
import Idealize.ShloMosaic.Lib.StableHlo.Run
import Idealize.ShloMosaic.PureOps.Ideal

noncomputable section

namespace Cert.KernelIdeal.HostGlue

open Idealize.ShloMosaic Idealize.ShloMosaic.TcCoe
open Cert.KernelIdeal Cert.KernelIdeal.Gen

/-! ## The index vectors: scalars broadcast to one entry, two of them laid end to end -/

/-- A one-entry index vector holding the word `a`. -/
def idx1 (a : BitVec 32) : IVec S1 32 := broadcastInDim S1 ![] bcast_S_S1 (constantI S_ 32 a)

/-- The two-entry index vector `(a, b)`. -/
def idx2 (a b : BitVec 32) : IVec S2 32 :=
  concatenate S2 0 [⟨S1, idx1 a⟩, ⟨S1, idx1 b⟩] concatenates_S1_S1_S2_d0

/-! ## The stages -/

section
variable (x : FVec Ideal S2097152x4 .f32) (p : FVec Ideal S152x128 .f32)

/-- `x` transposed. -/
def xT : FVec Ideal S4x2097152 .f32 := transpose S4x2097152 [1, 0] x transposes_S2097152x4_S4x2097152_1_0

/-- `p[0:4, 0:56]`. -/
def sW1 : FVec Ideal S4x56 .f32 := extractStridedSlice S4x56 ![0, 0] p slices_S152x128_S4x56_0_0
/-- `p[8:9, 0:56]`. -/
def sB1 : FVec Ideal S1x56 .f32 := extractStridedSlice S1x56 ![8, 0] p slices_S152x128_S1x56_8_0
/-- `p[144:145, 0:8]`. -/
def sB2 : FVec Ideal S1x8 .f32 := extractStridedSlice S1x8 ![144, 0] p slices_S152x128_S1x8_144_0
/-- `p[16:72, 0:8]`. -/
def sW2 : FVec Ideal S56x8 .f32 := extractStridedSlice S56x8 ![16, 0] p slices_S152x128_S56x8_16_0

/-- The scalar one. -/
def one : FVec Ideal S_ .f32 := constant (F := Ideal) S_ .f32 0x3F800000#32

/-- The bias row with lane 50 overwritten by one. -/
def bRow : FVec Ideal S1x56 .f32 :=
  Host.scatter scatter_S1x56_S2_S__n_01_01_0 (fun _ b => b) (sB1 p) (idx2 0#32 50#32) one

/-- `p[144, 0:8]` as a vector of 8. -/
def b2Vec : FVec Ideal S8 .f32 := shapeCast S8 (sB2 p) shapeCasts_S1x8_S8

/-- The second layer's 56×8 block with row 50 overwritten by the second layer's bias. -/
def w2Blk : FVec Ideal S56x8 .f32 :=
  Host.scatter scatter_S56x8_S1_S8_0_0_0_0 (fun _ b => b) (sW2 p) (idx1 50#32) (b2Vec p)

/-- The 8×112 zeros. -/
def z8x112 : FVec Ideal S8x112 .bf16 :=
  broadcastInDim S8x112 ![] bcast_S_S8x112 (constant (F := Ideal) S_ .bf16 0x0000#16)
/-- The 112×16 zeros. -/
def z112x16 : FVec Ideal S112x16 .bf16 :=
  broadcastInDim S112x16 ![] bcast_S_S112x16 (constant (F := Ideal) S_ .bf16 0x0000#16)

/-- The first layer's 4×56 block in the narrower format. -/
def w1Blk : FVec Ideal S4x56 .bf16 := truncf .bf16 (sW1 p) bitsLt_bf16_f32

/-- The block written at (0, 0) of the zeros. -/
def w1A : FVec Ideal S8x112 .bf16 :=
  Host.scatter scatter_S8x112_S2_S4x56_01_n_01_0 (fun _ b => b) z8x112 (idx2 0#32 0#32) (w1Blk p)
/-- … and again at (4, 56): the 8×112 first-layer matrix. -/
def w1B : FVec Ideal S8x112 .bf16 :=
  Host.scatter scatter_S8x112_S2_S4x56_01_n_01_0 (fun _ b => b) (w1A p) (idx2 4#32 56#32) (w1Blk p)

/-- The second layer's 56×8 block in the narrower format. -/
def w2BlkT : FVec Ideal S56x8 .bf16 := truncf .bf16 (w2Blk p) bitsLt_bf16_f32

/-- The block written at (0, 0) of the zeros. -/
def w2A : FVec Ideal S112x16 .bf16 :=
  Host.scatter scatter_S112x16_S2_S56x8_01_n_01_0 (fun _ b => b) z112x16 (idx2 0#32 0#32) (w2BlkT p)
/-- … and again at (56, 8): the 112×16 second-layer matrix. -/
def w2B : FVec Ideal S112x16 .bf16 :=
  Host.scatter scatter_S112x16_S2_S56x8_01_n_01_0 (fun _ b => b) (w2A p) (idx2 56#32 8#32) (w2BlkT p)

/-- The bias row twice, side by side. -/
def bRow2 : FVec Ideal S1x112 .f32 :=
  concatenate S1x112 1 [⟨S1x56, bRow p⟩, ⟨S1x56, bRow p⟩] concatenates_S1x56_S1x56_S1x112_d1
/-- … as a column, in the narrower format: the 112×1 bias column. -/
def bCol : FVec Ideal S112x1 .bf16 :=
  truncf .bf16 (transpose S112x1 [1, 0] (bRow2 p) transposes_S1x112_S112x1_1_0) bitsLt_bf16_f32

end

/-! ## What the buffers hold after the operations -/

variable (m : (ℓ : Loc nD τ sig) → Buf (Elt Ideal) ℓ) (c : Dev nD)

/-- Core `c`'s TensorCore buffer `b` after the host operations before the region. -/
abbrev E (b : Ref sig .tc) : Buf (Elt Ideal) ((c : Thread nD τ).loc b) :=
  StableHlo.after (hostOps0 (F := Ideal)) (fun b => m (c, b)) (Proc.devRef .tc b)

/-- The launch contents of the argument `x`. -/
abbrev argX : FVec Ideal S2097152x4 .f32 := m ((c : Thread nD τ).loc main_arg0)
/-- The launch contents of the parameter slab. -/
abbrev argP : FVec Ideal S152x128 .f32 := m ((c : Thread nD τ).loc main_arg1)

end Cert.KernelIdeal.HostGlue

end
-- ==== Proof.HostGlueAfter.lean ====
/-
  What the kernel's four operand buffers hold after the host operations before its region: the stages named in
  the module of the stages, each operation's result read off the run of the operations in order.
-/
import proofs.«130756_g2000304380712430_pallasbulk_699_25_alg».proof.Proof.HostGlueTerms

noncomputable section

namespace Cert.KernelIdeal.HostGlue

open Idealize.ShloMosaic Idealize.ShloMosaic.TcCoe
open Cert.KernelIdeal Cert.KernelIdeal.Gen

-- the scatters are compared argument by argument, never opened
attribute [local irreducible] Host.scatter

variable (m : (ℓ : Loc nD τ sig) → Buf (Elt Ideal) ℓ) (c : Dev nD)

/-- The first operand is `x` transposed. -/
theorem E_x : (E m c main_call0_v0 : FVec Ideal S4x2097152 .f32) = xT (argX m c) := by
  show StableHlo.after (hostOps0 (F := Ideal)) (fun b => m (c, b)) (Proc.devRef .tc main_call0_v0) = _
  after_results_simp
  rfl

/-- The 8×112 first-layer matrix. -/
theorem E_w1d : (E m c main_call0_v22 : FVec Ideal S8x112 .bf16) = w1B (argP m c) := by
  show StableHlo.after (hostOps0 (F := Ideal)) (fun b => m (c, b)) (Proc.devRef .tc main_call0_v22) = _
  after_results_simp
  rfl

/-- The 112×1 bias column. -/
theorem E_b1d : (E m c main_call0_v36 : FVec Ideal S112x1 .bf16) = bCol (argP m c) := by
  show StableHlo.after (hostOps0 (F := Ideal)) (fun b => m (c, b)) (Proc.devRef .tc main_call0_v36) = _
  after_results_simp
  rfl

/-- The 112×16 second-layer matrix. -/
theorem E_w2d : (E m c main_call0_v33 : FVec Ideal S112x16 .bf16) = w2B (argP m c) := by
  show StableHlo.after (hostOps0 (F := Ideal)) (fun b => m (c, b)) (Proc.devRef .tc main_call0_v33) = _
  after_results_simp
  rfl

end Cert.KernelIdeal.HostGlue

end
-- ==== Proof.LibScatterSet.lean ====
/-
  A general lemma on the host scatter whose body returns the update (an `x.at[...].set(v)`), read at ONE
  result index.

  `Host.scatter d f x idx upd` is a left fold, over the update indices in row-major order, of the step "if the
  update index lands on a result index `i`, replace the element there by `f old new`". With `f = fun _ b => b`
  the fold's value at a result index `i'` depends only on which update indices land on `i'`:

  * `Host.scatter_set_of_unique`: if update index `j` lands on `i'` and it is the only one that does, the
    result at `i'` is `upd j`;
  * `Host.scatter_set_of_none`: if no update index lands on `i'`, the result at `i'` is the operand's `x i'`.

  Both are proved by induction over an ARBITRARY list of flat update indices with an arbitrary accumulator (the
  fold is never evaluated), so they hold for every shape and every dimension-number record.

  * `ScatterDims.resultIdx?_eq_some_iff` says when an update index lands on a result index, axis by axis: the
    window's start plus the window coordinate is the result's coordinate.
-/
import Idealize.ShloMosaic.PureOps.ShapeOps

namespace Idealize.ShloMosaic

namespace Host

variable {s si u : Shape} {α : Type} {w : Nat}

/-- One step of the scatter's fold with the replacing body. -/
private abbrev setStep (d : ScatterDims s si u) (idx : IVec si w) (upd : u.Idx → α) :
    (s.Idx → α) → Fin u.numel → (s.Idx → α) :=
  fun r n =>
    match d.resultIdx? (u.rowMajor.symm n) idx with
    | some i => fun i' => if i' = i then (fun (_ b : α) => b) (r i) (upd (u.rowMajor.symm n)) else r i'
    | none => r

private theorem setStep_of_ne (d : ScatterDims s si u) (idx : IVec si w) (upd : u.Idx → α) (r : s.Idx → α)
    (n : Fin u.numel) (i' : s.Idx) (h : d.resultIdx? (u.rowMajor.symm n) idx ≠ some i') :
    setStep d idx upd r n i' = r i' := by
  unfold setStep
  cases hr : d.resultIdx? (u.rowMajor.symm n) idx with
  | none => rfl
  | some i =>
    have hne : i' ≠ i := fun e => h (by rw [hr, e])
    simp only [if_neg hne]

private theorem setStep_of_eq (d : ScatterDims s si u) (idx : IVec si w) (upd : u.Idx → α) (r : s.Idx → α)
    (n : Fin u.numel) (i' : s.Idx) (h : d.resultIdx? (u.rowMajor.symm n) idx = some i') :
    setStep d idx upd r n i' = upd (u.rowMajor.symm n) := by
  unfold setStep
  rw [h]
  simp only [if_true]

/-- The fold over any list none of whose update indices lands on `i'` leaves the accumulator's value at `i'`. -/
private theorem foldl_setStep_of_none (d : ScatterDims s si u) (idx : IVec si w) (upd : u.Idx → α) (i' : s.Idx) :
    ∀ (l : List (Fin u.numel)) (r : s.Idx → α),
      (∀ n ∈ l, d.resultIdx? (u.rowMajor.symm n) idx ≠ some i') → l.foldl (setStep d idx upd) r i' = r i' := by
  intro l
  induction l with
  | nil => intro r _; rfl
  | cons n l ih =>
    intro r h
    rw [List.foldl_cons, ih _ (fun m hm => h m (List.mem_cons_of_mem _ hm))]
    exact setStep_of_ne d idx upd r n i' (h n List.mem_cons_self)

/-- The fold over any list that contains `n0`, where `n0` lands on `i'` and is the only member that does, has
    the update's element of `n0` at `i'`. -/
private theorem foldl_setStep_of_unique (d : ScatterDims s si u) (idx : IVec si w) (upd : u.Idx → α) (i' : s.Idx)
    (n0 : Fin u.numel) (h0 : d.resultIdx? (u.rowMajor.symm n0) idx = some i') :
    ∀ (l : List (Fin u.numel)) (r : s.Idx → α), n0 ∈ l →
      (∀ n ∈ l, d.resultIdx? (u.rowMajor.symm n) idx = some i' → n = n0) →
      l.foldl (setStep d idx upd) r i' = upd (u.rowMajor.symm n0) := by
  intro l
  induction l with
  | nil => intro r hm; exact absurd hm List.not_mem_nil
  | cons n l ih =>
    intro r hm hu
    rw [List.foldl_cons]
    by_cases hl : n0 ∈ l
    · exact ih _ hl (fun m hmem => hu m (List.mem_cons_of_mem _ hmem))
    · have hn : n = n0 := by
        rcases List.mem_cons.1 hm with e | e
        · exact e.symm
        · exact absurd e hl
      subst hn
      rw [foldl_setStep_of_none d idx upd i' l _ (fun m hmem hhit =>
        hl (by have := hu m (List.mem_cons_of_mem _ hmem) hhit; rw [← this]; exact hmem))]
      exact setStep_of_eq d idx upd r n i' h0

/-- A scatter whose body returns the update, read at a result index `i'` on which exactly one update index `j`
    lands: the result there is the update's element `upd j`. -/
theorem scatter_set_of_unique (d : ScatterDims s si u) (x : s.Idx → α) (idx : IVec si w) (upd : u.Idx → α)
    (i' : s.Idx) (j : u.Idx) (hj : d.resultIdx? j idx = some i')
    (huniq : ∀ j' : u.Idx, d.resultIdx? j' idx = some i' → j' = j) :
    Host.scatter d (fun _ b => b) x idx upd i' = upd j := by
  have h0 : d.resultIdx? (u.rowMajor.symm (u.rowMajor j)) idx = some i' := by rw [Equiv.symm_apply_apply]; exact hj
  have := foldl_setStep_of_unique d idx upd i' (u.rowMajor j) h0 (List.finRange u.numel) x (List.mem_finRange _)
    (fun n _ hn => by
      have := huniq _ hn
      rw [← this, Equiv.apply_symm_apply])
  rw [Equiv.symm_apply_apply] at this
  exact this

/-- A scatter whose body returns the update, read at a result index `i'` on which no update index lands: the
    result there is the operand's element `x i'`. -/
theorem scatter_set_of_none (d : ScatterDims s si u) (x : s.Idx → α) (idx : IVec si w) (upd : u.Idx → α)
    (i' : s.Idx) (hnone : ∀ j : u.Idx, d.resultIdx? j idx ≠ some i') :
    Host.scatter d (fun _ b => b) x idx upd i' = x i' :=
  foldl_setStep_of_none d idx upd i' (List.finRange u.numel) x (fun n _ => hnone _)

end Host

namespace ScatterDims

variable {s si u : Shape} {w : Nat}

/-- Update index `j` lands on result index `i'` exactly when, on every operand axis, the window's start plus
    `j`'s window coordinate is `i'`'s coordinate. -/
theorem resultIdx?_eq_some_iff (d : ScatterDims s si u) (j : u.Idx) (idx : IVec si w) (i' : s.Idx) :
    d.resultIdx? j idx = some i' ↔ ∀ a : Fin s.rank, d.start j idx a + (d.window j a : Int) = ((i' a).val : Int) := by
  unfold resultIdx?
  constructor
  · intro h
    split at h
    · next hc =>
      have e := Option.some.inj h
      intro a
      have := congrArg (fun f => ((f a).val : Int)) e
      simp only at this
      rw [← this]
      have := (hc a).1
      omega
    · exact absurd h (by simp)
  · intro h
    have hc : ∀ a, 0 ≤ d.start j idx a + (d.window j a : Int) ∧ d.start j idx a + (d.window j a : Int) < s.size a := by
      intro a; rw [h a]; have := (i' a).isLt; omega
    rw [dif_pos hc]
    congr 1
    funext a
    apply Fin.ext
    show (d.start j idx a + (d.window j a : Int)).toNat = (i' a).val
    rw [h a]; rfl

end ScatterDims

end Idealize.ShloMosaic
-- ==== Proof.HostGlueScatter.lean ====
/-
  The kernel's four scatters, each read at one result index.

  Every scatter here writes a whole update array at ONE start position (the index vector is a pair, or a single
  entry, of literal words): the update's entry `j` lands at the start plus `j`'s window coordinates, so a result
  index inside the written block reads the update there and one outside reads the operand. First three general
  statements over any record whose landing condition is known in that form (a block of a matrix, a row of a
  matrix, one entry of a matrix); then the landing conditions of the program's four records at the index vectors
  built by laying broadcast scalars end to end.
-/
import proofs.«130756_g2000304380712430_pallasbulk_699_25_alg».proof.Proof.LibScatterSet
import proofs.«130756_g2000304380712430_pallasbulk_699_25_alg».proof.Proof.HostGlueTerms
import Idealize.ShloMosaic.Lib.ValueIdx

noncomputable section

namespace Cert.KernelIdeal.HostGlue

open Idealize.ShloMosaic Idealize.ShloMosaic.ValueIdx
open Cert.KernelIdeal Cert.KernelIdeal.Gen

/-! ## A block, a row, an entry written into a matrix -/

section General

variable {α : Type} {w n0 n1 m0 m1 : Nat} {si : Shape}

/-- A whole `m0 × m1` update written at `(a0, b0)` of an `n0 × n1` matrix, read inside the block. -/
theorem scatter_block_inside (D : ScatterDims ⟨2, ![n0, n1]⟩ si ⟨2, ![m0, m1]⟩) (I : IVec si w) (a0 b0 : Nat)
    (hl : ∀ (j : (⟨2, ![m0, m1]⟩ : Shape).Idx) (i' : (⟨2, ![n0, n1]⟩ : Shape).Idx),
      D.resultIdx? j I = some i' ↔ (a0 + (j 0).val = (i' 0).val ∧ b0 + (j 1).val = (i' 1).val))
    (X : (⟨2, ![n0, n1]⟩ : Shape).Idx → α) (V : (⟨2, ![m0, m1]⟩ : Shape).Idx → α)
    (k : Fin n0) (l : Fin n1) (r : Fin m0) (q : Fin m1) (hk : k.val = a0 + r.val) (hq : l.val = b0 + q.val) :
    Host.scatter D (fun _ b => b) X I V (ix2 k l) = V (ix2 r q) := by
  refine Host.scatter_set_of_unique D X I V (ix2 k l) (ix2 r q) ((hl _ _).2 ⟨?_, ?_⟩) (fun j' hj' => ?_)
  · show a0 + r.val = k.val; omega
  · show b0 + q.val = l.val; omega
  · obtain ⟨h0, h1⟩ := (hl _ _).1 hj'
    have h0' : a0 + (j' 0).val = k.val := h0
    have h1' : b0 + (j' 1).val = l.val := h1
    rw [eq_ix2 j']
    have e0 : j' 0 = r := Fin.ext (by omega)
    have e1 : j' 1 = q := Fin.ext (by omega)
    rw [e0, e1]
    rfl

/-- The same read outside the block: the operand. -/
theorem scatter_block_outside (D : ScatterDims ⟨2, ![n0, n1]⟩ si ⟨2, ![m0, m1]⟩) (I : IVec si w) (a0 b0 : Nat)
    (hl : ∀ (j : (⟨2, ![m0, m1]⟩ : Shape).Idx) (i' : (⟨2, ![n0, n1]⟩ : Shape).Idx),
      D.resultIdx? j I = some i' ↔ (a0 + (j 0).val = (i' 0).val ∧ b0 + (j 1).val = (i' 1).val))
    (X : (⟨2, ![n0, n1]⟩ : Shape).Idx → α) (V : (⟨2, ![m0, m1]⟩ : Shape).Idx → α)
    (k : Fin n0) (l : Fin n1) (hout : ¬ (a0 ≤ k.val ∧ k.val < a0 + m0 ∧ b0 ≤ l.val ∧ l.val < b0 + m1)) :
    Host.scatter D (fun _ b => b) X I V (ix2 k l) = X (ix2 k l) := by
  refine Host.scatter_set_of_none D X I V (ix2 k l) (fun j hj => hout ?_)
  obtain ⟨h0, h1⟩ := (hl _ _).1 hj
  have h0' : a0 + (j 0).val = k.val := h0
  have h1' : b0 + (j 1).val = l.val := h1
  have := idx2_lt0 j; have := idx2_lt1 j
  omega

/-- A whole vector of `n1` entries written as row `a0` of an `n0 × n1` matrix, read on that row. -/
theorem scatter_row_inside (D : ScatterDims ⟨2, ![n0, n1]⟩ si ⟨1, ![n1]⟩) (I : IVec si w) (a0 : Nat)
    (hl : ∀ (j : (⟨1, ![n1]⟩ : Shape).Idx) (i' : (⟨2, ![n0, n1]⟩ : Shape).Idx),
      D.resultIdx? j I = some i' ↔ (a0 = (i' 0).val ∧ (j 0).val = (i' 1).val))
    (X : (⟨2, ![n0, n1]⟩ : Shape).Idx → α) (V : (⟨1, ![n1]⟩ : Shape).Idx → α)
    (k : Fin n0) (l : Fin n1) (hk : k.val = a0) :
    Host.scatter D (fun _ b => b) X I V (ix2 k l) = V (ix1 l) := by
  refine Host.scatter_set_of_unique D X I V (ix2 k l) (ix1 l) ((hl _ _).2 ⟨?_, ?_⟩) (fun j' hj' => ?_)
  · show a0 = k.val; omega
  · show l.val = l.val; rfl
  · obtain ⟨_, h1⟩ := (hl _ _).1 hj'
    have h1' : (j' 0).val = l.val := h1
    rw [eq_ix1 j']
    have e0 : j' 0 = l := Fin.ext h1'
    rw [e0]
    rfl

/-- The same read on another row: the operand. -/
theorem scatter_row_outside (D : ScatterDims ⟨2, ![n0, n1]⟩ si ⟨1, ![n1]⟩) (I : IVec si w) (a0 : Nat)
    (hl : ∀ (j : (⟨1, ![n1]⟩ : Shape).Idx) (i' : (⟨2, ![n0, n1]⟩ : Shape).Idx),
      D.resultIdx? j I = some i' ↔ (a0 = (i' 0).val ∧ (j 0).val = (i' 1).val))
    (X : (⟨2, ![n0, n1]⟩ : Shape).Idx → α) (V : (⟨1, ![n1]⟩ : Shape).Idx → α)
    (k : Fin n0) (l : Fin n1) (hk : k.val ≠ a0) :
    Host.scatter D (fun _ b => b) X I V (ix2 k l) = X (ix2 k l) := by
  refine Host.scatter_set_of_none D X I V (ix2 k l) (fun j hj => hk ?_)
  obtain ⟨h0, _⟩ := (hl _ _).1 hj
  have h0' : a0 = k.val := h0
  omega

/-- A scalar written at entry `(a0, b0)` of an `n0 × n1` matrix, read there. -/
theorem scatter_entry_inside (D : ScatterDims ⟨2, ![n0, n1]⟩ si ⟨0, ![]⟩) (I : IVec si w) (a0 b0 : Nat)
    (hl : ∀ (j : (⟨0, ![]⟩ : Shape).Idx) (i' : (⟨2, ![n0, n1]⟩ : Shape).Idx),
      D.resultIdx? j I = some i' ↔ (a0 = (i' 0).val ∧ b0 = (i' 1).val))
    (X : (⟨2, ![n0, n1]⟩ : Shape).Idx → α) (V : (⟨0, ![]⟩ : Shape).Idx → α)
    (k : Fin n0) (l : Fin n1) (hk : k.val = a0) (hq : l.val = b0) :
    Host.scatter D (fun _ b => b) X I V (ix2 k l) = V ix0 := by
  refine Host.scatter_set_of_unique D X I V (ix2 k l) ix0 ((hl _ _).2 ⟨?_, ?_⟩) (fun j' _ => eq_ix0 j')
  · show a0 = k.val; omega
  · show b0 = l.val; omega

/-- The same read at another entry: the operand. -/
theorem scatter_entry_outside (D : ScatterDims ⟨2, ![n0, n1]⟩ si ⟨0, ![]⟩) (I : IVec si w) (a0 b0 : Nat)
    (hl : ∀ (j : (⟨0, ![]⟩ : Shape).Idx) (i' : (⟨2, ![n0, n1]⟩ : Shape).Idx),
      D.resultIdx? j I = some i' ↔ (a0 = (i' 0).val ∧ b0 = (i' 1).val))
    (X : (⟨2, ![n0, n1]⟩ : Shape).Idx → α) (V : (⟨0, ![]⟩ : Shape).Idx → α)
    (k : Fin n0) (l : Fin n1) (hout : ¬ (k.val = a0 ∧ l.val = b0)) :
    Host.scatter D (fun _ b => b) X I V (ix2 k l) = X (ix2 k l) := by
  refine Host.scatter_set_of_none D X I V (ix2 k l) (fun j hj => hout ?_)
  obtain ⟨h0, h1⟩ := (hl _ _).1 hj
  have h0' : a0 = k.val := h0
  have h1' : b0 = l.val := h1
  omega

end General

/-! ## Where the program's four records land

The start on each operand axis is the index vector's entry for it read signed, the window coordinate the update
index's coordinate on a window axis and zero on an inserted one: each by computation on the literal record. -/

/-- The 4×56 block into the 8×112 matrix at `(A, B)`. -/
theorem lands_w1 (a0 b0 : Nat) (A B : BitVec 32) (hA : A.toInt = a0) (hB : B.toInt = b0)
    (j : S4x56.Idx) (i' : S8x112.Idx) :
    scatter_S8x112_S2_S4x56_01_n_01_0.resultIdx? j (idx2 A B) = some i'
      ↔ (a0 + (j 0).val = (i' 0).val ∧ b0 + (j 1).val = (i' 1).val) := by
  rw [ScatterDims.resultIdx?_eq_some_iff]
  constructor
  · intro h
    have h0 : A.toInt + ((j 0).val : Int) = ((i' 0).val : Int) := h 0
    have h1 : B.toInt + ((j 1).val : Int) = ((i' 1).val : Int) := h 1
    rw [hA] at h0; rw [hB] at h1
    exact ⟨by omega, by omega⟩
  · rintro ⟨h0, h1⟩ a
    match a with
    | ⟨0, _⟩ => show A.toInt + ((j 0).val : Int) = ((i' 0).val : Int); rw [hA]; omega
    | ⟨1, _⟩ => show B.toInt + ((j 1).val : Int) = ((i' 1).val : Int); rw [hB]; omega

/-- The 56×8 block into the 112×16 matrix at `(A, B)`. -/
theorem lands_w2 (a0 b0 : Nat) (A B : BitVec 32) (hA : A.toInt = a0) (hB : B.toInt = b0)
    (j : S56x8.Idx) (i' : S112x16.Idx) :
    scatter_S112x16_S2_S56x8_01_n_01_0.resultIdx? j (idx2 A B) = some i'
      ↔ (a0 + (j 0).val = (i' 0).val ∧ b0 + (j 1).val = (i' 1).val) := by
  rw [ScatterDims.resultIdx?_eq_some_iff]
  constructor
  · intro h
    have h0 : A.toInt + ((j 0).val : Int) = ((i' 0).val : Int) := h 0
    have h1 : B.toInt + ((j 1).val : Int) = ((i' 1).val : Int) := h 1
    rw [hA] at h0; rw [hB] at h1
    exact ⟨by omega, by omega⟩
  · rintro ⟨h0, h1⟩ a
    match a with
    | ⟨0, _⟩ => show A.toInt + ((j 0).val : Int) = ((i' 0).val : Int); rw [hA]; omega
    | ⟨1, _⟩ => show B.toInt + ((j 1).val : Int) = ((i' 1).val : Int); rw [hB]; omega

/-- The vector of 8 into the 56×8 matrix as row `A`. -/
theorem lands_row (a0 : Nat) (A : BitVec 32) (hA : A.toInt = a0) (j : S8.Idx) (i' : S56x8.Idx) :
    scatter_S56x8_S1_S8_0_0_0_0.resultIdx? j (idx1 A) = some i'
      ↔ (a0 = (i' 0).val ∧ (j 0).val = (i' 1).val) := by
  rw [ScatterDims.resultIdx?_eq_some_iff]
  constructor
  · intro h
    have h0 : A.toInt + ((0 : Nat) : Int) = ((i' 0).val : Int) := h 0
    have h1 : (0 : Int) + ((j 0).val : Int) = ((i' 1).val : Int) := h 1
    rw [hA] at h0
    exact ⟨by omega, by omega⟩
  · rintro ⟨h0, h1⟩ a
    match a with
    | ⟨0, _⟩ => show A.toInt + ((0 : Nat) : Int) = ((i' 0).val : Int); rw [hA]; omega
    | ⟨1, _⟩ => show (0 : Int) + ((j 0).val : Int) = ((i' 1).val : Int); omega

/-- The scalar into the 1×56 matrix at `(A, B)`. -/
theorem lands_entry (a0 b0 : Nat) (A B : BitVec 32) (hA : A.toInt = a0) (hB : B.toInt = b0)
    (j : S_.Idx) (i' : S1x56.Idx) :
    scatter_S1x56_S2_S__n_01_01_0.resultIdx? j (idx2 A B) = some i'
      ↔ (a0 = (i' 0).val ∧ b0 = (i' 1).val) := by
  rw [ScatterDims.resultIdx?_eq_some_iff]
  constructor
  · intro h
    have h0 : A.toInt + ((0 : Nat) : Int) = ((i' 0).val : Int) := h 0
    have h1 : B.toInt + ((0 : Nat) : Int) = ((i' 1).val : Int) := h 1
    rw [hA] at h0; rw [hB] at h1
    exact ⟨by omega, by omega⟩
  · rintro ⟨h0, h1⟩ a
    match a with
    | ⟨0, _⟩ => show A.toInt + ((0 : Nat) : Int) = ((i' 0).val : Int); rw [hA]; omega
    | ⟨1, _⟩ => show B.toInt + ((0 : Nat) : Int) = ((i' 1).val : Int); rw [hB]; omega

end Cert.KernelIdeal.HostGlue

end
-- ==== Proof.HostGlueW1.lean ====
/-
  The kernel's 8×112 first-layer matrix, read at an index: the block `p[0:4, 0:56]` in rows 0..3 × columns 0..55
  and again in rows 4..7 × columns 56..111, zero elsewhere — the specification's `w1d`.
-/
import proofs.«130756_g2000304380712430_pallasbulk_699_25_alg».proof.Proof.HostGlueScatter
import proofs.«130756_g2000304380712430_pallasbulk_699_25_alg».proof.Proof.Spec
import Idealize.ShloMosaic.Lib.ValueLayout
import Idealize.ShloMosaic.Lib.IdealHost
import Idealize.ShloMosaic.Lib.Pipeline.Value

noncomputable section

namespace Cert.KernelIdeal.HostGlue

open Idealize.ShloMosaic Idealize.ShloMosaic.ValueIdx
open Cert.KernelIdeal Cert.KernelIdeal.Gen

/-- The 8×112 zeros read zero everywhere. -/
theorem z8x112_apply (i : S8x112.Idx) : z8x112 i = 0 :=
  (broadcastInDim_scalar_apply _ _ i).trans Ideal.ofBits_zero_bf16

/-- The first layer's block at `(r, q)` is the slab's entry there. -/
theorem w1Blk_apply (p : FVec Ideal S152x128 .f32) (r : Fin 4) (q : Fin 56) (k : Fin 152) (l : Fin 128)
    (hk : k.val = r.val) (hl : l.val = q.val) : w1Blk p (ix2 r q) = p (ix2 k l) :=
  show extractStridedSlice S4x56 ![0, 0] p slices_S152x128_S4x56_0_0 (ix2 r q) = p (ix2 k l) from
  extractStridedSlice_apply _ p _ (ix2 r q) (ix2 k l) (fun a => by
    match a with
    | ⟨0, _⟩ => show k.val = 0 + r.val; omega
    | ⟨1, _⟩ => show l.val = 0 + q.val; omega)

/-- The first-layer matrix at `(k, l)` is the specification's block-diagonal matrix there. -/
theorem w1B_apply (p : FVec Ideal S152x128 .f32) (k : Fin 8) (l : Fin 112) :
    w1B p (ix2 k l) = Cert.Spec.w1d p k l := by
  unfold Cert.Spec.w1d
  by_cases h2 : 4 ≤ k.val ∧ 56 ≤ l.val
  · rw [dif_neg (by omega), dif_pos h2]
    refine (scatter_block_inside scatter_S8x112_S2_S4x56_01_n_01_0 (idx2 4#32 56#32) 4 56
      (lands_w1 4 56 4#32 56#32 (by decide) (by decide)) (w1A p) (w1Blk p) k l
      ⟨k.val - 4, by omega⟩ ⟨l.val - 56, by omega⟩ (by show k.val = 4 + (k.val - 4); omega)
      (by show l.val = 56 + (l.val - 56); omega)).trans ?_
    exact w1Blk_apply p _ _ _ _ rfl rfl
  · refine (scatter_block_outside scatter_S8x112_S2_S4x56_01_n_01_0 (idx2 4#32 56#32) 4 56
      (lands_w1 4 56 4#32 56#32 (by decide) (by decide)) (w1A p) (w1Blk p) k l (by omega)).trans ?_
    by_cases h1 : k.val < 4 ∧ l.val < 56
    · rw [dif_pos h1]
      refine (scatter_block_inside scatter_S8x112_S2_S4x56_01_n_01_0 (idx2 0#32 0#32) 0 0
        (lands_w1 0 0 0#32 0#32 (by decide) (by decide)) z8x112 (w1Blk p) k l
        ⟨k.val, h1.1⟩ ⟨l.val, h1.2⟩ (by show k.val = 0 + k.val; omega) (by show l.val = 0 + l.val; omega)).trans ?_
      exact w1Blk_apply p _ _ _ _ rfl rfl
    · rw [dif_neg h1, dif_neg h2]
      refine (scatter_block_outside scatter_S8x112_S2_S4x56_01_n_01_0 (idx2 0#32 0#32) 0 0
        (lands_w1 0 0 0#32 0#32 (by decide) (by decide)) z8x112 (w1Blk p) k l (by omega)).trans ?_
      exact z8x112_apply _

end Cert.KernelIdeal.HostGlue

end
-- ==== Proof.HostGlueB1.lean ====
/-
  The kernel's 112×1 bias column, read at an index: row 8 of the slab on lanes 0..55 with lane 50 overwritten by
  one, laid twice side by side and turned into a column — the specification's `b1d`.
-/
import proofs.«130756_g2000304380712430_pallasbulk_699_25_alg».proof.Proof.HostGlueScatter
import proofs.«130756_g2000304380712430_pallasbulk_699_25_alg».proof.Proof.Spec
import Idealize.ShloMosaic.Lib.ValueLayout
import Idealize.ShloMosaic.Lib.IdealHost
import Idealize.ShloMosaic.Lib.Pipeline.Value

noncomputable section

namespace Cert.KernelIdeal.HostGlue

open Idealize.ShloMosaic Idealize.ShloMosaic.ValueIdx
open Cert.KernelIdeal Cert.KernelIdeal.Gen

/-- The scalar one is the extended real one. -/
theorem one_apply : one ix0 = 1 := Ideal.ofBits_one_f32

/-- The bias row's slice at lane `q` is the slab's entry `(8, q)`. -/
theorem sB1_apply (p : FVec Ideal S152x128 .f32) (u : Fin 1) (q : Fin 56) (k : Fin 152) (l : Fin 128)
    (hk : k.val = 8) (hl : l.val = q.val) : sB1 p (ix2 u q) = p (ix2 k l) :=
  extractStridedSlice_apply _ p _ (ix2 u q) (ix2 k l) (fun a => by
    match a with
    | ⟨0, _⟩ => show k.val = 8 + u.val; omega
    | ⟨1, _⟩ => show l.val = 0 + q.val; omega)

/-- The bias row with lane 50 set to one is the specification's bias. -/
theorem bRow_apply (p : FVec Ideal S152x128 .f32) (u : Fin 1) (q : Fin 56) :
    bRow p (ix2 u q) = Cert.Spec.b1' p q := by
  unfold Cert.Spec.b1'
  by_cases h : q.val = 50
  · rw [if_pos h]
    exact (scatter_entry_inside scatter_S1x56_S2_S__n_01_01_0 (idx2 0#32 50#32) 0 50
      (lands_entry 0 50 0#32 50#32 (by decide) (by decide)) (sB1 p) one u q (by omega) h).trans one_apply
  · rw [if_neg h]
    refine (scatter_entry_outside scatter_S1x56_S2_S__n_01_01_0 (idx2 0#32 50#32) 0 50
      (lands_entry 0 50 0#32 50#32 (by decide) (by decide)) (sB1 p) one u q (by omega)).trans ?_
    exact sB1_apply p u q _ _ rfl rfl

/-- The row laid twice side by side reads the row at the lane modulo 56. -/
theorem bRow2_apply (p : FVec Ideal S152x128 .f32) (u : Fin 1) (j : Fin 112) :
    bRow2 p (ix2 u j) = bRow p (ix2 u ⟨j.val % 56, Nat.mod_lt _ (by omega)⟩) := by
  by_cases h : j.val < 56
  · exact concatenate_pair_apply_left (1 : Fin 2) (bRow p) (bRow p) concatenates_S1x56_S1x56_S1x112_d1
      (ix2 u j) rfl (ix2 u ⟨j.val % 56, Nat.mod_lt _ (by omega)⟩) (fun b => by
        match b with
        | ⟨0, _⟩ => rfl
        | ⟨1, _⟩ => show j.val % 56 = j.val; exact Nat.mod_eq_of_lt h)
  · exact concatenate_pair_apply_right (1 : Fin 2) (bRow p) (bRow p) concatenates_S1x56_S1x56_S1x112_d1
      (ix2 u j) rfl rfl (ix2 u ⟨j.val % 56, Nat.mod_lt _ (by omega)⟩) (fun b hb => by
        match b, hb with
        | ⟨0, _⟩, _ => rfl
        | ⟨1, _⟩, hb => exact absurd rfl hb)
      (by show j.val % 56 + 56 = j.val; have := j.isLt; omega)

/-- The bias column at row `j` is the specification's stacked bias there. -/
theorem bCol_apply (p : FVec Ideal S152x128 .f32) (j : Fin 112) (u : Fin 1) :
    bCol p (ix2 j u) = Cert.Spec.b1d p j := by
  unfold Cert.Spec.b1d
  refine (transpose_ix2_apply (bRow2 p) transposes_S1x112_S112x1_1_0 j u).trans ?_
  rw [bRow2_apply, bRow_apply]

end Cert.KernelIdeal.HostGlue

end
-- ==== Proof.HostGlueW2.lean ====
/-
  The kernel's 112×16 second-layer matrix, read at an index: the block `p[16:72, 0:8]` with its row 50
  overwritten by `p[144, 0:8]`, in rows 0..55 × columns 0..7 and again in rows 56..111 × columns 8..15, zero
  elsewhere — the specification's `w2d`.
-/
import proofs.«130756_g2000304380712430_pallasbulk_699_25_alg».proof.Proof.HostGlueScatter
import proofs.«130756_g2000304380712430_pallasbulk_699_25_alg».proof.Proof.Spec
import Idealize.ShloMosaic.Lib.ValueLayout
import Idealize.ShloMosaic.Lib.IdealHost
import Idealize.ShloMosaic.Lib.Pipeline.Value

noncomputable section

namespace Cert.KernelIdeal.HostGlue

open Idealize.ShloMosaic Idealize.ShloMosaic.ValueIdx
open Cert.KernelIdeal Cert.KernelIdeal.Gen

/-- The 112×16 zeros read zero everywhere. -/
theorem z112x16_apply (i : S112x16.Idx) : z112x16 i = 0 :=
  (broadcastInDim_scalar_apply _ _ i).trans Ideal.ofBits_zero_bf16

/-- The second layer's slice at `(r, q)` is the slab's entry `(16 + r, q)`. -/
theorem sW2_apply (p : FVec Ideal S152x128 .f32) (r : Fin 56) (q : Fin 8) (k : Fin 152) (l : Fin 128)
    (hk : k.val = 16 + r.val) (hl : l.val = q.val) : sW2 p (ix2 r q) = p (ix2 k l) :=
  extractStridedSlice_apply _ p _ (ix2 r q) (ix2 k l) (fun a => by
    match a with
    | ⟨0, _⟩ => show k.val = 16 + r.val; omega
    | ⟨1, _⟩ => show l.val = 0 + q.val; omega)

/-- The second layer's bias as a vector at `q` is the slab's entry `(144, q)`. -/
theorem b2Vec_apply (p : FVec Ideal S152x128 .f32) (q : Fin 8) (k : Fin 152) (l : Fin 128)
    (hk : k.val = 144) (hl : l.val = q.val) : b2Vec p (ix1 q) = p (ix2 k l) :=
  (shapeCast_1a_a_apply (sB2 p) shapeCasts_S1x8_S8 q).trans
    (extractStridedSlice_apply _ p _ (ix2 (0 : Fin 1) q) (ix2 k l) (fun a => by
      match a with
      | ⟨0, _⟩ => show k.val = 144 + 0; omega
      | ⟨1, _⟩ => show l.val = 0 + q.val; omega))

/-- The block with row 50 set to the second layer's bias is the specification's block. -/
theorem w2Blk_apply (p : FVec Ideal S152x128 .f32) (r : Fin 56) (q : Fin 8) :
    w2Blk p (ix2 r q) = Cert.Spec.w2' p r q := by
  unfold Cert.Spec.w2'
  by_cases h : r.val = 50
  · rw [if_pos h]
    refine (scatter_row_inside scatter_S56x8_S1_S8_0_0_0_0 (idx1 50#32) 50
      (lands_row 50 50#32 (by decide)) (sW2 p) (b2Vec p) r q h).trans ?_
    exact b2Vec_apply p q _ _ rfl rfl
  · rw [if_neg h]
    refine (scatter_row_outside scatter_S56x8_S1_S8_0_0_0_0 (idx1 50#32) 50
      (lands_row 50 50#32 (by decide)) (sW2 p) (b2Vec p) r q h).trans ?_
    exact sW2_apply p r q _ _ rfl rfl

/-- The second-layer matrix at `(j, o)` is the specification's block-diagonal matrix there. -/
theorem w2B_apply (p : FVec Ideal S152x128 .f32) (j : Fin 112) (o : Fin 16) :
    w2B p (ix2 j o) = Cert.Spec.w2d p j o := by
  unfold Cert.Spec.w2d
  by_cases h2 : 56 ≤ j.val ∧ 8 ≤ o.val
  · rw [dif_neg (by omega), dif_pos h2]
    refine (scatter_block_inside scatter_S112x16_S2_S56x8_01_n_01_0 (idx2 56#32 8#32) 56 8
      (lands_w2 56 8 56#32 8#32 (by decide) (by decide)) (w2A p) (w2BlkT p) j o
      ⟨j.val - 56, by omega⟩ ⟨o.val - 8, by omega⟩ (by show j.val = 56 + (j.val - 56); omega)
      (by show o.val = 8 + (o.val - 8); omega)).trans ?_
    exact w2Blk_apply p _ _
  · refine (scatter_block_outside scatter_S112x16_S2_S56x8_01_n_01_0 (idx2 56#32 8#32) 56 8
      (lands_w2 56 8 56#32 8#32 (by decide) (by decide)) (w2A p) (w2BlkT p) j o (by omega)).trans ?_
    by_cases h1 : j.val < 56 ∧ o.val < 8
    · rw [dif_pos h1]
      refine (scatter_block_inside scatter_S112x16_S2_S56x8_01_n_01_0 (idx2 0#32 0#32) 0 0
        (lands_w2 0 0 0#32 0#32 (by decide) (by decide)) z112x16 (w2BlkT p) j o
        ⟨j.val, h1.1⟩ ⟨o.val, h1.2⟩ (by show j.val = 0 + j.val; omega) (by show o.val = 0 + o.val; omega)).trans ?_
      exact w2Blk_apply p _ _
    · rw [dif_neg h1, dif_neg h2]
      refine (scatter_block_outside scatter_S112x16_S2_S56x8_01_n_01_0 (idx2 0#32 0#32) 0 0
        (lands_w2 0 0 0#32 0#32 (by decide) (by decide)) z112x16 (w2BlkT p) j o (by omega)).trans ?_
      exact z112x16_apply _

end Cert.KernelIdeal.HostGlue

end
-- ==== Proof.HostGlue.lean ====
/-
  The kernel's four operands as its region finds them, as functions of the two argument arrays: the transposed
  `x`, and the specification's block-diagonal first-layer matrix, stacked bias and block-diagonal second-layer
  matrix of the parameter slab. Pure data movement and two constants; no hypothesis on the arrays.
-/
import proofs.«130756_g2000304380712430_pallasbulk_699_25_alg».proof.Proof.HostGlueAfter
import proofs.«130756_g2000304380712430_pallasbulk_699_25_alg».proof.Proof.HostGlueW1
import proofs.«130756_g2000304380712430_pallasbulk_699_25_alg».proof.Proof.HostGlueB1
import proofs.«130756_g2000304380712430_pallasbulk_699_25_alg».proof.Proof.HostGlueW2

noncomputable section

namespace Cert.KernelIdeal.HostGlue

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-- The first operand at `(f, r)` is `x` at `(r, f)`. -/
theorem glue_x :
    (E m c main_call0_v0 : S4x2097152.Idx → EReal)
      = fun i => (m ((c : Thread nD τ).loc main_arg0) : Cert.Spec.SX.Idx → EReal) (ix2 (i 1) (i 0)) := by
  refine (E_x m c).trans (funext fun i => ?_)
  obtain ⟨f, r, rfl⟩ : ∃ (f : Fin 4) (r : Fin 2097152), i = ix2 f r := ⟨i 0, i 1, eq_ix2 i⟩
  exact transpose_ix2_apply (argX m c) transposes_S2097152x4_S4x2097152_1_0 f r

/-- The second operand is the specification's 8×112 first-layer matrix of the slab. -/
theorem glue_w1d :
    (E m c main_call0_v22 : S8x112.Idx → EReal)
      = fun i => Cert.Spec.w1d (m ((c : Thread nD τ).loc main_arg1) : Cert.Spec.SP.Idx → EReal) (i 0) (i 1) := by
  refine (E_w1d m c).trans (funext fun i => ?_)
  obtain ⟨k, l, rfl⟩ : ∃ (k : Fin 8) (l : Fin 112), i = ix2 k l := ⟨i 0, i 1, eq_ix2 i⟩
  exact w1B_apply (argP m c) k l

/-- The third operand is the specification's 112-entry bias of the slab, as a column. -/
theorem glue_b1d :
    (E m c main_call0_v36 : S112x1.Idx → EReal)
      = fun i => Cert.Spec.b1d (m ((c : Thread nD τ).loc main_arg1) : Cert.Spec.SP.Idx → EReal) (i 0) := by
  refine (E_b1d m c).trans (funext fun i => ?_)
  obtain ⟨j, u, rfl⟩ : ∃ (j : Fin 112) (u : Fin 1), i = ix2 j u := ⟨i 0, i 1, eq_ix2 i⟩
  exact bCol_apply (argP m c) j u

/-- The fourth operand is the specification's 112×16 second-layer matrix of the slab. -/
theorem glue_w2d :
    (E m c main_call0_v33 : S112x16.Idx → EReal)
      = fun i => Cert.Spec.w2d (m ((c : Thread nD τ).loc main_arg1) : Cert.Spec.SP.Idx → EReal) (i 0) (i 1) := by
  refine (E_w2d m c).trans (funext fun i => ?_)
  obtain ⟨j, o, rfl⟩ : ∃ (j : Fin 112) (o : Fin 16), i = ix2 j o := ⟨i 0, i 1, eq_ix2 i⟩
  exact w2B_apply (argP m c) j o

end Cert.KernelIdeal.HostGlue

end
-- ==== Proof.Algebra.lean ====
/-
  The algebra joining the two spellings of the perceptron.

  Over the extended reals multiplication is commutative, `0 * a = 0` for every `a`, and addition is a
  commutative monoid; nothing else is needed.

  * A pair of rows against the block-diagonal matrices: in the sum over the 112 stacked hidden lanes the block
    that does not meet the chosen output lane has second-layer weight `0`, and in the sum over the 8 stacked
    features the block that does not meet the chosen hidden lane has first-layer weight `0`; what is left is
    `core p xr o = Σ_{j<56} w2' j o · max (Σ_{k<4} w1 k j · xr k + b1' j) 0` of the one row `xr`.
  * Against the reference: its padded features contribute `0 · p`; under the contract that rows `0..8` of the
    slab vanish in columns `50..127` every hidden lane `j ≥ 50` of the reference is `max (0 + 0) 0 = 0`, the
    kernel's lanes `51..55` likewise, and the kernel's lane `50` is `max (0 + 1) 0 = 1` against the second layer's
    bias: both sides are `Σ_{j<50} … + p(144, o)`.
  * The row bookkeeping: a row in the first half of its block is its own `rowA`, one in the second half its own
    `rowB`.
-/
import proofs.«130756_g2000304380712430_pallasbulk_699_25_alg».proof.Proof.Spec
import Mathlib.Algebra.BigOperators.Fin
import Mathlib.Data.EReal.Basic

noncomputable section

open scoped BigOperators

namespace Cert.Spec

open Idealize.ShloMosaic Idealize.ShloMosaic.ValueIdx

/-- A sum over `a + b` indices whose last `b` terms vanish is the sum of the first `a`. -/
theorem sum_lo (a b : ℕ) (f : Fin (a + b) → EReal) (hf : ∀ i : Fin b, f (Fin.natAdd a i) = 0) :
    ∑ i, f i = ∑ i : Fin a, f (Fin.castAdd b i) := by
  rw [Fin.sum_univ_add, Finset.sum_eq_zero (fun i _ => hf i), add_zero]

/-- A sum over `a + b` indices whose first `a` terms vanish is the sum of the last `b`. -/
theorem sum_hi (a b : ℕ) (f : Fin (a + b) → EReal) (hf : ∀ i : Fin a, f (Fin.castAdd b i) = 0) :
    ∑ i, f i = ∑ i : Fin b, f (Fin.natAdd a i) := by
  rw [Fin.sum_univ_add, Finset.sum_eq_zero (fun i _ => hf i), zero_add]

/-- The perceptron of one row as the kernel carries it: 56 hidden lanes, 8 output lanes. -/
def core (p : SP.Idx → EReal) (xr : Fin 4 → EReal) (o : Fin 8) : EReal :=
  ∑ j : Fin 56, w2' p j o * max ((∑ k : Fin 4, w1 p k j * xr k) + b1' p j) 0

variable (p : SP.Idx → EReal)

/-! ### The block-diagonal matrices read block by block -/

theorem w1d_lo_lo (k' : Fin 8) (j' : Fin 112) (hk : k'.val < 4) (hj : j'.val < 56) :
    w1d p k' j' = w1 p ⟨k'.val, hk⟩ ⟨j'.val, hj⟩ := by
  unfold w1d; rw [dif_pos ⟨hk, hj⟩]

theorem w1d_hi_hi (k' : Fin 8) (j' : Fin 112) (hk : 4 ≤ k'.val) (hj : 56 ≤ j'.val) :
    w1d p k' j' = w1 p ⟨k'.val - 4, by omega⟩ ⟨j'.val - 56, by omega⟩ := by
  unfold w1d; rw [dif_neg (by omega), dif_pos ⟨hk, hj⟩]

theorem w1d_lo_hi (k' : Fin 8) (j' : Fin 112) (hk : k'.val < 4) (hj : 56 ≤ j'.val) : w1d p k' j' = 0 := by
  unfold w1d; rw [dif_neg (by omega), dif_neg (by omega)]

theorem w1d_hi_lo (k' : Fin 8) (j' : Fin 112) (hk : 4 ≤ k'.val) (hj : j'.val < 56) : w1d p k' j' = 0 := by
  unfold w1d; rw [dif_neg (by omega), dif_neg (by omega)]

theorem w2d_lo_lo (j' : Fin 112) (o' : Fin 16) (hj : j'.val < 56) (ho : o'.val < 8) :
    w2d p j' o' = w2' p ⟨j'.val, hj⟩ ⟨o'.val, ho⟩ := by
  unfold w2d; rw [dif_pos ⟨hj, ho⟩]

theorem w2d_hi_hi (j' : Fin 112) (o' : Fin 16) (hj : 56 ≤ j'.val) (ho : 8 ≤ o'.val) :
    w2d p j' o' = w2' p ⟨j'.val - 56, by omega⟩ ⟨o'.val - 8, by omega⟩ := by
  unfold w2d; rw [dif_neg (by omega), dif_pos ⟨hj, ho⟩]

theorem w2d_lo_hi (j' : Fin 112) (o' : Fin 16) (hj : j'.val < 56) (ho : 8 ≤ o'.val) : w2d p j' o' = 0 := by
  unfold w2d; rw [dif_neg (by omega), dif_neg (by omega)]

theorem w2d_hi_lo (j' : Fin 112) (o' : Fin 16) (hj : 56 ≤ j'.val) (ho : o'.val < 8) : w2d p j' o' = 0 := by
  unfold w2d; rw [dif_neg (by omega), dif_neg (by omega)]

theorem b1d_lo (j' : Fin 112) (hj : j'.val < 56) : b1d p j' = b1' p ⟨j'.val, hj⟩ := by
  unfold b1d; congr 1; exact Fin.ext (Nat.mod_eq_of_lt hj)

theorem b1d_hi (j' : Fin 112) (hj : 56 ≤ j'.val) : b1d p j' = b1' p ⟨j'.val - 56, by omega⟩ := by
  unfold b1d; congr 1; apply Fin.ext; show j'.val % 56 = j'.val - 56; omega

theorem stack_lo (xa xb : Fin 4 → EReal) (k' : Fin 8) (hk : k'.val < 4) : stack xa xb k' = xa ⟨k'.val, hk⟩ := by
  unfold stack; rw [dif_pos hk]

theorem stack_hi (xa xb : Fin 4 → EReal) (k' : Fin 8) (hk : 4 ≤ k'.val) :
    stack xa xb k' = xb ⟨k'.val - 4, by omega⟩ := by
  unfold stack; rw [dif_neg (by omega)]

/-! ### A stacked pair against the block-diagonal matrices -/

/-- The first product at a hidden lane of the first block sees only the first row of the pair. -/
theorem inner_lo (xa xb : Fin 4 → EReal) (j' : Fin 112) (hj : j'.val < 56) :
    (∑ k' : Fin 8, w1d p k' j' * stack xa xb k') = ∑ k : Fin 4, w1 p k ⟨j'.val, hj⟩ * xa k := by
  refine (sum_lo 4 4 _ ?_).trans ?_
  · intro k
    rw [w1d_hi_lo p _ _ (by show 4 ≤ 4 + k.val; omega) hj, zero_mul]
  · refine Finset.sum_congr rfl (fun k _ => ?_)
    rw [w1d_lo_lo p _ _ (by show k.val < 4; exact k.isLt) hj, stack_lo xa xb _ (by show k.val < 4; exact k.isLt)]
    rfl

/-- The first product at a hidden lane of the second block sees only the second row of the pair. -/
theorem inner_hi (xa xb : Fin 4 → EReal) (j' : Fin 112) (hj : 56 ≤ j'.val) :
    (∑ k' : Fin 8, w1d p k' j' * stack xa xb k') = ∑ k : Fin 4, w1 p k ⟨j'.val - 56, by omega⟩ * xb k := by
  refine (sum_hi 4 4 _ ?_).trans ?_
  · intro k
    rw [w1d_lo_hi p _ _ (by show k.val < 4; exact k.isLt) hj, zero_mul]
  · refine Finset.sum_congr rfl (fun k _ => ?_)
    rw [w1d_hi_hi p _ _ (by show 4 ≤ 4 + k.val; omega) hj, stack_hi xa xb _ (by show 4 ≤ 4 + k.val; omega)]
    have e : (⟨(Fin.natAdd 4 k).val - 4, by show 4 + k.val - 4 < 4; omega⟩ : Fin 4) = k :=
      Fin.ext (by show 4 + k.val - 4 = k.val; omega)
    rw [e]

/-- Output lanes `0..7` of a pair are the perceptron of its first row. -/
theorem pairOut_lo' (xa xb : Fin 4 → EReal) (o : Fin 8) :
    pairOut (w1d p) (w2d p) (b1d p) xa xb ⟨o.val, by omega⟩ = core p xa o := by
  unfold pairOut core
  refine (sum_lo 56 56 _ ?_).trans ?_
  · intro j
    rw [w2d_hi_lo p _ _ (by show 56 ≤ 56 + j.val; omega) o.isLt, zero_mul]
  · refine Finset.sum_congr rfl (fun j _ => ?_)
    have hj : (Fin.castAdd 56 j).val < 56 := j.isLt
    rw [w2d_lo_lo p _ _ hj o.isLt, inner_lo p xa xb _ hj, b1d_lo p _ hj]
    rfl

/-- Output lanes `8..15` of a pair are the perceptron of its second row. -/
theorem pairOut_hi' (xa xb : Fin 4 → EReal) (o : Fin 8) :
    pairOut (w1d p) (w2d p) (b1d p) xa xb ⟨8 + o.val, by omega⟩ = core p xb o := by
  unfold pairOut core
  refine (sum_hi 56 56 _ ?_).trans ?_
  · intro j
    rw [w2d_lo_hi p _ _ (by show j.val < 56; exact j.isLt) (by show 8 ≤ 8 + o.val; omega), zero_mul]
  · refine Finset.sum_congr rfl (fun j _ => ?_)
    have hj : 56 ≤ (Fin.natAdd 56 j).val := by show 56 ≤ 56 + j.val; omega
    rw [w2d_hi_hi p _ _ hj (by show 8 ≤ 8 + o.val; omega), inner_hi p xa xb _ hj, b1d_hi p _ hj]
    have ej : (⟨(Fin.natAdd 56 j).val - 56, by show 56 + j.val - 56 < 56; omega⟩ : Fin 56) = j :=
      Fin.ext (by show 56 + j.val - 56 = j.val; omega)
    have eo : (⟨(⟨8 + o.val, by omega⟩ : Fin 16).val - 8, by show 8 + o.val - 8 < 8; omega⟩ : Fin 8) = o :=
      Fin.ext (by show 8 + o.val - 8 = o.val; omega)
    rw [ej, eo]

/-! ### The one-row perceptron against the reference -/

/-- The reference's padded features contribute nothing: a hidden lane is a sum over the 4 real features. -/
theorem hid_eq (xr : Fin 4 → EReal) (j : Fin 128) :
    hid p xr j = max ((∑ k : Fin 4, xr k * ent p k.val j.val (by omega) j.isLt) + ent p 8 j.val (by omega) j.isLt) 0 := by
  unfold hid
  congr 2
  refine (sum_lo 4 4 _ ?_).trans ?_
  · intro k
    have h0 : pad8 xr (Fin.natAdd 4 k) = 0 := by
      unfold pad8; rw [dif_neg (by show ¬ (4 + k.val < 4); omega)]
    rw [h0, zero_mul]
  · refine Finset.sum_congr rfl (fun k _ => ?_)
    have h1 : pad8 xr (Fin.castAdd 4 k) = xr k := by
      unfold pad8; rw [dif_pos (by show k.val < 4; exact k.isLt)]; rfl
    rw [h1]
    rfl

section contract

variable (hz : ∀ (r : Fin 152) (c : Fin 128), r.val < 9 → 50 ≤ c.val → p (ix2 r c) = 0)
include hz

/-- The contract, read through `ent`. -/
theorem ent_zero (r c : Nat) (hr : r < 152) (hc : c < 128) (hr9 : r < 9) (hc50 : 50 ≤ c) : ent p r c hr hc = 0 :=
  hz ⟨r, hr⟩ ⟨c, hc⟩ hr9 hc50

/-- A padded hidden lane of the reference is `max (0 + 0) 0 = 0`. -/
theorem hid_zero (xr : Fin 4 → EReal) (j : Fin 128) (hj : 50 ≤ j.val) : hid p xr j = 0 := by
  rw [hid_eq, ent_zero p hz 8 j.val _ _ (by omega) hj]
  have : (∑ k : Fin 4, xr k * ent p k.val j.val (by omega) j.isLt) = 0 :=
    Finset.sum_eq_zero (fun k _ => by rw [ent_zero p hz k.val j.val _ _ (by omega) hj, mul_zero])
  rw [this, add_zero, max_self]

/-- The first product of the kernel vanishes at the padded hidden lanes. -/
theorem w1_sum_zero (xr : Fin 4 → EReal) (j : Fin 56) (hj : 50 ≤ j.val) : (∑ k : Fin 4, w1 p k j * xr k) = 0 :=
  Finset.sum_eq_zero (fun k _ => by unfold w1; rw [ent_zero p hz k.val j.val _ _ (by omega) hj, zero_mul])

/-- Lane 50 of the kernel is constantly one and carries the second layer's bias. -/
theorem core_term_eq (xr : Fin 4 → EReal) (o : Fin 8) (j : Fin 56) (hj : j.val = 50) :
    w2' p j o * max ((∑ k : Fin 4, w1 p k j * xr k) + b1' p j) 0 = ent p 144 o.val (by omega) (by omega) := by
  rw [w1_sum_zero p hz xr j (by omega)]
  unfold w2' b1'
  rw [if_pos hj, if_pos hj, zero_add, max_eq_left (zero_le_one), mul_one]

/-- Lanes 51..55 of the kernel are `max (0 + 0) 0 = 0`. -/
theorem core_term_gt (xr : Fin 4 → EReal) (o : Fin 8) (j : Fin 56) (hj : 50 < j.val) :
    w2' p j o * max ((∑ k : Fin 4, w1 p k j * xr k) + b1' p j) 0 = 0 := by
  rw [w1_sum_zero p hz xr j (by omega)]
  unfold b1'
  rw [if_neg (by omega), ent_zero p hz 8 j.val _ _ (by omega) (by omega), add_zero, max_self, mul_zero]

omit hz in
/-- Lanes 0..49 of the kernel are the reference's, the factors in the other order. -/
theorem core_term_lt (xr : Fin 4 → EReal) (o : Fin 8) (j : Fin 56) (hj : j.val < 50) :
    w2' p j o * max ((∑ k : Fin 4, w1 p k j * xr k) + b1' p j) 0
      = hid p xr ⟨j.val, by omega⟩ * ent p (16 + j.val) o.val (by omega) (by omega) := by
  rw [hid_eq]
  unfold w2' b1' w1
  rw [if_neg (by omega), if_neg (by omega), mul_comm]
  congr 3
  exact Finset.sum_congr rfl (fun k _ => mul_comm _ _)

/-- Under the contract the kernel's one-row perceptron is the reference's. -/
theorem core_eq_mlp (xr : Fin 4 → EReal) (o : Fin 3) : core p xr ⟨o.val, by omega⟩ = mlp p xr o := by
  unfold core mlp
  rw [Fin.sum_univ_add (a := 50) (b := 6), Fin.sum_univ_succ (n := 5)]
  rw [Finset.sum_eq_zero (s := (Finset.univ : Finset (Fin 5)))
      (fun i _ => core_term_gt p hz xr _ (Fin.natAdd 50 i.succ) (by show 50 < 50 + (i.val + 1); omega)),
    add_zero, core_term_eq p hz xr _ (Fin.natAdd 50 (0 : Fin 6)) rfl]
  congr 1
  refine ((sum_lo 50 78 _ ?_).trans ?_).symm
  · intro j
    rw [hid_zero p hz xr _ (by show 50 ≤ 50 + j.val; omega), zero_mul]
  · refine Finset.sum_congr rfl (fun j _ => ?_)
    rw [core_term_lt p xr _ (Fin.castAdd 6 j) j.isLt]
    rfl

end contract

/-- Output lanes `0..2` of a pair are the reference's perceptron of its first row. -/
theorem pairOut_lo (hz : ∀ (r : Fin 152) (c : Fin 128), r.val < 9 → 50 ≤ c.val → p (ix2 r c) = 0)
    (xa xb : Fin 4 → EReal) (o : Fin 3) :
    pairOut (w1d p) (w2d p) (b1d p) xa xb ⟨o.val, by omega⟩ = mlp p xa o :=
  (pairOut_lo' p xa xb ⟨o.val, by omega⟩).trans (core_eq_mlp p hz xa o)

/-- Output lanes `8..10` of a pair are the reference's perceptron of its second row. -/
theorem pairOut_hi (hz : ∀ (r : Fin 152) (c : Fin 128), r.val < 9 → 50 ≤ c.val → p (ix2 r c) = 0)
    (xa xb : Fin 4 → EReal) (o : Fin 3) :
    pairOut (w1d p) (w2d p) (b1d p) xa xb ⟨8 + o.val, by omega⟩ = mlp p xb o :=
  (pairOut_hi' p xa xb ⟨o.val, by omega⟩).trans (core_eq_mlp p hz xb o)

/-! ### The row bookkeeping and the joined statement -/

/-- A row in the first half of its block is the first row of its pair. -/
theorem rowA_of_lo (R : Fin 2097152) (h : R.val % 131072 < 65536) : rowA R = R :=
  Fin.ext (by show (R.val / 131072) * 131072 + R.val % 65536 = R.val; omega)

/-- A row in the second half of its block is the second row of its pair. -/
theorem rowB_of_hi (R : Fin 2097152) (h : 65536 ≤ R.val % 131072) : rowB R = R :=
  Fin.ext (by show (R.val / 131072) * 131072 + 65536 + R.val % 65536 = R.val; omega)

theorem half_of_lo (R : Fin 2097152) (h : R.val % 131072 < 65536) : (half R).val = 0 := by
  show (R.val % 131072) / 65536 = 0; omega

theorem half_of_hi (R : Fin 2097152) (h : 65536 ≤ R.val % 131072) : (half R).val = 1 := by
  show (R.val % 131072) / 65536 = 1; omega

/-- Under the reference's contract that rows `0..8` of the slab vanish in columns `50..127`, the kernel's
    block-diagonal spelling and the reference's are the same array.  (The finiteness hypotheses are part of the
    statement's precondition; over the extended reals `0 * a = 0` holds for every `a`, so the algebra does not
    call on them.) -/
theorem kerOut_eq_refOut (x : Cert.Spec.SX.Idx → EReal) (p : Cert.Spec.SP.Idx → EReal)
    (hx : ∀ i, ∃ r : ℝ, x i = (r : EReal)) (hp : ∀ i, ∃ r : ℝ, p i = (r : EReal))
    (hz : ∀ (r : Fin 152) (c : Fin 128), r.val < 9 → 50 ≤ c.val → p (ix2 r c) = 0) :
    Cert.Spec.kerOut x p = Cert.Spec.refOut x p := by
  funext i
  unfold kerOut refOut
  have ho : (i 1).val < 3 := idx2_lt1 i
  rcases Nat.lt_or_ge ((i 0).val % 131072) 65536 with h | h
  · have hidx : (⟨8 * (half (i 0)).val + (i 1).val, by have h1 := (half (i 0)).isLt; omega⟩ : Fin 16)
        = ⟨(i 1).val, by omega⟩ := Fin.ext (by show 8 * (half (i 0)).val + (i 1).val = (i 1).val; rw [half_of_lo _ h]; omega)
    rw [hidx, rowA_of_lo _ h]
    exact pairOut_lo p hz _ _ (i 1)
  · have hidx : (⟨8 * (half (i 0)).val + (i 1).val, by have h1 := (half (i 0)).isLt; omega⟩ : Fin 16)
        = ⟨8 + (i 1).val, by omega⟩ := Fin.ext (by show 8 * (half (i 0)).val + (i 1).val = 8 + (i 1).val; rw [half_of_hi _ h])
    rw [hidx, rowB_of_hi _ h]
    exact pairOut_hi p hz _ _ (i 1)

end Cert.Spec

end
-- ==== Proof.PreDecode.lean ====
/-
  The precondition decoded.  The predicate is the conjunction of three statements over all entries: every entry of `x` has
  absolute value below `+∞`, every entry of the slab `p` likewise, and every entry of the slice of `p` at rows
  `0..8`, columns `50..127` equals zero.  Over the extended reals `max a (-a) < ⊤` leaves exactly the reals
  (at `⊥` and at `⊤` the maximum is `⊤`), and the slice at `(r, c - 50)` is the slab at `(r, c)`.
-/
import proofs.«130756_g2000304380712430_pallasbulk_699_25_alg».proof.Pre_finite_inputs
import proofs.«130756_g2000304380712430_pallasbulk_699_25_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.PreDecode

open Idealize.ShloMosaic Idealize.ShloMosaic.ValueIdx
open Cert.Pre_finite_inputs

/-- The rank-0 index set has one element. -/
instance : Subsingleton S_.Idx := ⟨fun a b => funext fun d => d.elim0⟩

/-- The word `0x7F800000` denotes `+∞`. -/
theorem ofBits_inf_f32 : Ideal.ofBits .f32 0x7F800000#32 = ⊤ := by simp [Ideal.ofBits, Ideal.ieee]

/-- An extended real whose absolute value is below `+∞` is a real. -/
theorem real_of_abs_lt (a : EReal) (h : Ideal.cmp .olt (max a (-a)) (Ideal.ofBits .f32 0x7F800000#32) = 1#1) :
    ∃ r : ℝ, a = (r : EReal) := by
  rw [ofBits_inf_f32] at h
  induction a using EReal.rec with
  | bot => simp [Ideal.cmp] at h
  | coe r => exact ⟨r, rfl⟩
  | top => simp [Ideal.cmp] at h

/-- An extended real that compares equal to the zero word is zero. -/
theorem zero_of_oeq (a : EReal) (h : Ideal.cmp .oeq a (Ideal.ofBits .f32 0x00000000#32) = 1#1) : a = 0 := by
  rw [Ideal.ofBits_zero_f32] at h
  by_contra hne
  simp [Ideal.cmp, hne] at h

theorem pre_facts [Cert.Pre_finite_inputs.Facts] (x : Cert.Pre_finite_inputs.S2097152x4.Idx → EReal)
    (p : Cert.Pre_finite_inputs.S152x128.Idx → EReal)
    (h : Cert.Pre_finite_inputs.fn (F := Ideal) x p = (fun _ => 1#1)) :
    (∀ i, ∃ r : ℝ, x i = (r : EReal)) ∧ (∀ i, ∃ r : ℝ, p i = (r : EReal)) ∧
      (∀ (r : Fin 152) (c : Fin 128), r.val < 9 → 50 ≤ c.val → p (ix2 r c) = 0) := by
  have e := congrFun h ValueIdx.ix0
  dsimp only [Cert.Pre_finite_inputs.fn] at e
  obtain ⟨e12, e3⟩ := IntOp.andi_eq_one.1 e
  obtain ⟨e1, e2⟩ := IntOp.andi_eq_one.1 e12
  refine ⟨fun i => ?_, fun i => ?_, fun r c hr hc => ?_⟩
  · exact real_of_abs_lt (x i) (Host.reduce_andi_all _ _ _ _ _ e1 i)
  · exact real_of_abs_lt (p i) (Host.reduce_andi_all _ _ _ _ _ e2 i)
  · have hj := Host.reduce_andi_all _ _ _ _ _ e3 (ix2 (⟨r.val, hr⟩ : Fin 9) (⟨c.val - 50, by omega⟩ : Fin 78))
    have hs : extractStridedSlice S9x78 ![0, 50] p Facts.slices_S152x128_S9x78_0_50
        (ix2 (⟨r.val, hr⟩ : Fin 9) (⟨c.val - 50, by omega⟩ : Fin 78)) = p (ix2 r c) :=
      extractStridedSlice_apply _ _ _ _ _ (fun a => by
        fin_cases a
        · show r.val = 0 + r.val; omega
        · show c.val = 50 + (c.val - 50); omega)
    refine zero_of_oeq _ ?_
    rw [← hs]
    exact hj

end Cert.PreDecode

end
-- ==== Proof.RefValuePad.lean ====
/-
  The reference pads its rows from 4 to 8 features by writing the whole array x into the first four columns of
  an array of zeros: a scatter whose single start index is 0 on the feature axis and whose window is the update's
  own coordinates. Update index (r, k) therefore lands on result index (r, k), no two updates land on one index,
  and nothing lands on a column k ≥ 4. Read at an index (r, k) the result is x (r, k) when k < 4 and the operand's
  element otherwise.
-/
import proofs.«130756_g2000304380712430_pallasbulk_699_25_alg».proof.Proof.Gen.ReferenceIdeal
import proofs.«130756_g2000304380712430_pallasbulk_699_25_alg».proof.Proof.LibScatterSet
import Idealize.ShloMosaic.Lib.ValueIdx

noncomputable section

namespace Cert.ReferenceIdeal.RefValue

open Idealize.ShloMosaic Idealize.ShloMosaic.ValueIdx Cert.ReferenceIdeal Cert.ReferenceIdeal.Gen

/-- Where update index `(r, k)` lands when every start index reads as the integer 0: at its own coordinates. -/
theorem pad_resultIdx {w : Nat} (iv : IVec S1 w) (hiv : ∀ q, (iv q).toInt = 0) (r : Fin 2097152) (k : Fin 4) :
    scatter_S2097152x8_S1_S2097152x4_01_n_1_0.resultIdx? (ix2 r k : S2097152x4.Idx) iv
      = some (ix2 r ⟨k.val, by omega⟩ : S2097152x8.Idx) := by
  have hs : ∀ a, scatter_S2097152x8_S1_S2097152x4_01_n_1_0.start (ix2 r k : S2097152x4.Idx) iv a = 0 := by
    intro a
    unfold ScatterDims.start
    split
    · exact hiv _
    · rfl
  have hw0 : scatter_S2097152x8_S1_S2097152x4_01_n_1_0.window (ix2 r k : S2097152x4.Idx) (0 : Fin 2) = r.val := rfl
  have hw1 : scatter_S2097152x8_S1_S2097152x4_01_n_1_0.window (ix2 r k : S2097152x4.Idx) (1 : Fin 2) = k.val := rfl
  have hw : ∀ a : Fin 2, (scatter_S2097152x8_S1_S2097152x4_01_n_1_0.window (ix2 r k : S2097152x4.Idx) a : Int)
      = (((ix2 r ⟨k.val, by omega⟩ : S2097152x8.Idx) a).val : Int) := by
    intro a
    match a with
    | ⟨0, _⟩ => exact congrArg Nat.cast hw0
    | ⟨1, _⟩ => exact congrArg Nat.cast hw1
  unfold ScatterDims.resultIdx?
  have hcond : ∀ a : Fin S2097152x8.rank, 0 ≤ scatter_S2097152x8_S1_S2097152x4_01_n_1_0.start (ix2 r k : S2097152x4.Idx) iv a + scatter_S2097152x8_S1_S2097152x4_01_n_1_0.window (ix2 r k : S2097152x4.Idx) a
      ∧ scatter_S2097152x8_S1_S2097152x4_01_n_1_0.start (ix2 r k : S2097152x4.Idx) iv a + scatter_S2097152x8_S1_S2097152x4_01_n_1_0.window (ix2 r k : S2097152x4.Idx) a < S2097152x8.size a := by
    intro a
    rw [hs a, hw a]
    have hlt : ((ix2 r ⟨k.val, by omega⟩ : S2097152x8.Idx) a).val < S2097152x8.size a := ((ix2 r ⟨k.val, by omega⟩ : S2097152x8.Idx) a).isLt
    omega
  rw [dif_pos hcond]
  refine congrArg some (funext fun a => Fin.ext ?_)
  show (scatter_S2097152x8_S1_S2097152x4_01_n_1_0.start (ix2 r k : S2097152x4.Idx) iv a + scatter_S2097152x8_S1_S2097152x4_01_n_1_0.window (ix2 r k : S2097152x4.Idx) a).toNat = _
  rw [hs a, hw a]
  omega

/-- The padding scatter read at `(r, k)`: the update's element in the first four columns, the operand's in the
    last four. -/
theorem scatter_pad {α : Type} {w : Nat} (z : S2097152x8.Idx → α) (iv : IVec S1 w) (hiv : ∀ q, (iv q).toInt = 0)
    (x : S2097152x4.Idx → α) (r : Fin 2097152) (k : Fin 8) :
    Host.scatter scatter_S2097152x8_S1_S2097152x4_01_n_1_0 (fun _ b => b) z iv x (ix2 r k : S2097152x8.Idx)
      = if h : k.val < 4 then x (ix2 r ⟨k.val, h⟩ : S2097152x4.Idx) else z (ix2 r k : S2097152x8.Idx) := by
  by_cases h : k.val < 4
  · rw [dif_pos h]
    refine Host.scatter_set_of_unique _ z iv x _ (ix2 r ⟨k.val, h⟩ : S2097152x4.Idx) ?_ ?_
    · exact pad_resultIdx iv hiv r ⟨k.val, h⟩
    · intro j' hj'
      obtain ⟨r', k', rfl⟩ : ∃ (r' : Fin 2097152) (k' : Fin 4), j' = ix2 r' k' := ⟨j' 0, j' 1, eq_ix2 j'⟩
      rw [pad_resultIdx iv hiv r' k'] at hj'
      have e := Option.some.inj hj'
      have e0 : r' = r := congrFun e 0
      have e1 : (⟨k'.val, by omega⟩ : Fin 8) = k := congrFun e 1
      have hk : k'.val = k.val := congrArg Fin.val e1
      have e1' : k' = ⟨k.val, h⟩ := Fin.ext hk
      rw [e0, e1']
  · rw [dif_neg h]
    refine Host.scatter_set_of_none _ z iv x _ ?_
    intro j' hj'
    obtain ⟨r', k', rfl⟩ : ∃ (r' : Fin 2097152) (k' : Fin 4), j' = ix2 r' k' := ⟨j' 0, j' 1, eq_ix2 j'⟩
    rw [pad_resultIdx iv hiv r' k'] at hj'
    have e := Option.some.inj hj'
    have e1 : (⟨k'.val, by omega⟩ : Fin 8) = k := congrFun e 1
    have hk : k'.val = k.val := congrArg Fin.val e1
    omega

end Cert.ReferenceIdeal.RefValue

end
-- ==== Proof.RefValuePayload.lean ====
/-
  The reference body's arithmetic at one element. For a block of 512 padded rows `v4`, first-layer weights `v0`
  (8 × 128) and bias row `v1`, second-layer weights `v2` (128 × 128) and bias row `v3`, the stored value at
  (y, o) is  Σ_j max (Σ_k v4 (y, k) · v0 (k, j) + v1 (0, j)) 0 · v2 (j, o) + v3 (0, o).
-/
import proofs.«130756_g2000304380712430_pallasbulk_699_25_alg».proof.Proof.Gen.ReferenceIdeal.Skeleton
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen

/-- The first product at (y, j): the sum over the 8 padded features. -/
theorem matmul1_apply (a : FVec Ideal S512x8 .f32) (b : FVec Ideal S8x128 .f32) (y : Fin 512) (j : Fin 128) :
    matmul dot_S512x8_S8x128_S512x128_1_0_0_1_n_n none a b (constant (F := Ideal) S512x128 .f32 0x00000000#32) (ix2 y j : S512x128.Idx)
      = ∑ k : Fin 8, a (ix2 y k : S512x8.Idx) * b (ix2 k j : S8x128.Idx) := by
  show FloatOps.matmul _ none a b (constant (F := Ideal) S512x128 .f32 0x00000000#32) (ix2 y j) = _
  rw [Ideal.matmul_constant_zero_apply,
    ← Equiv.sum_comp (contrEquiv1 dot_S512x8_S8x128_S512x128_1_0_0_1_n_n 8 rfl rfl).symm]
  refine Finset.sum_congr rfl fun c _ => ?_
  have c2 := contrEquiv1_symm_val dot_S512x8_S8x128_S512x128_1_0_0_1_n_n 8 rfl rfl c
  have l2 : dot_S512x8_S8x128_S512x128_1_0_0_1_n_n.lhsIdx (ix2 y j : S512x128.Idx) ((contrEquiv1 _ 8 rfl rfl).symm c) = (ix2 y c : S512x8.Idx) := by
    funext ax; apply Fin.ext
    match ax with
    | ⟨0, _⟩ => simp [DotDims.lhsIdx, dot_S512x8_S8x128_S512x128_1_0_0_1_n_n]; rfl
    | ⟨1, _⟩ => simp [DotDims.lhsIdx, dot_S512x8_S8x128_S512x128_1_0_0_1_n_n]; exact c2
  have r2 : dot_S512x8_S8x128_S512x128_1_0_0_1_n_n.rhsIdx (ix2 y j : S512x128.Idx) ((contrEquiv1 _ 8 rfl rfl).symm c) = (ix2 c j : S8x128.Idx) := by
    funext ax; apply Fin.ext
    match ax with
    | ⟨0, _⟩ => simp [DotDims.rhsIdx, dot_S512x8_S8x128_S512x128_1_0_0_1_n_n]; exact c2
    | ⟨1, _⟩ => simp [DotDims.rhsIdx, dot_S512x8_S8x128_S512x128_1_0_0_1_n_n]; rfl
  rw [l2, r2]

/-- The second product at (y, o): the sum over the 128 hidden lanes. -/
theorem matmul2_apply (a : FVec Ideal S512x128 .f32) (b : FVec Ideal S128x128 .f32) (y : Fin 512) (j : Fin 128) :
    matmul dot_S512x128_S128x128_S512x128_1_0_0_1_n_n none a b (constant (F := Ideal) S512x128 .f32 0x00000000#32) (ix2 y j : S512x128.Idx)
      = ∑ k : Fin 128, a (ix2 y k : S512x128.Idx) * b (ix2 k j : S128x128.Idx) := by
  show FloatOps.matmul _ none a b (constant (F := Ideal) S512x128 .f32 0x00000000#32) (ix2 y j) = _
  rw [Ideal.matmul_constant_zero_apply,
    ← Equiv.sum_comp (contrEquiv1 dot_S512x128_S128x128_S512x128_1_0_0_1_n_n 128 rfl rfl).symm]
  refine Finset.sum_congr rfl fun c _ => ?_
  have c2 := contrEquiv1_symm_val dot_S512x128_S128x128_S512x128_1_0_0_1_n_n 128 rfl rfl c
  have l2 : dot_S512x128_S128x128_S512x128_1_0_0_1_n_n.lhsIdx (ix2 y j : S512x128.Idx) ((contrEquiv1 _ 128 rfl rfl).symm c) = (ix2 y c : S512x128.Idx) := by
    funext ax; apply Fin.ext
    match ax with
    | ⟨0, _⟩ => simp [DotDims.lhsIdx, dot_S512x128_S128x128_S512x128_1_0_0_1_n_n]; rfl
    | ⟨1, _⟩ => simp [DotDims.lhsIdx, dot_S512x128_S128x128_S512x128_1_0_0_1_n_n]; exact c2
  have r2 : dot_S512x128_S128x128_S512x128_1_0_0_1_n_n.rhsIdx (ix2 y j : S512x128.Idx) ((contrEquiv1 _ 128 rfl rfl).symm c) = (ix2 c j : S128x128.Idx) := by
    funext ax; apply Fin.ext
    match ax with
    | ⟨0, _⟩ => simp [DotDims.rhsIdx, dot_S512x128_S128x128_S512x128_1_0_0_1_n_n]; exact c2
    | ⟨1, _⟩ => simp [DotDims.rhsIdx, dot_S512x128_S128x128_S512x128_1_0_0_1_n_n]; rfl
  rw [l2, r2]

/-- A bias row broadcast over the 512 rows of the block reads the row's lane. -/
theorem biasRow_apply {α : Type} (v : S1x128.Idx → α) (y : Fin 512) (j : Fin 128) :
    broadcastTo S512x128 v broadcasts_S1x128_S512x128 (ix2 y j : S512x128.Idx) = v (ix2 (0 : Fin 1) j : S1x128.Idx) := by
  refine broadcastTo_apply v broadcasts_S1x128_S512x128 (ix2 y j : S512x128.Idx) (ix2 (0 : Fin 1) j : S1x128.Idx) fun a => ?_
  match a with
  | ⟨0, _⟩ => rfl
  | ⟨1, _⟩ => rfl

/-- The body's stored value at (y, o). -/
theorem pay_apply (v0 : Vec Ideal S8x128 .f32) (v1 : Vec Ideal S1x128 .f32) (v2 : Vec Ideal S128x128 .f32)
    (v3 : Vec Ideal S1x128 .f32) (v4 : Vec Ideal S512x8 .f32) (y : Fin 512) (o : Fin 128) :
    k0_pay1 (F := Ideal) v0 v1 v2 v3 v4 (ix2 y o : S512x128.Idx)
      = (∑ j : Fin 128, max ((∑ k : Fin 8, v4 (ix2 y k : S512x8.Idx) * v0 (ix2 k j : S8x128.Idx)) + v1 (ix2 (0 : Fin 1) j : S1x128.Idx)) 0
            * v2 (ix2 j o : S128x128.Idx))
          + v3 (ix2 (0 : Fin 1) o : S1x128.Idx) := by
  unfold k0_pay1
  refine (addf_apply _ _ _).trans ?_
  refine congrArg₂ (· + ·) ?_ (biasRow_apply v3 y o)
  refine (matmul2_apply _ v2 y o).trans ?_
  refine Finset.sum_congr rfl fun j _ => congrArg (· * v2 (ix2 j o : S128x128.Idx)) ?_
  refine (maximumf_apply _ _ _).trans ?_
  refine congrArg₂ max ?_ Ideal.ofBits_zero_f32
  refine (addf_apply _ _ _).trans ?_
  refine congrArg₂ (· + ·) ?_ (biasRow_apply v1 y j)
  refine (congrArg (fun a => matmul dot_S512x8_S8x128_S512x128_1_0_0_1_n_n none a v0 (constant (F := Ideal) S512x128 .f32 0x00000000#32) (ix2 y j : S512x128.Idx))
    (shapeCast_self v4 shapeCasts_S512x8_S512x8)).trans ?_
  exact matmul1_apply v4 v0 y j

end Cert.ReferenceIdeal.RefValue

end
-- ==== Proof.RefValueBlocks.lean ====
/-
  From the reference's blocks to its result array. Grid point t of 4096 computes rows 512·t … 512·t + 511 of one
  whole-array function: output row R at lane o is the two-layer perceptron of the padded row R, with the weights
  and biases read from the slab's rows 0..7, 8, 16..143 and 144. Every row lies in exactly the block of point
  R / 512, so after the run the 2097152 × 128 array is that function; the result is its first three lanes, and
  the padded row is x's row followed by four zeros.
-/
import proofs.«130756_g2000304380712430_pallasbulk_699_25_alg».proof.Proof.Gen.ReferenceIdeal.Frame
import proofs.«130756_g2000304380712430_pallasbulk_699_25_alg».proof.Proof.RefValuePad
import proofs.«130756_g2000304380712430_pallasbulk_699_25_alg».proof.Proof.RefValuePayload
import proofs.«130756_g2000304380712430_pallasbulk_699_25_alg».proof.Proof.Spec
import Idealize.ShloMosaic.Lib.Pipeline.Value
import Idealize.ShloMosaic.Lib.Tactic

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

theorem hz2 : (![0, 0] : Fin 2 → Nat) = fun _ => 0 := funext fun a => by fin_cases a <;> rfl

/-- The perceptron of padded row `R` at lane `o`, over the padded array `xp` and the slab `p`. -/
def wide (xp : S2097152x8.Idx → EReal) (p : S152x128.Idx → EReal) : S2097152x128.Idx → EReal := fun i =>
  (∑ j : Fin 128, max ((∑ k : Fin 8, xp (ix2 (i 0) k) * p (ix2 (⟨k.val, by omega⟩ : Fin 152) j))
        + p (ix2 (⟨8, by omega⟩ : Fin 152) j)) 0 * p (ix2 (⟨16 + j.val, by omega⟩ : Fin 152) (i 1)))
    + p (ix2 (⟨144, by omega⟩ : Fin 152) (i 1))

/-- A load of rows 0..7 of the slab (the first layer's weights) reads the slab there. -/
theorem ld_r0_0 (x1 : Vec Ideal S152x128 .f32) (a : Fin 8) (b : Fin 128) :
    View.ld x1 r0_0 (ix2 a b : S8x128.Idx) = x1 (ix2 (⟨a.val, by omega⟩ : Fin 152) b : S152x128.Idx) := by
  refine congrArg x1 (funext fun ax => Fin.ext ?_)
  match ax with
  | ⟨0, _⟩ => show 0 + 1 * a.val = a.val; omega
  | ⟨1, _⟩ => show 0 + 1 * b.val = b.val; omega

/-- A load of row 8 (the first layer's bias). -/
theorem ld_r0_1 (x1 : Vec Ideal S152x128 .f32) (a : Fin 1) (b : Fin 128) :
    View.ld x1 r0_1 (ix2 a b : S1x128.Idx) = x1 (ix2 (⟨8, by omega⟩ : Fin 152) b : S152x128.Idx) := by
  refine congrArg x1 (funext fun ax => Fin.ext ?_)
  match ax with
  | ⟨0, _⟩ => show 8 + 1 * a.val = 8; omega
  | ⟨1, _⟩ => show 0 + 1 * b.val = b.val; omega

/-- A load of rows 16..143 (the second layer's weights). -/
theorem ld_r0_2 (x1 : Vec Ideal S152x128 .f32) (a : Fin 128) (b : Fin 128) :
    View.ld x1 r0_2 (ix2 a b : S128x128.Idx) = x1 (ix2 (⟨16 + a.val, by omega⟩ : Fin 152) b : S152x128.Idx) := by
  refine congrArg x1 (funext fun ax => Fin.ext ?_)
  match ax with
  | ⟨0, _⟩ => show 16 + 1 * a.val = 16 + a.val; omega
  | ⟨1, _⟩ => show 0 + 1 * b.val = b.val; omega

/-- A load of row 144 (the second layer's bias). -/
theorem ld_r0_3 (x1 : Vec Ideal S152x128 .f32) (a : Fin 1) (b : Fin 128) :
    View.ld x1 r0_3 (ix2 a b : S1x128.Idx) = x1 (ix2 (⟨144, by omega⟩ : Fin 152) b : S152x128.Idx) := by
  refine congrArg x1 (funext fun ax => Fin.ext ?_)
  match ax with
  | ⟨0, _⟩ => show 144 + 1 * a.val = 144; omega
  | ⟨1, _⟩ => show 0 + 1 * b.val = b.val; omega

/-- What the body leaves in the output's staging buffer, at (y, o), from the block of padded rows and the slab. -/
theorem out_apply (x0 : Vec Ideal S512x8 .f32) (x1 : Vec Ideal S152x128 .f32) (y : Fin 512) (o : Fin 128) :
    out0_2 x0 x1 (ix2 y o : S512x128.Idx)
      = (∑ j : Fin 128, max ((∑ k : Fin 8, x0 (ix2 y k : S512x8.Idx) * x1 (ix2 (⟨k.val, by omega⟩ : Fin 152) j : S152x128.Idx))
            + x1 (ix2 (⟨8, by omega⟩ : Fin 152) j : S152x128.Idx)) 0 * x1 (ix2 (⟨16 + j.val, by omega⟩ : Fin 152) o : S152x128.Idx))
        + x1 (ix2 (⟨144, by omega⟩ : Fin 152) o : S152x128.Idx) := by
  unfold out0_2
  rw [View.canon_unit_zero hz2]
  refine (pay_apply _ _ _ _ _ y o).trans ?_
  rw [View.ld_unit_zero (S := S512x8) hz2]
  refine congrArg₂ (· + ·) (Finset.sum_congr rfl fun j _ => ?_) (ld_r0_3 x1 0 o)
  exact congrArg₂ (· * ·) (congrArg₂ max (congrArg₂ (· + ·)
    (Finset.sum_congr rfl fun k _ => congrArg (x0 (ix2 y k : S512x8.Idx) * ·) (ld_r0_0 x1 k j)) (ld_r0_1 x1 0 j)) rfl) (ld_r0_2 x1 j o)

/-- The printed index maps over the grid: the padded array's and the output's windows sit at block `t` of rows, the
    slab's window is the whole slab. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 4096 := by
  have h : cfg0.N = 4096 := N_0
  have := t.isLt
  omega

/-- Any array of the padded array's shape read through window 0's block at point `t`: rows 512·t … 512·t + 511. -/
theorem blk0_read (t : Fin cfg0.N) (A : S2097152x8.Idx → EReal) (y : Fin 512) (k : Fin 8) :
    (((cfg0.win 0).blk t).view.read (Elt Ideal) A : S512x8.Idx → EReal) (ix2 y k : S512x8.Idx)
      = A (ix2 (⟨512 * t.val + y.val, by have := t_lt t; omega⟩ : Fin 2097152) k) := by
  obtain ⟨e0, e1, -⟩ := idx_facts t
  rw [View.read_apply]
  show A _ = A _
  refine congrArg A (funext fun a => Fin.ext ?_)
  match a with
  | ⟨0, _⟩ => show win0_0.index t (0 : Fin 2) * 512 + 1 * y.val = 512 * t.val + y.val; rw [e0]; omega
  | ⟨1, _⟩ => show win0_0.index t (1 : Fin 2) * 8 + 1 * k.val = k.val; rw [e1]; omega

/-- Any array of the slab's shape read through window 1's block: the whole array. -/
theorem blk1_read (t : Fin cfg0.N) (A : S152x128.Idx → EReal) (a : Fin 152) (b : Fin 128) :
    (((cfg0.win 1).blk t).view.read (Elt Ideal) A : S152x128.Idx → EReal) (ix2 a b : S152x128.Idx) = A (ix2 a b) := by
  obtain ⟨-, -, e2, e3, -⟩ := idx_facts t
  rw [View.read_apply]
  show A _ = A _
  refine congrArg A (funext fun ax => Fin.ext ?_)
  match ax with
  | ⟨0, _⟩ => show win0_1.index t (0 : Fin 2) * 152 + 1 * a.val = a.val; rw [e2]; omega
  | ⟨1, _⟩ => show win0_1.index t (1 : Fin 2) * 128 + 1 * b.val = b.val; rw [e3]; omega

/-- `wide` at an index given by its coordinates. -/
theorem wide_apply (xp : S2097152x8.Idx → EReal) (p : S152x128.Idx → EReal) (R : Fin 2097152) (o : Fin 128) :
    wide xp p (ix2 R o : S2097152x128.Idx)
      = (∑ j : Fin 128, max ((∑ k : Fin 8, xp (ix2 R k) * p (ix2 (⟨k.val, by omega⟩ : Fin 152) j))
            + p (ix2 (⟨8, by omega⟩ : Fin 152) j)) 0 * p (ix2 (⟨16 + j.val, by omega⟩ : Fin 152) o))
        + p (ix2 (⟨144, by omega⟩ : Fin 152) o) := rfl

/-- The padded array's block at point `t`, as the region finds the array. -/
theorem iblk0_apply (c : Dev nD) (t : Fin cfg0.N) (y : Fin 512) (k : Fin 8) :
    (iblk m c 0 t : Vec Ideal S512x8 .f32) (ix2 y k : S512x8.Idx)
      = (V m c main_v2 : S2097152x8.Idx → EReal) (ix2 (⟨512 * t.val + y.val, by have := t_lt t; omega⟩ : Fin 2097152) k) :=
  blk0_read t (V m c main_v2) y k

/-- The slab's block at every point, as the region finds the slab. -/
theorem iblk1_apply (c : Dev nD) (t : Fin cfg0.N) (a : Fin 152) (b : Fin 128) :
    (iblk m c 1 t : Vec Ideal S152x128 .f32) (ix2 a b : S152x128.Idx) = (V m c main_arg1 : S152x128.Idx → EReal) (ix2 a b) :=
  blk1_read t (V m c main_arg1) a b

/-- Contents `X` of the output's staging buffer that are rows 512·t … of a whole-array function `G` are written back
    as block `t` of `G`. -/
theorem cut2_eq (t : Fin cfg0.N) (X : S512x128.Idx → EReal) (G : S2097152x128.Idx → EReal)
    (h : ∀ (y : Fin 512) (o : Fin 128), X (ix2 y o) = G (ix2 (⟨512 * t.val + y.val, by have := t_lt t; omega⟩ : Fin 2097152) o)) :
    (cfg0.win 2).cut (grid0.coords t) X = ((cfg0.win 2).blk t).view.read (Elt Ideal) G := by
  obtain ⟨-, -, -, -, e4, e5⟩ := idx_facts t
  funext j
  obtain ⟨y, o, rfl⟩ : ∃ (y : Fin 512) (o : Fin 128), j = ix2 y o := ⟨j 0, j 1, eq_ix2 j⟩
  rw [View.read_apply]
  show X (ix2 y o) = G _
  rw [h y o]
  refine congrArg G (funext fun a => Fin.ext ?_)
  match a with
  | ⟨0, _⟩ => show 512 * t.val + y.val = win0_2.index t (0 : Fin 2) * 512 + 1 * y.val; rw [e4]; omega
  | ⟨1, _⟩ => show o.val = win0_2.index t (1 : Fin 2) * 128 + 1 * o.val; rw [e5]; omega

/-- WHAT POINT `t` WRITES BACK is block `t` of `wide` of the padded array and the slab as the region finds them. -/
theorem flushed_eq (c : Dev nD) (t : Fin cfg0.N) :
    (dats m 0 c).flushed 2 t = ((cfg0.win 2).blk t).view.read (Elt Ideal) (wide (V m c main_v2) (V m c main_arg1)) := by
  show (cfg0.win 2).cut (grid0.coords t) ((dats m 0 c).after 2 t) = _
  rw [after0_2]
  refine cut2_eq t _ _ fun y o => ?_
  refine (out_apply (iblk m c 0 t) (iblk m c 1 t) y o).trans ?_
  refine Eq.trans ?_ (wide_apply (V m c main_v2) (V m c main_arg1) _ o).symm
  refine congrArg₂ (· + ·) (Finset.sum_congr rfl fun j _ => ?_) (iblk1_apply m c t _ o)
  exact congrArg₂ (· * ·) (congrArg₂ max (congrArg₂ (· + ·)
    (Finset.sum_congr rfl fun k _ => congrArg₂ (· * ·) (iblk0_apply m c t y k) (iblk1_apply m c t _ j)) (iblk1_apply m c t _ j)) rfl)
    (iblk1_apply m c t _ o)

/-- An index of the output array is in point `t`'s block iff each coordinate is in the block's range on its axis. -/
theorem mem_blk (t : Fin cfg0.N) (i : S2097152x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v3).slice (win0_2.rect t)).set ↔ _
  rw [View.set_slice_whole, Rect.mem_set_unit]
  exact Iff.rfl

/-- Every index of the output array lies in the block of the point its row's quotient by 512 names. -/
theorem cover (i : S2097152x128.Idx) : ∃ t : Fin cfg0.N, (cfg0.win 2).flush t = true ∧ i ∈ ((cfg0.win 2).blk t).view.set := by
  have hi0 : (i 0).val < 2097152 := (i 0).isLt
  have hi1 : (i 1).val < 128 := (i 1).isLt
  have hN : cfg0.N = 4096 := N_0
  let t : Fin cfg0.N := ⟨(i 0).val / 512, by rw [hN]; omega⟩
  obtain ⟨-, -, -, -, e4, e5⟩ := idx_facts t
  have ht : t.val = (i 0).val / 512 := rfl
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 128 ≤ (i 1).val ∧ (i 1).val < win0_2.index t (1 : Fin 2) * 128 + 128; rw [e5]; omega

/-- THE ARRAY after the region: `wide` of the padded array and the slab. -/
theorem final (c : Dev nD) : (dats m 0 c).arrAt 2 cfg0.N = wide (V m c main_v2) (V m c main_arg1) :=
  (dats m 0 c).arrAt_eq_of_cover 2 (wide (V m c main_v2) (V m c main_arg1)) (fun t _ => flushed_eq m c t) cover

end Cert.ReferenceIdeal.RefValue

end
-- ==== Proof.RefValueRun.lean ====
/-
  The reference's run, read. The padded array the region finds is x's rows followed by four zeros; the region
  leaves the 2097152 × 128 array at the perceptron of every padded row; the last host line keeps its first three
  lanes. Together: the result is the specification's `refOut` of the two arguments, which end unchanged.
-/
import proofs.«130756_g2000304380712430_pallasbulk_699_25_alg».proof.Proof.RefValueBlocks

noncomputable section

open scoped BigOperators

namespace Cert.ReferenceIdeal.RefValue

open Idealize.ShloMosaic Idealize.ShloMosaic.TcCoe Idealize.SL.Sem Idealize.ShloMosaic.ValueIdx
open Idealize.ShloMosaic.Pipeline (Dat)
open Cert.ReferenceIdeal Cert.ReferenceIdeal.Gen

variable (m : (ℓ : Loc nD τ sig) → Buf (Elt Ideal) ℓ) (ρ : Dev nD → PrngReg)

/-- The padded array as the region finds it: the host's scatter of x into the zero array. -/
theorem entry_eq (c : Dev nD) :
    (V m c main_v2 : S2097152x8.Idx → EReal)
      = Host.scatter scatter_S2097152x8_S1_S2097152x4_01_n_1_0 (fun _ b => b)
          (broadcastInDim S2097152x8 ![] bcast_S_S2097152x8 (constant (F := Ideal) S_ .f32 0x00000000#32))
          (broadcastInDim S1 ![] bcast_S_S1 (constantI S_ 32 0#32))
          (m ((c : Thread nD τ).loc main_arg0)) := by
  show StableHlo.after hostOps0 (fun b => m (c, b)) (Proc.devRef .tc main_v2) = _
  after_results

/-- The padded array at (r, k): x (r, k) in the first four columns, zero in the last four. -/
theorem entry_apply (c : Dev nD) (r : Fin 2097152) (k : Fin 8) :
    (V m c main_v2 : S2097152x8.Idx → EReal) (ix2 r k)
      = (if h : k.val < 4 then (m ((c : Thread nD τ).loc main_arg0) : S2097152x4.Idx → EReal) (ix2 r ⟨k.val, h⟩) else 0 : EReal) := by
  rw [entry_eq m c]
  refine (scatter_pad _ _ (fun q => rfl) _ r k).trans ?_
  by_cases h : k.val < 4
  · rw [dif_pos h, dif_pos h]
  · rw [dif_neg h, dif_neg h]
    exact Ideal.ofBits_zero_f32

/-- Over a padded array of that form, the first three lanes of `wide` are the specification's result. -/
theorem wide_entry (x : S2097152x4.Idx → EReal) (p : S152x128.Idx → EReal) (xp : S2097152x8.Idx → EReal)
    (hxp : ∀ (r : Fin 2097152) (k : Fin 8), xp (ix2 r k) = if h : k.val < 4 then x (ix2 r ⟨k.val, h⟩) else 0)
    (R : Fin 2097152) (o : Fin 3) :
    wide xp p (ix2 R (⟨o.val, by omega⟩ : Fin 128) : S2097152x128.Idx) = Cert.Spec.refOut x p (ix2 R o : S2097152x3.Idx) := by
  rw [wide_apply]
  simp only [hxp]
  rfl

/-- The last host line's result: the first three lanes of the region's array. -/
theorem tail_eq (c : Dev nD) :
    Pipeline.afterTail₀ cfgs (dats m) 0 (V0 m) [hostOps1] c main_v4
      = extractStridedSlice S2097152x3 ![0, 0] ((dats m 0 c).arrAt 2 cfg0.N) slices_S2097152x128_S2097152x3_0_0 := by
  unfold Pipeline.afterTail₀
  show StableHlo.after hostOps1 _ (Proc.devRef .tc main_v4) = _
  after_results
  exact congrArg (fun A => extractStridedSlice S2097152x3 ![0, 0] A slices_S2097152x128_S2097152x3_0_0)
    (Pipeline.withArrays_arr spec0 launch0.win.arr_inj c _ _ 2)

/-- The result buffer after the run is the specification's result of the two arguments. -/
theorem result_eq (c : Dev nD) :
    (Pipeline.afterTail₀ cfgs (dats m) 0 (V0 m) [hostOps1] c main_v4 : S2097152x3.Idx → EReal)
      = Cert.Spec.refOut (m ((c : Thread nD τ).loc main_arg0)) (m ((c : Thread nD τ).loc main_arg1)) := by
  rw [tail_eq m c, final m c, V_main_arg1 m c]
  funext i
  obtain ⟨R, o, rfl⟩ : ∃ (R : Fin 2097152) (o : Fin 3), i = ix2 R o := ⟨i 0, i 1, eq_ix2 i⟩
  refine (extractStridedSlice_apply _ _ _ _ (ix2 R (⟨o.val, by omega⟩ : Fin 128) : S2097152x128.Idx) ?_).trans ?_
  · intro a
    match a with
    | ⟨0, _⟩ => show R.val = 0 + R.val; omega
    | ⟨1, _⟩ => show o.val = 0 + o.val; omega
  · exact wide_entry _ _ _ (entry_apply m c) R o

/-- THE REFERENCE'S RUN: every weakly fair execution of @main terminates, the result buffer ends at the
    specification's `refOut` of the two argument arrays, and the arguments end unchanged. -/
theorem run : θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v4)
        = Cert.Spec.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun r h c =>
    ⟨((h c).2 main_v4 (Pipeline.mem_restRefs_of main_v4 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩) (run_main m ρ)

end Cert.ReferenceIdeal.RefValue

end
-- ==== Proof.lean ====
/-
  The certificate of a two-layer perceptron `y = relu(x·w1 + b1)·w2 + b2` over 2097152 rows of 4 features, all
  parameters packed in one 152×128 slab, computed two ways.

  The reference pads each row to 8 features and runs 4096 blocks of 512 rows through two products against the
  slab's 8×128 and 128×128 weight blocks, adding the bias rows, and keeps output lanes 0..2.  The kernel works on the
  transposed input: each of its 16 grid points stacks two half blocks of 65536 columns on the contraction axis and
  multiplies by block-diagonal matrices that carry only 56 hidden lanes, the second layer's bias folded into the
  product through hidden lane 50 (its first-layer bias set to 1, its second-layer row set to the bias).

  At the exact instance the two agree when the slab's padded hidden columns 50..127 are exactly zero in the first
  layer's weights and bias (rows 0..8) — the reference's own stated contract, added to the precondition: then hidden
  lanes 50..127 of the reference are `max 0 0 = 0`, the kernel's lanes 51..55 likewise, and the kernel's lane 50 is
  `max (0 + 1) 0 = 1`, which times the folded row is the bias.  No distributivity is needed (only `0·a = 0`,
  sums split at a block boundary and the commutativity of products), so finiteness of the inputs is not used.

  The parts: `Spec` states both sides' mathematics; `Algebra` proves them equal under the contract; `PreDecode`
  reads the contract out of the printed precondition; `HostGlue*` read the kernel's host operations (slices,
  scatters, concatenation, transposes) at an index; `KFrame*`, `KRun*`, `KPost*` are the kernel's run — its two
  input windows share the transposed input's buffer, each holding half of it —; `KPay` and `KValue` read the
  kernel's output array index by index; `RefValue*` do the same for the reference over its generated frame.
-/
import proofs.«130756_g2000304380712430_pallasbulk_699_25_alg».proof.Defs
import proofs.«130756_g2000304380712430_pallasbulk_699_25_alg».proof.Proof.Gen.Kernel
import proofs.«130756_g2000304380712430_pallasbulk_699_25_alg».proof.Proof.Gen.KernelIdeal
import proofs.«130756_g2000304380712430_pallasbulk_699_25_alg».proof.Proof.Gen.ReferenceIdeal
import proofs.«130756_g2000304380712430_pallasbulk_699_25_alg».proof.Proof.Gen.ReferenceIdeal.Frame
import proofs.«130756_g2000304380712430_pallasbulk_699_25_alg».proof.Proof.Gen.Pre_finite_inputs
import proofs.«130756_g2000304380712430_pallasbulk_699_25_alg».proof.Proof.KPostB
import proofs.«130756_g2000304380712430_pallasbulk_699_25_alg».proof.Proof.KPostI
import proofs.«130756_g2000304380712430_pallasbulk_699_25_alg».proof.Proof.KValue
import proofs.«130756_g2000304380712430_pallasbulk_699_25_alg».proof.Proof.HostGlue
import proofs.«130756_g2000304380712430_pallasbulk_699_25_alg».proof.Proof.Algebra
import proofs.«130756_g2000304380712430_pallasbulk_699_25_alg».proof.Proof.PreDecode
import proofs.«130756_g2000304380712430_pallasbulk_699_25_alg».proof.Proof.RefValueRun
import Idealize.ShloMosaic.Lib.ValueLayout
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

attribute [local instance] Cert.Kernel.Gen.facts Cert.KernelIdeal.Gen.facts Cert.ReferenceIdeal.Gen.facts Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Gen.frame m ρ

/-- The kernel's result, the transposed output array, is the specification's kernel result of the arguments. -/
theorem kernel_value (m : (ℓ : Loc Cert.KernelIdeal.nD Cert.KernelIdeal.τ Cert.KernelIdeal.sig) → Buf (Elt Ideal) ℓ) (c : Dev Cert.KernelIdeal.nD) :
    transpose Cert.KernelIdeal.S2097152x3 [1, 0] ((Cert.KernelIdeal.Hand.dats m 0 c).arrAt 5 Cert.KernelIdeal.cfg0.N) Cert.KernelIdeal.Facts₀.transposes_S3x2097152_S2097152x3_1_0
      = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  rw [Cert.KernelIdeal.Hand.final5 m c]
  funext i
  obtain ⟨R, o, rfl⟩ : ∃ (R : Fin 2097152) (o : Fin 3), i = ix2 R o := ⟨i 0, i 1, eq_ix2 i⟩
  rw [transpose_ix2_apply]
  exact Cert.KernelIdeal.Hand.G5_kerOut _ _ _ _ _ _ (Cert.KernelIdeal.HostGlue.glue_x m c) (Cert.KernelIdeal.HostGlue.glue_w1d m c)
    (Cert.KernelIdeal.HostGlue.glue_b1d m c) (Cert.KernelIdeal.HostGlue.glue_w2d m c) R o

/-- Both idealized programs end at the perceptron of the arguments: the kernel's run read through its output array,
    the reference's through its own, joined by the algebra under the zero-padding contract. -/
theorem algebraic : Cert.algebraic_KernelIdeal_ReferenceIdeal := by
  intro m ρ m' ρ' hpre hagree
  refine ⟨fun c => Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono (fun r h c => ⟨(h c).1.trans (kernel_value m c), (h c).2⟩)
      (Cert.KernelIdeal.Hand.run_result m ρ)
  · refine (θ_run Cert.ReferenceIdeal.defs _ _).mono (fun r h c => ⟨(h c).1.trans ?_, (h c).2⟩)
      (Cert.ReferenceIdeal.RefValue.run m' ρ')
    rw [(hagree c).1, (hagree c).2]
    obtain ⟨hx, hp, hz⟩ := Cert.PreDecode.pre_facts _ _ (hpre c)
    exact (Cert.Spec.kerOut_eq_refOut _ _ hx hp hz).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
